-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x8192 : Shape := ⟨2, ![2048, 8192]⟩
abbrev S8192 : Shape := ⟨1, ![8192]⟩
abbrev S2048x128 : Shape := ⟨2, ![2048, 128]⟩
abbrev S128 : Shape := ⟨1, ![128]⟩
abbrev S4096x2048 : Shape := ⟨2, ![4096, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S4096x2048 .f32) (main_arg10 : FVec F S2048 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S4096x2048 .f32 := Host.absf main_arg9
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S128 .f32) (main_arg5 : FVec F S128 .f32) (main_arg6 : FVec F S128 .f32) (main_arg7 : FVec F S128 .f32) (main_arg8 : FVec F S128 .f32) (main_arg9 : FVec F S4096x2048 .f32) (main_arg10 : FVec F S2048 .f32) (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x2048 .f32) (main_arg1 : FVec F S2048x8192 .f32) (main_arg2 : FVec F S8192 .f32) (main_arg3 : FVec F S2048x128 .f32) (main_arg4 : FVec F S128 .f32) (main_arg5 : FVec F S128 .f32) (main_arg6 : FVec F S128 .f32) (main_arg7 : FVec F S128 .f32) (main_arg8 : FVec F S128 .f32) (main_arg9 : FVec F S4096x2048 .f32) (main_arg10 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_arg4 main_arg5 main_arg6 main_arg7 main_arg8 main_arg9 main_arg10 main_v13 main_v16
-- ==== Kernel.lean ====
abbrev S4x2048x2048 : Shape := ⟨3, ![4, 2048, 2048]⟩
abbrev S2048x8192 : Shape := ⟨2, ![2048, 8192]⟩
abbrev S8192 : Shape := ⟨1, ![8192]⟩
abbrev S2048x128 : Shape := ⟨2, ![2048, 128]⟩
abbrev S128 : Shape := ⟨1, ![128]⟩
abbrev S4096x2048 : Shape := ⟨2, ![4096, 2048]⟩
abbrev S2048 : Shape := ⟨1, ![2048]⟩
abbrev S2048x4096 : Shape := ⟨2, ![2048, 4096]⟩
abbrev S4096 : Shape := ⟨1, ![4096]⟩
abbrev S1x4096 : Shape := ⟨2, ![1, 4096]⟩
abbrev S1x128 : Shape := ⟨2, ![1, 128]⟩
abbrev S1x2048 : Shape := ⟨2, ![1, 2048]⟩
abbrev S4x2048x4096 : Shape := ⟨3, ![4, 2048, 4096]⟩
abbrev S4x2048x128 : Shape := ⟨3, ![4, 2048, 128]⟩
abbrev S1x256x2048 : Shape := ⟨3, ![1, 256, 2048]⟩
abbrev S1x256x4096 : Shape := ⟨3, ![1, 256, 4096]⟩
abbrev S1x256x128 : Shape := ⟨3, ![1, 256, 128]⟩
abbrev S256x2048 : Shape := ⟨2, ![256, 2048]⟩
abbrev S256x4096 : Shape := ⟨2, ![256, 4096]⟩
abbrev S256x128 : Shape := ⟨2, ![256, 128]⟩
abbrev S256x256 : Shape := ⟨2, ![256, 256]⟩

abbrev nBuf : Space → Nat
  | .hbm => 32
  | .vmem => 37
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S8192, .f32⟩
  | .hbm, ⟨3, _⟩ => ⟨S2048x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S4096x2048, .f32⟩
  | .hbm, ⟨10, _⟩ => ⟨S2048, .f32⟩
  | .hbm, ⟨11, _⟩ => ⟨S2048x4096, .f32⟩
  | .hbm, ⟨12, _⟩ => ⟨S2048x4096, .f32⟩
  | .hbm, ⟨13, _⟩ => ⟨S4096, .f32⟩
  | .hbm, ⟨14, _⟩ => ⟨S4096, .f32⟩
  | .hbm, ⟨15, _⟩ => ⟨S2048x4096, .bf16⟩
  | .hbm, ⟨16, _⟩ => ⟨S2048x4096, .bf16⟩
  | .hbm, ⟨17, _⟩ => ⟨S2048x128, .bf16⟩
  | .hbm, ⟨18, _⟩ => ⟨S4096x2048, .bf16⟩
  | .hbm, ⟨19, _⟩ => ⟨S1x4096, .f32⟩
  | .hbm, ⟨20, _⟩ => ⟨S1x4096, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x2048, .f32⟩
  | .hbm, ⟨27, _⟩ => ⟨S4x2048x4096, .bf16⟩
  | .hbm, ⟨28, _⟩ => ⟨S4x2048x128, .bf16⟩
  | .hbm, ⟨29, _⟩ => ⟨S4x2048x128, .bf16⟩
  | .hbm, ⟨30, _⟩ => ⟨S4x2048x4096, .f32⟩
  | .hbm, ⟨31, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S2048x4096, .bf16⟩
  | .local _ .vmem, ⟨3, _⟩ => ⟨S1x4096, .f32⟩
  | .local _ .vmem, ⟨4, _⟩ => ⟨S2048x128, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x256x4096, .bf16⟩
  | .local _ .vmem, ⟨11, _⟩ => ⟨S1x256x4096, .bf16⟩
  | .local _ .vmem, ⟨12, _⟩ => ⟨S1x256x128, .bf16⟩
  | .local _ .vmem, ⟨13, _⟩ => ⟨S1x256x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x2048, .f32⟩
  | .local _ .vmem, ⟨17, _⟩ => ⟨S1x256x2048, .f32⟩
  | .local _ .vmem, ⟨18, _⟩ => ⟨S2048x4096, .bf16⟩
  | .local _ .vmem, ⟨19, _⟩ => ⟨S1x4096, .f32⟩
  | .local _ .vmem, ⟨20, _⟩ => ⟨S1x256x4096, .f32⟩
  | .local _ .vmem, ⟨21, _⟩ => ⟨S1x256x4096, .f32⟩
  | .local _ .vmem, ⟨22, _⟩ => ⟨S1x256x128, .bf16⟩
  | .local _ .vmem, ⟨23, _⟩ => ⟨S1x256x128, .bf16⟩
  | .local _ .vmem, ⟨24, _⟩ => ⟨S1x256x128, .bf16⟩
  | .local _ .vmem, ⟨25, _⟩ => ⟨S1x256x128, .bf16⟩
  | .local _ .vmem, ⟨26, _⟩ => ⟨S1x256x4096, .bf16⟩
  | .local _ .vmem, ⟨27, _⟩ => ⟨S1x256x4096, .bf16⟩
  | .local _ .vmem, ⟨28, _⟩ => ⟨S1x256x4096, .f32⟩
  | .local _ .vmem, ⟨29, _⟩ => ⟨S1x256x4096, .f32⟩
  | .local _ .vmem, ⟨30, _⟩ => ⟨S1x256x2048, .f32⟩
  | .local _ .vmem, ⟨31, _⟩ => ⟨S1x256x2048, .f32⟩
  | .local _ .vmem, ⟨32, _⟩ => ⟨S4096x2048, .bf16⟩
  | .local _ .vmem, ⟨33, _⟩ => ⟨S1x2048, .f32⟩
  | .local _ .vmem, ⟨34, _⟩ => ⟨S1x256x2048, .f32⟩
  | .local _ .vmem, ⟨35, _⟩ => ⟨S1x256x2048, .f32⟩
  | .local _ .vmem, ⟨36, _⟩ => ⟨S256x4096, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc2_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![4, 8, 8], ![false, false, false]⟩

def k2_cond2 (i : grid2.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_16 : BitVec 32 := 0#32
  let v24 : BitVec 1 := Scalar.cmpi .ne v23 c0_i32_16
  v24

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x256x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x256x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x256x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1x256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 1 → Memref sig .tc .vmem S4096x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false]

abbrev stage2_7 : Fin 2 → Memref sig .tc .vmem S1x256x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

class Facts₀ : Prop where
  slices_S2048x8192_S2048x4096_0_0 : S2048x8192.Slices ![0, 0] S2048x4096
  slices_S2048x8192_S2048x4096_0_4096 : S2048x8192.Slices ![0, 4096] S2048x4096
  slices_S8192_S4096_0 : S8192.Slices ![0] S4096
  slices_S8192_S4096_4096 : S8192.Slices ![4096] S4096
  bitsLt_bf16_f32 : FTy.bits .bf16 < FTy.bits .f32
  shapeCasts_S4096_S1x4096 : S4096.ShapeCasts S1x4096
  shapeCasts_S128_S1x128 : S128.ShapeCasts S1x128
  shapeCasts_S2048_S1x2048 : S2048.ShapeCasts S1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  packedbf16_S1x256x4096_S1x256x4096_0_0_0 : (Rect.unit (s := S1x256x4096) ![0, 0, 0] S1x256x4096.size inb_S1x256x4096_S1x256x4096_0_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  packedbf16_S1x256x128_S1x256x128_0_0_0 : (Rect.unit (s := S1x256x128) ![0, 0, 0] S1x256x128.size inb_S1x256x128_S1x256x128_0_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S256x2048_S1x256x2048 : S256x2048.ShapeCasts S1x256x2048
  dot_S256x2048_S2048x4096_S256x4096_1_0_0_1_n_n_wf : DotDims.WF S256x2048 S2048x4096 S256x4096 [1] [0] [0] [1] [] []
  dot_S256x2048_S2048x128_S256x128_1_0_0_1_n_n_wf : DotDims.WF S256x2048 S2048x128 S256x128 [1] [0] [0] [1] [] []
  dot_S256x128_S256x128_S256x256_1_1_0_0_n_n_wf : DotDims.WF S256x128 S256x128 S256x256 [1] [1] [0] [0] [] []
  dot_S256x256_S256x4096_S256x4096_1_0_0_1_n_n_wf : DotDims.WF S256x256 S256x4096 S256x4096 [1] [0] [0] [1] [] []
  dot_S256x4096_S4096x2048_S256x2048_1_0_0_1_n_n_wf : DotDims.WF S256x4096 S4096x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x2048x2048.size a
  hwx0_0 : ∀ i : grid0.Coords, EltTy.bits .f32 = 32 ∨ (Rect.block (s := S4x2048x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x128.size a
  hwx0_3 : ∀ i : grid0.Coords, EltTy.bits .bf16 = 32 ∨ (Rect.block (s := S2048x128) S2048x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x4096.size a ≤ S4x2048x4096.size a
  hwx0_9 : ∀ i : grid0.Coords, EltTy.bits .bf16 = 32 ∨ (Rect.block (s := S4x2048x4096) S1x256x4096.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x128.size a ≤ S4x2048x128.size a
  hwx0_10 : ∀ i : grid0.Coords, EltTy.bits .bf16 = 32 ∨ (Rect.block (s := S4x2048x128) S1x256x128.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x128.size a ≤ S4x2048x128.size a
  hwx0_11 : ∀ i : grid0.Coords, EltTy.bits .bf16 = 32 ∨ (Rect.block (s := S4x2048x128) S1x256x128.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S4x2048x2048.size a
  hwx1_0 : ∀ i : grid1.Coords, EltTy.bits .f32 = 32 ∨ (Rect.block (s := S4x2048x2048) S1x256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x4096.size a ≤ S2048x4096.size a
  hwx1_1 : ∀ i : grid1.Coords, EltTy.bits .bf16 = 32 ∨ (Rect.block (s := S2048x4096) S2048x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x4096.size a ≤ S4x2048x4096.size a
  hwx1_3 : ∀ i : grid1.Coords, EltTy.bits .f32 = 32 ∨ (Rect.block (s := S4x2048x4096) S1x256x4096.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x128.size a ≤ S4x2048x128.size a
  hwx2_0 : ∀ i : grid2.Coords, EltTy.bits .bf16 = 32 ∨ (Rect.block (s := S4x2048x128) S1x256x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x128.size a ≤ S4x2048x128.size a
  hwx2_1 : ∀ i : grid2.Coords, EltTy.bits .bf16 = 32 ∨ (Rect.block (s := S4x2048x128) S1x256x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x4096.size a ≤ S4x2048x4096.size a
  hwx2_2 : ∀ i : grid2.Coords, EltTy.bits .bf16 = 32 ∨ (Rect.block (s := S4x2048x4096) S1x256x4096.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256x4096.size a ≤ S4x2048x4096.size a
  hwx2_3 : ∀ i : grid2.Coords, EltTy.bits .f32 = 32 ∨ (Rect.block (s := S4x2048x4096) S1x256x4096.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256x2048.size a ≤ S4x2048x2048.size a
  hwx2_4 : ∀ i : grid2.Coords, EltTy.bits .f32 = 32 ∨ (Rect.block (s := S4x2048x2048) S1x256x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4096x2048.size a ≤ S4096x2048.size a
  hwx2_5 : ∀ i : grid2.Coords, EltTy.bits .bf16 = 32 ∨ (Rect.block (s := S4096x2048) S4096x2048.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x256x2048.size a ≤ S4x2048x2048.size a
  hwx2_7 : ∀ i : grid2.Coords, EltTy.bits .f32 = 32 ∨ (Rect.block (s := S4x2048x2048) S1x256x2048.size (cc2_transform_7 i) (hinb2_7 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S256x128_S256x128_S256x256_1_1_0_0_n_n : DotDims S256x128 S256x128 S256x256 where
  lhsContracting := [1]
  rhsContracting := [1]
  lhsNonContracting := [0]
  rhsNonContracting := [0]
  lhsBatch := []
  rhsBatch := []
  wf := dot_S256x128_S256x128_S256x256_1_1_0_0_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16_0) S1x256x4096.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v16_1) S1x256x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v16_2) S1x256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16_1) S1x256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16_2) S1x256x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16_0) S1x256x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x256x4096.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S1x256x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v7) S4096x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S1x256x2048.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S2048x8192 : Shape := ⟨2, ![2048, 8192]⟩
abbrev S8192 : Shape := ⟨1, ![8192]⟩
abbrev S2048x128 : Shape := ⟨2, ![2048, 128]⟩
abbrev S128 : Shape := ⟨1, ![128]⟩
abbrev S4096x2048 : Shape := ⟨2, ![4096, 2048]⟩
abbrev S2048 : Shape := ⟨1, ![2048]⟩
abbrev S4x2048x8192 : Shape := ⟨3, ![4, 2048, 8192]⟩
abbrev S1x1x8192 : Shape := ⟨3, ![1, 1, 8192]⟩
abbrev S_ : Shape := ⟨0, ![]⟩
abbrev S4x2048x4096 : Shape := ⟨3, ![4, 2048, 4096]⟩
abbrev S4x2048x128 : Shape := ⟨3, ![4, 2048, 128]⟩
abbrev S1x1x128 : Shape := ⟨3, ![1, 1, 128]⟩
abbrev S1x1x2048 : Shape := ⟨3, ![1, 1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S8192, .f32⟩
  | .hbm, ⟨3, _⟩ => ⟨S2048x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S4096x2048, .f32⟩
  | .hbm, ⟨10, _⟩ => ⟨S2048, .f32⟩
  | .hbm, ⟨11, _⟩ => ⟨S4x2048x8192, .f32⟩
  | .hbm, ⟨12, _⟩ => ⟨S1x1x8192, .f32⟩
  | .hbm, ⟨13, _⟩ => ⟨S4x2048x8192, .f32⟩
  | .hbm, ⟨14, _⟩ => ⟨S4x2048x8192, .f32⟩
  | .hbm, ⟨15, _⟩ => ⟨S4x2048x8192, .f32⟩
  | .hbm, ⟨16, _⟩ => ⟨S4x2048x8192, .f32⟩
  | .hbm, ⟨17, _⟩ => ⟨S_, .f32⟩
  | .hbm, ⟨18, _⟩ => ⟨S4x2048x8192, .f32⟩
  | .hbm, ⟨19, _⟩ => ⟨S4x2048x8192, .f32⟩
  | .hbm, ⟨20, _⟩ => ⟨S_, .f32⟩
  | .hbm, ⟨21, _⟩ => ⟨S4x2048x8192, .f32⟩
  | .hbm, ⟨22, _⟩ => ⟨S4x2048x8192, .f32⟩
  | .hbm, ⟨23, _⟩ => ⟨S4x2048x8192, .f32⟩
  | .hbm, ⟨24, _⟩ => ⟨S4x2048x4096, .f32⟩
  | .hbm, ⟨25, _⟩ => ⟨S4x2048x4096, .f32⟩
  | .hbm, ⟨26, _⟩ => ⟨S4x2048x128, .f32⟩
  | .hbm, ⟨27, _⟩ => ⟨S1x1x128, .f32⟩
  | .hbm, ⟨28, _⟩ => ⟨S4x2048x128, .f32⟩
  | .hbm, ⟨29, _⟩ => ⟨S4x2048x128, .f32⟩
  | .hbm, ⟨30, _⟩ => ⟨S4x2048x128, .f32⟩
  | .hbm, ⟨31, _⟩ => ⟨S4x2048x128, .f32⟩
  | .hbm, ⟨32, _⟩ => ⟨S_, .f32⟩
  | .hbm, ⟨33, _⟩ => ⟨S4x2048x128, .f32⟩
  | .hbm, ⟨34, _⟩ => ⟨S4x2048x128, .f32⟩
  | .hbm, ⟨35, _⟩ => ⟨S_, .f32⟩
  | .hbm, ⟨36, _⟩ => ⟨S4x2048x128, .f32⟩
  | .hbm, ⟨37, _⟩ => ⟨S4x2048x128, .f32⟩
  | .hbm, ⟨38, _⟩ => ⟨S4x2048x128, .f32⟩
  | .hbm, ⟨39, _⟩ => ⟨S1x1x128, .f32⟩
  | .hbm, ⟨40, _⟩ => ⟨S4x2048x128, .f32⟩
  | .hbm, ⟨41, _⟩ => ⟨S4x2048x128, .f32⟩
  | .hbm, ⟨42, _⟩ => ⟨S1x1x128, .f32⟩
  | .hbm, ⟨43, _⟩ => ⟨S4x2048x128, .f32⟩
  | .hbm, ⟨44, _⟩ => ⟨S4x2048x128, .f32⟩
  | .hbm, ⟨45, _⟩ => ⟨S1x1x128, .f32⟩
  | .hbm, ⟨46, _⟩ => ⟨S4x2048x128, .f32⟩
  | .hbm, ⟨47, _⟩ => ⟨S4x2048x128, .f32⟩
  | .hbm, ⟨48, _⟩ => ⟨S1x1x128, .f32⟩
  | .hbm, ⟨49, _⟩ => ⟨S4x2048x128, .f32⟩
  | .hbm, ⟨50, _⟩ => ⟨S4x2048x128, .f32⟩
  | .hbm, ⟨51, _⟩ => ⟨S4x2048x2048, .f32⟩
  | .hbm, ⟨52, _⟩ => ⟨S_, .f32⟩
  | .hbm, ⟨53, _⟩ => ⟨S4x2048x2048, .f32⟩
  | .hbm, ⟨54, _⟩ => ⟨S4x2048x2048, .f32⟩
  | .hbm, ⟨55, _⟩ => ⟨S_, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S4x2048x4096, .f32⟩
  | .hbm, ⟨60, _⟩ => ⟨S4x2048x4096, .f32⟩
  | .hbm, ⟨61, _⟩ => ⟨S4x2048x2048, .f32⟩
  | .hbm, ⟨62, _⟩ => ⟨S1x1x2048, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst : Ref sig .tc := ⟨.hbm, 52, rfl⟩
abbrev main_v25 : Ref sig .tc := ⟨.hbm, 53, rfl⟩
abbrev main_v26 : Ref sig .tc := ⟨.hbm, 54, rfl⟩
abbrev main_call2_cst : Ref sig .tc := ⟨.hbm, 55, rfl⟩
abbrev main_call2_v0 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  bcast_S_S4x2048x8192 : S_.BroadcastsInDim S4x2048x8192 (![] : Fin 0 → Fin S4x2048x8192.rank)
  slices_S4x2048x8192_S4x2048x4096_0_0_0 : S4x2048x8192.Slices ![0, 0, 0] S4x2048x4096
  slices_S4x2048x8192_S4x2048x4096_0_0_4096 : S4x2048x8192.Slices ![0, 0, 4096] S4x2048x4096
  bcast_S128_S1x1x128_2 : S128.BroadcastsInDim S1x1x128 (![2] : Fin 1 → Fin S1x1x128.rank)
  bcast_S1x1x128_S4x2048x128_0_1_2 : S1x1x128.BroadcastsInDim S4x2048x128 (![0, 1, 2] : Fin 3 → Fin S4x2048x128.rank)
  bcast_S_S4x2048x128 : S_.BroadcastsInDim S4x2048x128 (![] : Fin 0 → Fin S4x2048x128.rank)
  bcast_S_S4x2048x2048 : S_.BroadcastsInDim S4x2048x2048 (![] : Fin 0 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S2048x8192_S4x2048x8192_2_0_01_1_n_n_wf : DotDims.WF S4x2048x2048 S2048x8192 S4x2048x8192 [2] [0] [0, 1] [1] [] []
  dot_S4x2048x2048_S2048x128_S4x2048x128_2_0_01_1_n_n_wf : DotDims.WF S4x2048x2048 S2048x128 S4x2048x128 [2] [0] [0, 1] [1] [] []
  dot_S4x2048x128_S4x2048x128_S4x2048x2048_2_2_1_1_0_0_wf : DotDims.WF S4x2048x128 S4x2048x128 S4x2048x2048 [2] [2] [1] [1] [0] [0]
  dot_S4x2048x2048_S4x2048x4096_S4x2048x4096_2_1_1_2_0_0_wf : DotDims.WF S4x2048x2048 S4x2048x4096 S4x2048x4096 [2] [1] [1] [2] [0] [0]
  dot_S4x2048x4096_S4096x2048_S4x2048x2048_2_0_01_1_n_n_wf : DotDims.WF S4x2048x4096 S4096x2048 S4x2048x2048 [2] [0] [0, 1] [1] [] []

variable [Facts₀]

def dot_S4x2048x2048_S2048x8192_S4x2048x8192_2_0_01_1_n_n : DotDims S4x2048x2048 S2048x8192 S4x2048x8192 where
  lhsContracting := [2]
  rhsContracting := [0]
  lhsNonContracting := [0, 1]
  rhsNonContracting := [1]
  lhsBatch := []
  rhsBatch := []
  wf := dot_S4x2048x2048_S2048x8192_S4x2048x8192_2_0_01_1_n_n_wf
def dot_S4x2048x2048_S2048x128_S4x2048x128_2_0_01_1_n_n : DotDims S4x2048x2048 S2048x128 S4x2048x128 where
  lhsContracting := [2]
  rhsContracting := [0]
  lhsNonContracting := [0, 1]
  rhsNonContracting := [1]
  lhsBatch := []
  rhsBatch := []
  wf := dot_S4x2048x2048_S2048x128_S4x2048x128_2_0_01_1_n_n_wf
def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf
def dot_S4x2048x2048_S4x2048x4096_S4x2048x4096_2_1_1_2_0_0 : DotDims S4x2048x2048 S4x2048x4096 S4x2048x4096 where
  lhsContracting := [2]
  rhsContracting := [1]
  lhsNonContracting := [1]
  rhsNonContracting := [2]
  lhsBatch := [0]
  rhsBatch := [0]
  wf := dot_S4x2048x2048_S4x2048x4096_S4x2048x4096_2_1_1_2_0_0_wf
def dot_S4x2048x4096_S4096x2048_S4x2048x2048_2_0_01_1_n_n : DotDims S4x2048x4096 S4096x2048 S4x2048x2048 where
  lhsContracting := [2]
  rhsContracting := [0]
  lhsNonContracting := [0, 1]
  rhsNonContracting := [1]
  lhsBatch := []
  rhsBatch := []
  wf := dot_S4x2048x4096_S4096x2048_S4x2048x2048_2_0_01_1_n_n_wf

class Facts : Prop extends Facts₀ where

variable [Facts]
-- ==== Proof.K.Reg0.lean ====
import proofs.«179628_j85083302134314_2_alg».proof.Proof.Gen.Kernel.Launch
import proofs.«179628_j85083302134314_2_alg».proof.Proof.Gen.Kernel.Skeleton
import proofs.«179628_j85083302134314_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Region 0: the value, query and key projections, one block of 256 rows per grid point -/

/-- The block of window `w` at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three zero offsets of a rank-3 rectangle are the constant zero function. -/
theorem offs3_0 : (![0, 0, 0] : Fin 3 → Nat) = fun _ => 0 := by
  funext a; match a with | ⟨0, _⟩ => rfl | ⟨1, _⟩ => rfl | ⟨2, _⟩ => rfl

/-- The two zero offsets of a rank-2 rectangle are the constant zero function. -/
theorem offs2_0 : (![0, 0] : Fin 2 → Nat) = fun _ => 0 := by
  funext a; match a with | ⟨0, _⟩ => rfl | ⟨1, _⟩ => rfl

/-! ## The rectangles the body reads and writes through: each is its buffer's whole shape at offset zero -/

abbrev rx0 : Rect S1x256x2048 := Rect.unit (s := S1x256x2048) ![0, 0, 0] S1x256x2048.size inb_S1x256x2048_S1x256x2048_0_0_0
abbrev rwv0 : Rect S2048x4096 := Rect.unit (s := S2048x4096) ![0, 0] S2048x4096.size inb_S2048x4096_S2048x4096_0_0
abbrev rbv0 : Rect S1x4096 := Rect.unit (s := S1x4096) ![0, 0] S1x4096.size inb_S1x4096_S1x4096_0_0
abbrev rwq0 : Rect S2048x128 := Rect.unit (s := S2048x128) ![0, 0] S2048x128.size inb_S2048x128_S2048x128_0_0
abbrev rrow0 : Rect S1x128 := Rect.unit (s := S1x128) ![0, 0] S1x128.size inb_S1x128_S1x128_0_0
abbrev ro0_9 : Rect S1x256x4096 := Rect.unit (s := S1x256x4096) ![0, 0, 0] S1x256x4096.size inb_S1x256x4096_S1x256x4096_0_0_0
abbrev ro0_qk : Rect S1x256x128 := Rect.unit (s := S1x256x128) ![0, 0, 0] S1x256x128.size inb_S1x256x128_S1x256x128_0_0_0

/-! ## What the body leaves in each output window's buffer

Each output buffer receives one store over its whole shape; its value is a payload of the loads of the input blocks
that output depends on. -/

/-- Output window 9's buffer after the body, from the input blocks it depends on. -/
def out0_9 (x0 : Vec F S1x256x2048 .f32) (x1 : Vec F S2048x4096 .bf16) (x2 : Vec F S1x4096 .f32) : Vec F S1x256x4096 .bf16 :=
  View.canon [⟨ro0_9, k0_pay4 (View.ld x0 rx0) (View.ld x1 rwv0) (View.ld x2 rbv0)⟩]

/-- All loads and the store are whole-shape at offset zero: the buffer ends at the payload of the blocks themselves. -/
theorem out0_9_eq (x0 : Vec F S1x256x2048 .f32) (x1 : Vec F S2048x4096 .bf16) (x2 : Vec F S1x4096 .f32) :
    out0_9 x0 x1 x2 = k0_pay4 x0 x1 x2 := by
  unfold out0_9
  rw [View.canon_unit_zero offs3_0, View.ld_unit_zero offs3_0, View.ld_unit_zero offs2_0, View.ld_unit_zero offs2_0]

/-- The single store covers the whole block. -/
theorem cover0_9 (p0 : Vec F S1x256x4096 .bf16) (y : S1x256x4096.Idx) :
    ∃ pc ∈ ([⟨ro0_9, p0⟩] : List (View.Piece (Elt F) S1x256x4096 .bf16)), y ∈ pc.1.set :=
  ⟨_, List.mem_singleton_self _, View.mem_set_unit_zero offs3_0 inb_S1x256x4096_S1x256x4096_0_0_0 y⟩

/-- Output window 10's buffer after the body, from the input blocks it depends on. -/
def out0_10 (x0 : Vec F S1x256x2048 .f32) (x3 : Vec F S2048x128 .bf16) (x4 : Vec F S1x128 .f32) (x5 : Vec F S1x128 .f32) (x6 : Vec F S1x128 .f32) : Vec F S1x256x128 .bf16 :=
  View.canon [⟨ro0_qk, k0_pay1 (k0_pay6 (View.ld x0 rx0) (View.ld x3 rwq0) (View.ld x4 rrow0) (View.ld x5 rrow0) (View.ld x6 rrow0))⟩]

/-- All loads and the store are whole-shape at offset zero: the buffer ends at the payload of the blocks themselves. -/
theorem out0_10_eq (x0 : Vec F S1x256x2048 .f32) (x3 : Vec F S2048x128 .bf16) (x4 : Vec F S1x128 .f32) (x5 : Vec F S1x128 .f32) (x6 : Vec F S1x128 .f32) :
    out0_10 x0 x3 x4 x5 x6 = k0_pay1 (k0_pay6 x0 x3 x4 x5 x6) := by
  unfold out0_10
  rw [View.canon_unit_zero offs3_0, View.ld_unit_zero offs3_0, View.ld_unit_zero offs2_0, View.ld_unit_zero offs2_0, View.ld_unit_zero offs2_0, View.ld_unit_zero offs2_0]

/-- The single store covers the whole block. -/
theorem cover0_10 (p0 : Vec F S1x256x128 .bf16) (y : S1x256x128.Idx) :
    ∃ pc ∈ ([⟨ro0_qk, p0⟩] : List (View.Piece (Elt F) S1x256x128 .bf16)), y ∈ pc.1.set :=
  ⟨_, List.mem_singleton_self _, View.mem_set_unit_zero offs3_0 inb_S1x256x128_S1x256x128_0_0_0 y⟩

/-- Output window 11's buffer after the body, from the input blocks it depends on. -/
def out0_11 (x0 : Vec F S1x256x2048 .f32) (x3 : Vec F S2048x128 .bf16) (x4 : Vec F S1x128 .f32) (x7 : Vec F S1x128 .f32) (x8 : Vec F S1x128 .f32) : Vec F S1x256x128 .bf16 :=
  View.canon [⟨ro0_qk, k0_pay2 (k0_pay5 (View.ld x0 rx0) (View.ld x3 rwq0) (View.ld x4 rrow0)) (k0_pay7 (View.ld x7 rrow0)) (View.ld x8 rrow0)⟩]

/-- All loads and the store are whole-shape at offset zero: the buffer ends at the payload of the blocks themselves. -/
theorem out0_11_eq (x0 : Vec F S1x256x2048 .f32) (x3 : Vec F S2048x128 .bf16) (x4 : Vec F S1x128 .f32) (x7 : Vec F S1x128 .f32) (x8 : Vec F S1x128 .f32) :
    out0_11 x0 x3 x4 x7 x8 = k0_pay2 (k0_pay5 x0 x3 x4) (k0_pay7 x7) x8 := by
  unfold out0_11
  rw [View.canon_unit_zero offs3_0, View.ld_unit_zero offs3_0, View.ld_unit_zero offs2_0, View.ld_unit_zero offs2_0, View.ld_unit_zero offs2_0, View.ld_unit_zero offs2_0]

/-- The single store covers the whole block. -/
theorem cover0_11 (p0 : Vec F S1x256x128 .bf16) (y : S1x256x128.Idx) :
    ∃ pc ∈ ([⟨ro0_qk, p0⟩] : List (View.Piece (Elt F) S1x256x128 .bf16)), y ∈ pc.1.set :=
  ⟨_, List.mem_singleton_self _, View.mem_set_unit_zero offs3_0 inb_S1x256x128_S1x256x128_0_0_0 y⟩

/-! ## An input window's buffer holds its block at every point

A window fetched only at the first point keeps its block index from point to point, so the block fetched then is
still the block of the current point. -/

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 4000000 in
/-- The body on whole staging memrefs: the nine inputs at contents `x0 … x8`, the three outputs at anything. It
    loads the inputs, loads each output once (the values are not used) and stores one payload over each whole
    output, so it ends with the inputs as they were and output `W` at `out0_W` of the blocks it depends on. -/
theorem sound_kernel0 (c : Dev nD) (E : Set ℕ) (i : grid0.Coords)
    (arg2 : Memref sig .tc .vmem S1x256x2048 .f32) (harg2 : arg2.IsWhole)
    (arg3 : Memref sig .tc .vmem S2048x4096 .bf16) (harg3 : arg3.IsWhole)
    (arg4 : Memref sig .tc .vmem S1x4096 .f32) (harg4 : arg4.IsWhole)
    (arg5 : Memref sig .tc .vmem S2048x128 .bf16) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole)
    (arg10 : Memref sig .tc .vmem S1x128 .f32) (harg10 : arg10.IsWhole)
    (arg11 : Memref sig .tc .vmem S1x256x4096 .bf16) (harg11 : arg11.IsWhole)
    (arg12 : Memref sig .tc .vmem S1x256x128 .bf16) (harg12 : arg12.IsWhole)
    (arg13 : Memref sig .tc .vmem S1x256x128 .bf16) (harg13 : arg13.IsWhole)
    (x0 : Vec F S1x256x2048 .f32) (x1 : Vec F S2048x4096 .bf16) (x2 : Vec F S1x4096 .f32) (x3 : Vec F S2048x128 .bf16) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare (out0_9 x0 x1 x2)
            ∗ owns (c : Thread nD τ) arg12 fullShare (out0_10 x0 x3 x4 x5 x6)
            ∗ owns (c : Thread nD τ) arg13 fullShare (out0_11 x0 x3 x4 x7 x8)) -∗ K ⟨⟩))
      ⊢ wp frame (wpE (defs₀ (F := F)) Variants.none c none) E (cc0__gau_v_qk_kernel i arg2 harg2 arg3 harg3 arg4 harg4 arg5 harg5 arg6 harg6 arg7 harg7 arg8 harg8 arg9 harg9 arg10 harg10 arg11 harg11 arg12 harg12 arg13 harg13) K := by
  simp only [cc0__gau_v_qk_kernel_eq_skeleton]; unfold cc0__gau_v_qk_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  isplitl [H10]
  · iexists _; isplitr
    swap; · iexact H10
    ipureintro
    sl_unfold_run_names
    exact View.read_writes_eq_canon _ _ _ (cover0_10 _)
  iexists _; isplitr
  swap; · iexact H11
  ipureintro
  sl_unfold_run_names
  exact View.read_writes_eq_canon _ _ _ (cover0_11 _)

/-! ## The pipeline's proof data -/

/-- The proof data of pipeline 0 on core `c`: the arrays as the region finds them; after the body at point `t`
    each input's buffer still at its block and each output's at `out0_W` of the input blocks it depends on; the
    invariant is the untouched rest of the core's state; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t)
    | ⟨10, _⟩ => out0_10 (iblk0 V c 0 t) (iblk0 V c 3 t) (iblk0 V c 4 t) (iblk0 V c 5 t) (iblk0 V c 6 t)
    | ⟨11, _⟩ => out0_11 (iblk0 V c 0 t) (iblk0 V c 3 t) (iblk0 V c 4 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) :
    (dat0 V c).after 0 t = iblk0 V c 0 t := by dsimp only [dat0]
theorem after0_1 (c : Dev nD) (t : Fin cfg0.N) :
    (dat0 V c).after 1 t = iblk0 V c 1 t := by dsimp only [dat0]
theorem after0_2 (c : Dev nD) (t : Fin cfg0.N) :
    (dat0 V c).after 2 t = iblk0 V c 2 t := by dsimp only [dat0]
theorem after0_3 (c : Dev nD) (t : Fin cfg0.N) :
    (dat0 V c).after 3 t = iblk0 V c 3 t := by dsimp only [dat0]
theorem after0_4 (c : Dev nD) (t : Fin cfg0.N) :
    (dat0 V c).after 4 t = iblk0 V c 4 t := by dsimp only [dat0]
theorem after0_5 (c : Dev nD) (t : Fin cfg0.N) :
    (dat0 V c).after 5 t = iblk0 V c 5 t := by dsimp only [dat0]
theorem after0_6 (c : Dev nD) (t : Fin cfg0.N) :
    (dat0 V c).after 6 t = iblk0 V c 6 t := by dsimp only [dat0]
theorem after0_7 (c : Dev nD) (t : Fin cfg0.N) :
    (dat0 V c).after 7 t = iblk0 V c 7 t := by dsimp only [dat0]
theorem after0_8 (c : Dev nD) (t : Fin cfg0.N) :
    (dat0 V c).after 8 t = iblk0 V c 8 t := by dsimp only [dat0]
theorem after0_9 (c : Dev nD) (t : Fin cfg0.N) :
    (dat0 V c).after 9 t = out0_9 (iblk0 V c 0 t) (iblk0 V c 1 t) (iblk0 V c 2 t) := by dsimp only [dat0]
theorem after0_10 (c : Dev nD) (t : Fin cfg0.N) :
    (dat0 V c).after 10 t = out0_10 (iblk0 V c 0 t) (iblk0 V c 3 t) (iblk0 V c 4 t) (iblk0 V c 5 t) (iblk0 V c 6 t) := by dsimp only [dat0]
theorem after0_11 (c : Dev nD) (t : Fin cfg0.N) :
    (dat0 V c).after 11 t = out0_11 (iblk0 V c 0 t) (iblk0 V c 3 t) (iblk0 V c 4 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«179628_j85083302134314_2_alg».proof.Proof.Gen.Kernel.Launch
import proofs.«179628_j85083302134314_2_alg».proof.Proof.Gen.Kernel.Skeleton
import proofs.«179628_j85083302134314_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Region 1: the gate projection, one block of 256 rows per grid point -/

/-- The block of window `w` at grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three zero offsets of a rank-3 rectangle are the constant zero function. -/
theorem zero3 : (![0, 0, 0] : Fin 3 → Nat) = fun _ => 0 := by
  funext a; match a with | ⟨0, _⟩ => rfl | ⟨1, _⟩ => rfl | ⟨2, _⟩ => rfl

/-- The two zero offsets of a rank-2 rectangle are the constant zero function. -/
theorem zero2 : (![0, 0] : Fin 2 → Nat) = fun _ => 0 := by
  funext a; match a with | ⟨0, _⟩ => rfl | ⟨1, _⟩ => rfl

/-! ## The rectangles the body reads and writes through: each is its buffer's whole shape at offset zero -/

abbrev rx1 : Rect S1x256x2048 := Rect.unit (s := S1x256x2048) ![0, 0, 0] S1x256x2048.size inb_S1x256x2048_S1x256x2048_0_0_0
abbrev rw1 : Rect S2048x4096 := Rect.unit (s := S2048x4096) ![0, 0] S2048x4096.size inb_S2048x4096_S2048x4096_0_0
abbrev rb1 : Rect S1x4096 := Rect.unit (s := S1x4096) ![0, 0] S1x4096.size inb_S1x4096_S1x4096_0_0
abbrev ro1 : Rect S1x256x4096 := Rect.unit (s := S1x256x4096) ![0, 0, 0] S1x256x4096.size inb_S1x256x4096_S1x256x4096_0_0_0

/-! ## What the body leaves in the output window's buffer -/

/-- The output buffer after the body, as a function of the three input blocks: its single store, over the
    payload of the three loads. -/
def out1_3 (x0 : Vec F S1x256x2048 .f32) (x1 : Vec F S2048x4096 .bf16) (x2 : Vec F S1x4096 .f32) : Vec F S1x256x4096 .f32 :=
  View.canon [⟨ro1, k1_pay1 (View.ld x0 rx1) (View.ld x1 rw1) (View.ld x2 rb1)⟩]

/-- Every load and the store go through a whole-shape rectangle at offset zero, so the buffer ends at the payload
    of the blocks themselves. -/
theorem out1_3_eq (x0 : Vec F S1x256x2048 .f32) (x1 : Vec F S2048x4096 .bf16) (x2 : Vec F S1x4096 .f32) :
    out1_3 x0 x1 x2 = k1_pay1 x0 x1 x2 := by
  unfold out1_3
  rw [View.canon_unit_zero zero3, View.ld_unit_zero zero3, View.ld_unit_zero zero2, View.ld_unit_zero zero2]

/-- The single store covers the whole output block. -/
theorem cover1_3 (p0 : Vec F S1x256x4096 .f32) (y : S1x256x4096.Idx) :
    ∃ pc ∈ ([⟨ro1, p0⟩] : List (View.Piece (Elt F) S1x256x4096 .f32)), y ∈ pc.1.set :=
  ⟨_, List.mem_singleton_self _, View.mem_set_unit_zero zero3 inb_S1x256x4096_S1x256x4096_0_0_0 y⟩

/-! ## An input window's buffer holds its block at every point

A window fetched only at the first point keeps its block index from point to point, so the block fetched then is
still the block of the current point. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The body on whole staging memrefs: the three inputs at contents `x0 x1 x2`, the output at anything. It loads
    the three inputs, loads the output (the value is not used), and stores the payload over the whole output, so
    it ends with the inputs as they were and the output at `out1_3 x0 x1 x2`. -/
theorem sound_kernel1 (c : Dev nD) (E : Set ℕ) (i : grid1.Coords)
    (arg2 : Memref sig .tc .vmem S1x256x2048 .f32) (harg2 : arg2.IsWhole)
    (arg3 : Memref sig .tc .vmem S2048x4096 .bf16) (harg3 : arg3.IsWhole)
    (arg4 : Memref sig .tc .vmem S1x4096 .f32) (harg4 : arg4.IsWhole)
    (arg5 : Memref sig .tc .vmem S1x256x4096 .f32) (harg5 : arg5.IsWhole)
    (x0 : Vec F S1x256x2048 .f32) (x1 : Vec F S2048x4096 .bf16) (x2 : Vec F S1x4096 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__gau_gate_kernel i arg2 harg2 arg3 harg3 arg4 harg4 arg5 harg5) K := by
  simp only [cc1__gau_gate_kernel_eq_skeleton]; unfold cc1__gau_gate_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer still at its block and the output's at `out1_3` of the three input blocks; the
    invariant is the untouched rest of the core's state; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Base.lean ====
/-
  The third kernel region (attention, gate, output projection, residual), seen from one grid point.

  Its grid is (batch, query tile, key tile) = (4, 8, 8): 256 points, the key tile innermost. At a point the body adds
  one key tile's contribution into a running sum kept in a scratch buffer of its own; the sum is reset at the first key
  tile of a run of eight and read out, gated and projected at the last. So the points fall into three kinds by the key
  tile's number `t mod 8`: the first (0), the middle ones (1…6) and the last (7). This module fixes what the three
  kinds share: each window's block at a point, the two branch conditions as arithmetic of the point's number, where the
  output window is idle (everywhere but at the last key tile, where it is written back), the staging memrefs, and the
  region's invariant with the scratch buffer singled out.
-/
import proofs.«179628_j85083302134314_2_alg».proof.Proof.Gen.Kernel.Launch
import proofs.«179628_j85083302134314_2_alg».proof.Proof.Gen.Kernel.Skeleton
import proofs.«179628_j85083302134314_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched window's
    block index has not moved since the last fetch. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched window's
    block index has not moved since the last fetch. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched window's
    block index has not moved since the last fetch. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched window's
    block index has not moved since the last fetch. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an unfetched window's
    block index has not moved since the last fetch. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: an unfetched window's
    block index has not moved since the last fetch. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: an unfetched window's
    block index has not moved since the last fetch. -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The two branches, as arithmetic of the point's number -/

/-- "This is the first key tile of its run": the reset branch's condition, from the grid coordinates. -/
abbrev isFirst (i : grid2.Coords) : Prop := (Scalar.cmpi .ne (Scalar.extui (Scalar.cmpi .eq (BitVec.ofNat 32 (i 2).val) 0#32)) 0#32) = 1#1
/-- It holds at the points ≡ 0 (mod 8). -/
theorem isFirst_iff : ∀ t : Fin cfg2.N, isFirst (grid2.coords t) ↔ t.val % 8 = 0 :=
  (by decide +kernel : ∀ t : Fin grid2.N, isFirst (grid2.coords t) ↔ t.val % 8 = 0)

/-- "This is the last key tile of its run": the read-out branch's condition. -/
abbrev isLast (i : grid2.Coords) : Prop := k2_cond2 i = 1#1
/-- It holds at the points ≡ 7 (mod 8). -/
theorem isLast_iff : ∀ t : Fin cfg2.N, isLast (grid2.coords t) ↔ t.val % 8 = 7 :=
  (by decide +kernel : ∀ t : Fin grid2.N, isLast (grid2.coords t) ↔ t.val % 8 = 7)

/-! ## Where the windows are idle -/

theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
theorem live2_3 : ∀ t : Fin cfg2.N, cfg2.idle 3 (grid2.coords t) = false := fun _ => rfl
theorem live2_4 : ∀ t : Fin cfg2.N, cfg2.idle 4 (grid2.coords t) = false := fun _ => rfl
theorem live2_5 : ∀ t : Fin cfg2.N, cfg2.idle 5 (grid2.coords t) = false := fun _ => rfl
theorem live2_6 : ∀ t : Fin cfg2.N, cfg2.idle 6 (grid2.coords t) = false := fun _ => rfl
/-- Away from the last key tile the output window is idle (the body stores nothing into it) and is not written back. -/
theorem idle2_7 : ∀ t : Fin cfg2.N, ¬isLast (grid2.coords t) → cfg2.idle 7 (grid2.coords t) = true := by decide +kernel
theorem noFlush2_7 : ∀ t : Fin cfg2.N, ¬isLast (grid2.coords t) → (cfg2.win 7).flush t = false := by decide +kernel
/-- At the last key tile it is live. -/
theorem live2_7 : ∀ t : Fin cfg2.N, isLast (grid2.coords t) → cfg2.idle 7 (grid2.coords t) = false := by decide +kernel

/-! ## The staging memrefs and the scratch buffer -/

abbrev ms2_0 (t : Fin cfg2.N) : Memref sig .tc .vmem S1x256x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x4096 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256x4096 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4096x2048 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x2048 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x256x2048 .f32 := win2_7.stage (cfg2.slots t 7)
abbrev hs2_7 (t : Fin cfg2.N) : (ms2_7 t).IsWhole := hstage2_7 ((cfg2.slots t 7).cast nbuf2_7)
/-- The running sum's buffer: a whole scoped buffer of the kernel's own. -/
abbrev accM : Memref sig .tc .vmem S256x4096 .f32 := Memref.whole cc2_scratch0
/-- The view through which the running sum's contents are stated. -/
abbrev accV : View sig .tc .vmem S256x4096 .f32 := accM.view
/-- One staging buffer of the output window, through which its contents are stated. -/
abbrev outV : View sig .tc .vmem S1x256x2048 .f32 := (Memref.whole cc2_stg7_0 : Memref sig .tc .vmem S1x256x2048 .f32).view

end Cert.Kernel.Hand

end
-- ==== Proof.K.Reg2First.lean ====
/-
  The third kernel's body at the first key tile of a run: the running sum is reset to zero, then this tile's contribution is added; the output
    window is left as found.
  The triple is stated on any whole staging memrefs; what the running sum's buffer end with is a list of
  stores that the symbolic run of the body finds.
-/
import proofs.«179628_j85083302134314_2_alg».proof.Proof.K.Reg2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- On whole staging memrefs, the seven inputs' at read contents `x0 … x6`, the output's at `xi7`, the running sum's at anything:
    the body runs to the continuation holding the inputs' as they were, the output's untouched and the running
    sum's with its stores `LS` written. -/
noncomputable def runFirst (c : Dev nD) (i : grid2.Coords) (a0 : Memref sig .tc .vmem S1x256x128 .bf16) (h0 : a0.IsWhole) (a1 : Memref sig .tc .vmem S1x256x128 .bf16) (h1 : a1.IsWhole) (a2 : Memref sig .tc .vmem S1x256x4096 .bf16) (h2 : a2.IsWhole) (a3 : Memref sig .tc .vmem S1x256x4096 .f32) (h3 : a3.IsWhole) (a4 : Memref sig .tc .vmem S1x256x2048 .f32) (h4 : a4.IsWhole) (a5 : Memref sig .tc .vmem S4096x2048 .bf16) (h5 : a5.IsWhole) (a6 : Memref sig .tc .vmem S1x2048 .f32) (h6 : a6.IsWhole) (a7 : Memref sig .tc .vmem S1x256x2048 .f32) (h7 : a7.IsWhole) (acc : Memref sig .tc .vmem S256x4096 .f32) (hacc : acc.IsWhole) (hc0 : isFirst i) (hc1 : ¬isLast i)
    (x0 : Vec F S1x256x128 .bf16) (x1 : Vec F S1x256x128 .bf16) (x2 : Vec F S1x256x4096 .bf16) (x3 : Vec F S1x256x4096 .f32) (x4 : Vec F S1x256x2048 .f32) (x5 : Vec F S4096x2048 .bf16) (x6 : Vec F S1x2048 .f32) :
    { LS : List (View.Piece (Elt F) S256x4096 .f32) //
      ∀ (xi7 : Vec F S1x256x2048 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare xi7 ∗ (∃ d, owns (c : Thread nD τ) acc fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare xi7 ∗ (∃ f, acc.view.loc (c : Thread nD τ) ↦[acc.view.set]{fullShare} acc.view.writes (Elt F) f LS)) -∗ K ⟨⟩))
          ⊢ wp frame (wpE (defs₀ (F := F)) Variants.none c none) E (cc2__kernel i a0 h0 a1 h1 a2 h2 a3 h3 a4 h4 a5 h5 a6 h6 a7 h7 acc hacc) K } := by
  refine ⟨?_, fun xi7 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact HS

end Cert.Kernel.Hand

end
-- ==== Proof.K.Reg2Mid.lean ====
/-
  The third kernel's body at a middle key tile of a run: this tile's contribution is added to the running sum; the output window is left as
    found.
  The triple is stated on any whole staging memrefs; what the running sum's buffer end with is a list of
  stores that the symbolic run of the body finds.
-/
import proofs.«179628_j85083302134314_2_alg».proof.Proof.K.Reg2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- On whole staging memrefs, the seven inputs' at read contents `x0 … x6`, the output's at `xi7`, the running sum's at `xs`:
    the body runs to the continuation holding the inputs' as they were, the output's untouched and the running
    sum's with its stores `LS` written. -/
noncomputable def runMid (c : Dev nD) (i : grid2.Coords) (a0 : Memref sig .tc .vmem S1x256x128 .bf16) (h0 : a0.IsWhole) (a1 : Memref sig .tc .vmem S1x256x128 .bf16) (h1 : a1.IsWhole) (a2 : Memref sig .tc .vmem S1x256x4096 .bf16) (h2 : a2.IsWhole) (a3 : Memref sig .tc .vmem S1x256x4096 .f32) (h3 : a3.IsWhole) (a4 : Memref sig .tc .vmem S1x256x2048 .f32) (h4 : a4.IsWhole) (a5 : Memref sig .tc .vmem S4096x2048 .bf16) (h5 : a5.IsWhole) (a6 : Memref sig .tc .vmem S1x2048 .f32) (h6 : a6.IsWhole) (a7 : Memref sig .tc .vmem S1x256x2048 .f32) (h7 : a7.IsWhole) (acc : Memref sig .tc .vmem S256x4096 .f32) (hacc : acc.IsWhole) (hc0 : ¬isFirst i) (hc1 : ¬isLast i)
    (x0 : Vec F S1x256x128 .bf16) (x1 : Vec F S1x256x128 .bf16) (x2 : Vec F S1x256x4096 .bf16) (x3 : Vec F S1x256x4096 .f32) (x4 : Vec F S1x256x2048 .f32) (x5 : Vec F S4096x2048 .bf16) (x6 : Vec F S1x2048 .f32) (xs : Vec F S256x4096 .f32) :
    { LS : List (View.Piece (Elt F) S256x4096 .f32) //
      ∀ (xi7 : Vec F S1x256x2048 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare xi7 ∗ owns (c : Thread nD τ) acc fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare xi7 ∗ (∃ f, acc.view.loc (c : Thread nD τ) ↦[acc.view.set]{fullShare} acc.view.writes (Elt F) f LS)) -∗ K ⟨⟩))
          ⊢ wp frame (wpE (defs₀ (F := F)) Variants.none c none) E (cc2__kernel i a0 h0 a1 h1 a2 h2 a3 h3 a4 h4 a5 h5 a6 h6 a7 h7 acc hacc) K } := by
  refine ⟨?_, fun xi7 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := hacc.eq_unread hfs
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact HS

end Cert.Kernel.Hand

end
-- ==== Proof.K.Reg2Last.lean ====
/-
  The third kernel's body at the last key tile of a run: this tile's contribution is added to the running sum, which is then gated, projected and,
    with the residual, stored into the output window.
  The triple is stated on any whole staging memrefs; what the running sum's buffer and the output's end with is a list of
  stores that the symbolic run of the body finds.
-/
import proofs.«179628_j85083302134314_2_alg».proof.Proof.K.Reg2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- On whole staging memrefs, the seven inputs' at read contents `x0 … x6`, the output's at anything, the running sum's at `xs`:
    the body runs to the continuation holding the inputs' as they were, the output's with its stores `L7` written and the running
    sum's with its stores `LS` written. -/
noncomputable def runLast (c : Dev nD) (i : grid2.Coords) (a0 : Memref sig .tc .vmem S1x256x128 .bf16) (h0 : a0.IsWhole) (a1 : Memref sig .tc .vmem S1x256x128 .bf16) (h1 : a1.IsWhole) (a2 : Memref sig .tc .vmem S1x256x4096 .bf16) (h2 : a2.IsWhole) (a3 : Memref sig .tc .vmem S1x256x4096 .f32) (h3 : a3.IsWhole) (a4 : Memref sig .tc .vmem S1x256x2048 .f32) (h4 : a4.IsWhole) (a5 : Memref sig .tc .vmem S4096x2048 .bf16) (h5 : a5.IsWhole) (a6 : Memref sig .tc .vmem S1x2048 .f32) (h6 : a6.IsWhole) (a7 : Memref sig .tc .vmem S1x256x2048 .f32) (h7 : a7.IsWhole) (acc : Memref sig .tc .vmem S256x4096 .f32) (hacc : acc.IsWhole) (hc0 : ¬isFirst i) (hc1 : isLast i)
    (x0 : Vec F S1x256x128 .bf16) (x1 : Vec F S1x256x128 .bf16) (x2 : Vec F S1x256x4096 .bf16) (x3 : Vec F S1x256x4096 .f32) (x4 : Vec F S1x256x2048 .f32) (x5 : Vec F S4096x2048 .bf16) (x6 : Vec F S1x2048 .f32) (xs : Vec F S256x4096 .f32) :
    Σ' (L7 : List (View.Piece (Elt F) S1x256x2048 .f32)), { LS : List (View.Piece (Elt F) S256x4096 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ owns (c : Thread nD τ) acc fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L7) ∗ (∃ f, acc.view.loc (c : Thread nD τ) ↦[acc.view.set]{fullShare} acc.view.writes (Elt F) f LS)) -∗ K ⟨⟩))
          ⊢ wp frame (wpE (defs₀ (F := F)) Variants.none c none) E (cc2__kernel i a0 h0 a1 h1 a2 h2 a3 h3 a4 h4 a5 h5 a6 h6 a7 h7 acc hacc) K } := by
  refine ⟨?_, ?_, fun E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := hacc.eq_unread hfs
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexists _; iexact HS

end Cert.Kernel.Hand

end
-- ==== Proof.K.Reg2.lean ====
/-
  The third kernel region's proof data and its body obligation.

  The running sum. Within a run of eight key tiles the scratch buffer holds, after the tile numbered `j`, the sum of the
  contributions of tiles `0 … j` (`accAt`, by recursion on the point's number: reset-and-add at the first tile, add at
  the others). The region's invariant between points (`PhiS2`) is the class's invariant with that buffer pinned to
  `accAt` of the point before; before the very first point it is the class's invariant itself. The output window is
  stored into only at the last tile of a run, from the full sum; elsewhere it is idle and handed back as found.
-/
import proofs.«179628_j85083302134314_2_alg».proof.Proof.K.Reg2First
import proofs.«179628_j85083302134314_2_alg».proof.Proof.K.Reg2Mid
import proofs.«179628_j85083302134314_2_alg».proof.Proof.K.Reg2Last

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each kind of point leaves -/

/-- The running sum after a first key tile: the stores the run found, read back. -/
def sFirstAt (c : Dev nD) (t : Fin cfg2.N) (h0 : t.val % 8 = 0) (h1 : ¬t.val % 8 = 7) : Vec F S256x4096 .f32 :=
  accV.read (Elt F) (accV.writes (Elt F) accV.junk (runFirst c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) ((isFirst_iff t).mpr h0) (fun h => h1 ((isLast_iff t).mp h)) (iblk2 V c 0 t) (iblk2 V c 1 t) (iblk2 V c 2 t) (iblk2 V c 3 t) (iblk2 V c 4 t) (iblk2 V c 5 t) (iblk2 V c 6 t)).1)

theorem sFirst_cover (c : Dev nD) (t : Fin cfg2.N) (h0 : t.val % 8 = 0) (h1 : ¬t.val % 8 = 7) (y : S256x4096.Idx) :
    ∃ pc ∈ (runFirst c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) ((isFirst_iff t).mpr h0) (fun h => h1 ((isLast_iff t).mp h)) (iblk2 V c 0 t) (iblk2 V c 1 t) (iblk2 V c 2 t) (iblk2 V c 3 t) (iblk2 V c 4 t) (iblk2 V c 5 t) (iblk2 V c 6 t)).1, y ∈ pc.1.set :=
  View.cover_of_tiledL _ S256x4096.size (by sl_kernel_rfl) y

/-- The running sum after a middle key tile, over what the tile before left (`xs`). -/
def sMidAt (c : Dev nD) (t : Fin cfg2.N) (h0 : ¬t.val % 8 = 0) (h1 : ¬t.val % 8 = 7) (xs : Vec F S256x4096 .f32) : Vec F S256x4096 .f32 :=
  accV.read (Elt F) (accV.writes (Elt F) accV.junk (runMid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) (fun h => h1 ((isLast_iff t).mp h)) (iblk2 V c 0 t) (iblk2 V c 1 t) (iblk2 V c 2 t) (iblk2 V c 3 t) (iblk2 V c 4 t) (iblk2 V c 5 t) (iblk2 V c 6 t) xs).1)

theorem sMid_cover (c : Dev nD) (t : Fin cfg2.N) (h0 : ¬t.val % 8 = 0) (h1 : ¬t.val % 8 = 7) (xs : Vec F S256x4096 .f32) (y : S256x4096.Idx) :
    ∃ pc ∈ (runMid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) (fun h => h1 ((isLast_iff t).mp h)) (iblk2 V c 0 t) (iblk2 V c 1 t) (iblk2 V c 2 t) (iblk2 V c 3 t) (iblk2 V c 4 t) (iblk2 V c 5 t) (iblk2 V c 6 t) xs).1, y ∈ pc.1.set :=
  View.cover_of_tiledL _ S256x4096.size (by sl_kernel_rfl) y

/-- The running sum after a last key tile, over what the tile before left. -/
def sLastAt (c : Dev nD) (t : Fin cfg2.N) (h0 : ¬t.val % 8 = 0) (h1 : t.val % 8 = 7) (xs : Vec F S256x4096 .f32) : Vec F S256x4096 .f32 :=
  accV.read (Elt F) (accV.writes (Elt F) accV.junk (runLast c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) ((isLast_iff t).mpr h1) (iblk2 V c 0 t) (iblk2 V c 1 t) (iblk2 V c 2 t) (iblk2 V c 3 t) (iblk2 V c 4 t) (iblk2 V c 5 t) (iblk2 V c 6 t) xs).2.1)

theorem sLast_cover (c : Dev nD) (t : Fin cfg2.N) (h0 : ¬t.val % 8 = 0) (h1 : t.val % 8 = 7) (xs : Vec F S256x4096 .f32) (y : S256x4096.Idx) :
    ∃ pc ∈ (runLast c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) ((isLast_iff t).mpr h1) (iblk2 V c 0 t) (iblk2 V c 1 t) (iblk2 V c 2 t) (iblk2 V c 3 t) (iblk2 V c 4 t) (iblk2 V c 5 t) (iblk2 V c 6 t) xs).2.1, y ∈ pc.1.set :=
  View.cover_of_tiledL _ S256x4096.size (by sl_kernel_rfl) y

/-- The output window's buffer after a last key tile. -/
def oLastAt (c : Dev nD) (t : Fin cfg2.N) (h0 : ¬t.val % 8 = 0) (h1 : t.val % 8 = 7) (xs : Vec F S256x4096 .f32) : Vec F S1x256x2048 .f32 :=
  outV.read (Elt F) (outV.writes (Elt F) outV.junk (runLast c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) ((isLast_iff t).mpr h1) (iblk2 V c 0 t) (iblk2 V c 1 t) (iblk2 V c 2 t) (iblk2 V c 3 t) (iblk2 V c 4 t) (iblk2 V c 5 t) (iblk2 V c 6 t) xs).1)

theorem oLast_cover (c : Dev nD) (t : Fin cfg2.N) (h0 : ¬t.val % 8 = 0) (h1 : t.val % 8 = 7) (xs : Vec F S256x4096 .f32) (y : S1x256x2048.Idx) :
    ∃ pc ∈ (runLast c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) ((isLast_iff t).mpr h1) (iblk2 V c 0 t) (iblk2 V c 1 t) (iblk2 V c 2 t) (iblk2 V c 3 t) (iblk2 V c 4 t) (iblk2 V c 5 t) (iblk2 V c 6 t) xs).1, y ∈ pc.1.set :=
  View.cover_of_tiledL _ S1x256x2048.size (by sl_kernel_rfl) y

/-! ## The accumulation -/

/-- What the running sum's buffer holds after the body at position `n`. -/
def accAt (c : Dev nD) : (n : ℕ) → n < cfg2.N → Vec F S256x4096 .f32
  | 0, hn => sFirstAt V c ⟨0, hn⟩ (Nat.zero_mod _) (fun h => absurd (show (0 : ℕ) % 8 = 7 from h) (by decide))
  | n + 1, hn =>
    if h0 : (n + 1) % 8 = 0 then sFirstAt V c ⟨n + 1, hn⟩ h0 (fun h => by have h' : (n + 1) % 8 = 7 := h; omega)
    else if h1 : (n + 1) % 8 = 7 then sLastAt V c ⟨n + 1, hn⟩ h0 h1 (accAt c n (Nat.lt_of_succ_lt hn))
    else sMidAt V c ⟨n + 1, hn⟩ h0 h1 (accAt c n (Nat.lt_of_succ_lt hn))

theorem accAt_first (c : Dev nD) (t : Fin cfg2.N) (h0 : t.val % 8 = 0) (h1 : ¬t.val % 8 = 7) :
    accAt V c t.val t.isLt = sFirstAt V c t h0 h1 := by
  obtain ⟨n, hn⟩ := t
  cases n with
  | zero => exact rfl
  | succ n => exact (dif_pos h0).trans rfl

theorem accAt_mid (c : Dev nD) (t : Fin cfg2.N) (h0 : ¬t.val % 8 = 0) (h1 : ¬t.val % 8 = 7) :
    accAt V c t.val t.isLt = sMidAt V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_last (c : Dev nD) (t : Fin cfg2.N) (h0 : ¬t.val % 8 = 0) (h1 : t.val % 8 = 7) :
    accAt V c t.val t.isLt = sLastAt V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's staging buffer holds after the body at point `t`: at a last key tile the read-out of the full
    sum; elsewhere the window is idle and this value is never consulted. -/
def outAt (c : Dev nD) (t : Fin cfg2.N) : Vec F S1x256x2048 .f32 :=
  if h1 : t.val % 8 = 7 then oLastAt V c t (fun h => by omega) h1 (accAt V c (t.val - 1) (Nat.lt_of_le_of_lt (Nat.sub_le _ _) t.isLt))
  else outV.read (Elt F) outV.junk

theorem outAt_last (c : Dev nD) (t : Fin cfg2.N) (h0 : ¬t.val % 8 = 0) (h1 : t.val % 8 = 7) :
    outAt V c t = oLastAt V c t h0 h1 (accAt V c (t.val - 1) (Nat.lt_of_le_of_lt (Nat.sub_le _ _) t.isLt)) := dif_pos h1

/-! ## The invariant between points -/

/-- The core's scoped buffers other than the running sum's, each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant, with the running sum's buffer singled out. -/
theorem PhiA2_split (c : Dev nD) :
    (Pipeline.ΦA spec2 c : sProp 𝕄) ⊢ iprop((others2 c ∗ (∃ d, owns (c : Thread nD τ) accM fullShare d)) ∗ (∃ r, prngReg c r)) := by
  unfold Pipeline.ΦA; rw [scopedRest2_eq]; unfold others2; simp only [accM, owns_whole]
  iintro ⟨⟨H0, H1, H2, H3, H4, H5, H6, H7, H8, H9, H10, H11, H12, H13, H14, H15, H16, H17, H18, H19, H20, H21, HS⟩, Hg⟩
  isplitr [Hg]
  · isplitr [HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    · iexact HS
  · iexact Hg

theorem PhiA2_join (c : Dev nD) :
    iprop((others2 c ∗ (∃ d, owns (c : Thread nD τ) accM fullShare d)) ∗ (∃ r, prngReg c r)) ⊢ (Pipeline.ΦA spec2 c : sProp 𝕄) := by
  unfold Pipeline.ΦA; rw [scopedRest2_eq]; unfold others2; simp only [accM, owns_whole]
  iintro ⟨⟨⟨H0, H1, H2, H3, H4, H5, H6, H7, H8, H9, H10, H11, H12, H13, H14, H15, H16, H17, H18, H19, H20, H21⟩, HS⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact HS
  · iexact Hg

/-- The region's invariant before position `n`: before the first point the class's; afterwards the other scoped buffers at
    anything, the running sum's buffer at what the point before left, the generator register at some state. -/
def PhiS2 (c : Dev nD) : (n : ℕ) → n ≤ cfg2.N → sProp 𝕄
  | 0, _ => Pipeline.ΦA spec2 c
  | n + 1, hn => iprop((others2 c ∗ owns (c : Thread nD τ) accM fullShare (accAt V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((others2 c ∗ owns (c : Thread nD τ) accM fullShare (accAt V c n hn)) ∗ (∃ r, prngReg c r)) := rfl

theorem PhiS2_pos (c : Dev nD) (n : ℕ) (h : n ≤ cfg2.N) (hz : n ≠ 0) :
    PhiS2 V c n h = iprop((others2 c ∗ owns (c : Thread nD τ) accM fullShare (accAt V c (n - 1) (by omega))) ∗ (∃ r, prngReg c r)) := by
  cases n with
  | zero => exact absurd rfl hz
  | succ n => rfl

/-! ## The proof data -/

/-- The proof data of the third pipeline on core `c`: the arrays as the region finds them; after the body at a point each
    input's buffer at its block and the output's at `outAt`; the invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outAt V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = outAt V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

end Cert.Kernel.Hand

end
-- ==== Proof.K.Reg2Body.lean ====
/-
  The third kernel's body at any grid point, and the region's invariant at the region's two ends.

  A point is a first, middle or last key tile of its run of eight (its number modulo 8 is 0, 1…6 or 7). In each case the
  body's triple for that case applies: the inputs' staging buffers hold their blocks; the running sum's buffer is handed
  over at what the tile before left (at anything, at a first tile) and taken back at this tile's sum; the output window
  is handed back as found except at a last tile, where it is taken back at the read-out of the full sum.
-/
import proofs.«179628_j85083302134314_2_alg».proof.Proof.K.Reg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  rw [show (dat2 V c).leavesExact 3 t = owns (c : Thread nD τ) (ms2_3 t) fullShare ((dat2 V c).after 3 t) from by
    unfold Dat.leavesExact; rw [live2_3 t], after2_3]
  rw [show (dat2 V c).leavesExact 4 t = owns (c : Thread nD τ) (ms2_4 t) fullShare ((dat2 V c).after 4 t) from by
    unfold Dat.leavesExact; rw [live2_4 t], after2_4]
  rw [show (dat2 V c).leavesExact 5 t = owns (c : Thread nD τ) (ms2_5 t) fullShare ((dat2 V c).after 5 t) from by
    unfold Dat.leavesExact; rw [live2_5 t], after2_5]
  rw [show (dat2 V c).leavesExact 6 t = owns (c : Thread nD τ) (ms2_6 t) fullShare ((dat2 V c).after 6 t) from by
    unfold Dat.leavesExact; rw [live2_6 t], after2_6]
  have hN : t.val < 256 := lt_of_lt_of_eq t.isLt (show cfg2.N = 256 from N_2)
  by_cases h0 : t.val % 8 = 0
  · have h1 : ¬t.val % 8 = 7 := by omega
    rw [Dat.leavesExact_idle (dat2 V c) 7 t (idle2_7 t (fun h => h1 ((isLast_iff t).mp h))) (noFlush2_7 t (fun h => h1 ((isLast_iff t).mp h)))]
    rw [accAt_first V c t h0 h1]
    unfold sFirstAt
    by_cases hz : t.val = 0
    · rw [Phi2_castSucc V c t, PhiS2_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiA2_split c) $$ HΦ
      icases HΦ' with ⟨⟨HR, HS⟩, Hg⟩
      iapply ((runFirst c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) ((isFirst_iff t).mpr h0) (fun h => h1 ((isLast_iff t).mp h)) (iblk2 V c 0 t) (iblk2 V c 1 t) (iblk2 V c 2 t) (iblk2 V c 3 t) (iblk2 V c 4 t) (iblk2 V c 5 t) (iblk2 V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HR HS Hg]
      · isplitl [HR HS]
        · isplitl [HR]; · iexact HR
          unfold owns; iexists _; isplitr
          swap; · iexact HS
          ipureintro; exact View.read_writes_of_cover _ _ _ _ _ (sFirst_cover V c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [Phi2_castSucc V c t, PhiS2_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) ((isFirst_iff t).mpr h0) (fun h => h1 ((isLast_iff t).mp h)) (iblk2 V c 0 t) (iblk2 V c 1 t) (iblk2 V c 2 t) (iblk2 V c 3 t) (iblk2 V c 4 t) (iblk2 V c 5 t) (iblk2 V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HR HS Hg]
      · isplitl [HR HS]
        · isplitl [HR]; · iexact HR
          unfold owns; iexists _; isplitr
          swap; · iexact HS
          ipureintro; exact View.read_writes_of_cover _ _ _ _ _ (sFirst_cover V c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 8 = 7
    · rw [show (dat2 V c).leavesExact 7 t = owns (c : Thread nD τ) (ms2_7 t) fullShare ((dat2 V c).after 7 t) from by
        unfold Dat.leavesExact; rw [live2_7 t ((isLast_iff t).mpr h1)], after2_7]
      rw [outAt_last V c t h0 h1, accAt_last V c t h0 h1]
      unfold oLastAt sLastAt
      rw [Phi2_castSucc V c t, PhiS2_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) ((isLast_iff t).mpr h1) (iblk2 V c 0 t) (iblk2 V c 1 t) (iblk2 V c 2 t) (iblk2 V c 3 t) (iblk2 V c 4 t) (iblk2 V c 5 t) (iblk2 V c 6 t) (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HR HS Hg]
      · isplitl [HR HS]
        · isplitl [HR]; · iexact HR
          unfold owns; iexists _; isplitr
          swap; · iexact HS
          ipureintro; exact View.read_writes_of_cover _ _ _ _ _ (sLast_cover V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (oLast_cover V c t h0 h1 _)
    · rw [Dat.leavesExact_idle (dat2 V c) 7 t (idle2_7 t (fun h => h1 ((isLast_iff t).mp h))) (noFlush2_7 t (fun h => h1 ((isLast_iff t).mp h)))]
      rw [accAt_mid V c t h0 h1]
      unfold sMidAt
      rw [Phi2_castSucc V c t, PhiS2_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) (fun h => h1 ((isLast_iff t).mp h)) (iblk2 V c 0 t) (iblk2 V c 1 t) (iblk2 V c 2 t) (iblk2 V c 3 t) (iblk2 V c 4 t) (iblk2 V c 5 t) (iblk2 V c 6 t) (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HR HS Hg]
      · isplitl [HR HS]
        · isplitl [HR]; · iexact HR
          unfold owns; iexists _; isplitr
          swap; · iexact HS
          ipureintro; exact View.read_writes_of_cover _ _ _ _ _ (sMid_cover V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives the class's back: the running sum's named contents are forgotten. -/
theorem hout2 (c : Dev nD) : (dat2 V c).Φ (Fin.last cfg2.N) ⊢ (Pipeline.ΦA spec2 c : sProp 𝕄) := by
  have hne : (Fin.last cfg2.N).val ≠ 0 := by rw [Fin.val_last]; have : cfg2.N = 256 := N_2; omega
  rw [show (dat2 V c).Φ (Fin.last cfg2.N) = PhiS2 V c (Fin.last cfg2.N).val (Nat.le_of_lt_succ (Fin.last cfg2.N).isLt) from rfl, PhiS2_pos V c _ _ hne]
  iintro ⟨⟨HR, HS⟩, Hg⟩
  iapply (PhiA2_join c)
  isplitl [HR HS]
  · isplitl [HR]; · iexact HR
    iexists _; iexact HS
  iexact Hg

end Cert.Kernel.Hand

end
-- ==== Proof.K.Run.lean ====
/-
  The whole run of the program: sixteen host operations, then the three kernel regions.

  Between two items every unscoped buffer of a core is held at named contents: `W0` at launch, `W1` after the host
  operations, `W2`, `W3`, `W4` after the three regions, each region changing only its own output arrays. Every weakly
  fair execution terminates, faults nowhere, and ends with each argument array as launched and the result array at what
  the third region's write-backs leave.
-/
import proofs.«179628_j85083302134314_2_alg».proof.Proof.K.Reg0
import proofs.«179628_j85083302134314_2_alg».proof.Proof.K.Reg1
import proofs.«179628_j85083302134314_2_alg».proof.Proof.K.Reg2Body
import proofs.«179628_j85083302134314_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between items -/

/-- Core `c`'s unscoped buffers at launch, and after the host operations. -/
abbrev W0 (c : Dev nD) : Valuation τ sig (Elt F) := Gen.V0 m c
abbrev W1 (c : Dev nD) : Valuation τ sig (Elt F) := Gen.V1 m c
abbrev E1 : (c : Dev nD) → (b : Ref sig .tc) → Buf (Elt F) ((c : Thread nD τ).loc b) := fun c b => W1 m c b

/-- After region 0: its arrays at what the pipeline leaves (an input's as entered, an output's write-backs folded), every
    other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After region 1: its arrays at what the pipeline leaves (an input's as entered, an output's write-backs folded), every
    other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After region 2: its arrays at what the pipeline leaves (an input's as entered, an output's write-backs folded), every
    other buffer as entered. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev E4 : (c : Dev nD) → (b : Ref sig .tc) → Buf (Elt F) ((c : Thread nD τ).loc b) := fun c b => W4 m c b
theorem hF2 (c : Dev nD) (w : Fin cfg2.W) : (dat2 (E3 m) c).arrAt w cfg2.N = E4 m c (Pipeline.arrRef spec2 w) :=
  (W4_arr m c w).symm
theorem hrest2 (c : Dev nD) : ∀ b, b ∉ Finset.univ.image (Pipeline.arrRef spec2) → E4 m c b = E3 m c b :=
  fun b hb => W4_of_ne m c b fun w e => hb (Finset.mem_image.mpr ⟨w, Finset.mem_univ _, e⟩)

/-! ## The arguments end as launched, the result at the third region's write-backs -/

/-- `main_arg0` ends as launched: every region reads it through an input window, no host operation writes it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 4).trans (((dat2 (E3 m) c).arrAt_in 4 rfl _).trans (A_eq2 (E3 m) c 4))
    _ = W2 m c (Proc.devRef .tc main_arg0) := (W3_arr m c 0).trans (((dat1 (E2 m) c).arrAt_in 0 rfl _).trans (A_eq1 (E2 m) c 0))
    _ = W1 m c (Proc.devRef .tc main_arg0) := (W2_arr m c 0).trans (((dat0 (E1 m) c).arrAt_in 0 rfl _).trans (A_eq0 (E1 m) c 0))
    _ = m ((c : Thread nD τ).loc main_arg0) := (V1_of m c main_arg0 (by decide)).trans rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (V1_of m c main_arg1 (by decide)).trans rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := (V1_of m c main_arg2 (by decide)).trans rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := (V1_of m c main_arg3 (by decide)).trans rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = m ((c : Thread nD τ).loc main_arg4) := (V1_of m c main_arg4 (by decide)).trans rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = m ((c : Thread nD τ).loc main_arg5) := (V1_of m c main_arg5 (by decide)).trans rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = m ((c : Thread nD τ).loc main_arg6) := (V1_of m c main_arg6 (by decide)).trans rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := W3_of_ne m c main_arg7 (by decide)
    _ = W1 m c (Proc.devRef .tc main_arg7) := W2_of_ne m c main_arg7 (by decide)
    _ = m ((c : Thread nD τ).loc main_arg7) := (V1_of m c main_arg7 (by decide)).trans rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := W3_of_ne m c main_arg8 (by decide)
    _ = W1 m c (Proc.devRef .tc main_arg8) := W2_of_ne m c main_arg8 (by decide)
    _ = m ((c : Thread nD τ).loc main_arg8) := (V1_of m c main_arg8 (by decide)).trans rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := W3_of_ne m c main_arg9 (by decide)
    _ = W1 m c (Proc.devRef .tc main_arg9) := W2_of_ne m c main_arg9 (by decide)
    _ = m ((c : Thread nD τ).loc main_arg9) := (V1_of m c main_arg9 (by decide)).trans rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := W4_of_ne m c main_arg10 (by decide)
    _ = W2 m c (Proc.devRef .tc main_arg10) := W3_of_ne m c main_arg10 (by decide)
    _ = W1 m c (Proc.devRef .tc main_arg10) := W2_of_ne m c main_arg10 (by decide)
    _ = m ((c : Thread nD τ).loc main_arg10) := (V1_of m c main_arg10 (by decide)).trans rfl

theorem W4_main_v18 (c : Dev nD) : W4 m c (Proc.devRef .tc main_v18) = (dat2 (E3 m) c).arrAt 7 cfg2.N := W4_arr m c 7

/-! ## The proof data family and the thread states -/

abbrev admH : (p : Fin 3) → (pcfgs (F := F) p).Adm := fun p => (cfgs p).toPCfg_adm
/-- Every pipeline's proof data, each at its region's entry contents (a literal match on the pipeline's number). -/
def pdats : (p : Fin 3) → (c : Dev nD) → Dat τ (Elt F) Unit ℕ (Pipeline.UD sig nD τ) ℕ (Pipeline.pin (pcfgs (F := F)) admH p) c
  | ⟨0, _⟩ => fun c => dat0 (E1 m) c
  | ⟨1, _⟩ => fun c => dat1 (E2 m) c
  | ⟨2, _⟩ => fun c => dat2 (E3 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- The host operations as one item, from the launch contents. -/
abbrev hseg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as items -/

set_option backward.isDefEq.respectTransparency.types false in
/-- Region 0 over the thread states: entered with every unscoped buffer at `W1`, left with them at `W2`. Its arrays are
    split out of the unscoped buffers at entry and put back at their final contents at exit; the generator register goes
    into the region's invariant and comes back; nothing is owed; the kernel has no semaphore of its own. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := Pipeline.UD sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread states: entered with every unscoped buffer at `W2`, left with them at `W3`. Its arrays are
    split out of the unscoped buffers at entry and put back at their final contents at exit; the generator register goes
    into the region's invariant and comes back; nothing is owed; the kernel has no semaphore of its own. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (E2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := Pipeline.UD sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread states: entered with every unscoped buffer at `W3`, left with them at `W4`. Its arrays are
    split out of the unscoped buffers at entry and put back at their final contents at exit; the generator register goes
    into the region's invariant and comes back; nothing is owed; the kernel has no semaphore of its own. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (E3 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := Pipeline.UD sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev items : List (Pipeline.Seg (pcfgs (F := F)) admH (pdats m) () defs₀ 𝒱₀ L lv) :=
  [ .host (hseg0 m), .region (reg0 m), .region (reg1 m), .region (reg2 m) ]
theorem main_run (c : Dev nD) : main (F := F) c = Pipeline.Seg.run (items m) := (main_chain c).trans (by chain_rfl)

set_option backward.isDefEq.respectTransparency.types false in
/-- THE RUN. From any memory with zero counters every weakly fair execution of the program terminates, nothing faulting,
    and every final state has the result array at what the third region's write-backs leave and each argument as launched. -/
theorem run : θ_run defs (onTc (τ := τ) (main (F := F))) ⟨m, fun _ => 0, ρ⟩ (fun r => ∀ c : Dev nD,
      r.2.mem ((c.tc : Thread nD τ).loc main_v18) = (dat2 (E3 m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) admH (pdats m) () cellOf_inj embL defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v18 (by decide))).trans (W4_main_v18 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c),
       (h c _ (mem_uc main_arg7 (by decide))).trans (W4_main_arg7 m c),
       (h c _ (mem_uc main_arg8 (by decide))).trans (W4_main_arg8 m c),
       (h c _ (mem_uc main_arg9 (by decide))).trans (W4_main_arg9 m c),
       (h c _ (mem_uc main_arg10 (by decide))).trans (W4_main_arg10 m c)⟩)

end Cert.Kernel.Hand

end
-- ==== Proof.KI.Reg0.lean ====
import proofs.«179628_j85083302134314_2_alg».proof.Proof.Gen.KernelIdeal.Launch
import proofs.«179628_j85083302134314_2_alg».proof.Proof.Gen.KernelIdeal.Skeleton
import proofs.«179628_j85083302134314_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Region 0: the value, query and key projections, one block of 256 rows per grid point -/

/-- The block of window `w` at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three zero offsets of a rank-3 rectangle are the constant zero function. -/
theorem offs3_0 : (![0, 0, 0] : Fin 3 → Nat) = fun _ => 0 := by
  funext a; match a with | ⟨0, _⟩ => rfl | ⟨1, _⟩ => rfl | ⟨2, _⟩ => rfl

/-- The two zero offsets of a rank-2 rectangle are the constant zero function. -/
theorem offs2_0 : (![0, 0] : Fin 2 → Nat) = fun _ => 0 := by
  funext a; match a with | ⟨0, _⟩ => rfl | ⟨1, _⟩ => rfl

/-! ## The rectangles the body reads and writes through: each is its buffer's whole shape at offset zero -/

abbrev rx0 : Rect S1x256x2048 := Rect.unit (s := S1x256x2048) ![0, 0, 0] S1x256x2048.size inb_S1x256x2048_S1x256x2048_0_0_0
abbrev rwv0 : Rect S2048x4096 := Rect.unit (s := S2048x4096) ![0, 0] S2048x4096.size inb_S2048x4096_S2048x4096_0_0
abbrev rbv0 : Rect S1x4096 := Rect.unit (s := S1x4096) ![0, 0] S1x4096.size inb_S1x4096_S1x4096_0_0
abbrev rwq0 : Rect S2048x128 := Rect.unit (s := S2048x128) ![0, 0] S2048x128.size inb_S2048x128_S2048x128_0_0
abbrev rrow0 : Rect S1x128 := Rect.unit (s := S1x128) ![0, 0] S1x128.size inb_S1x128_S1x128_0_0
abbrev ro0_9 : Rect S1x256x4096 := Rect.unit (s := S1x256x4096) ![0, 0, 0] S1x256x4096.size inb_S1x256x4096_S1x256x4096_0_0_0
abbrev ro0_qk : Rect S1x256x128 := Rect.unit (s := S1x256x128) ![0, 0, 0] S1x256x128.size inb_S1x256x128_S1x256x128_0_0_0

/-! ## What the body leaves in each output window's buffer

Each output buffer receives one store over its whole shape; its value is a payload of the loads of the input blocks
that output depends on. -/

/-- Output window 9's buffer after the body, from the input blocks it depends on. -/
def out0_9 (x0 : Vec F S1x256x2048 .f32) (x1 : Vec F S2048x4096 .bf16) (x2 : Vec F S1x4096 .f32) : Vec F S1x256x4096 .bf16 :=
  View.canon [⟨ro0_9, k0_pay4 (View.ld x0 rx0) (View.ld x1 rwv0) (View.ld x2 rbv0)⟩]

/-- All loads and the store are whole-shape at offset zero: the buffer ends at the payload of the blocks themselves. -/
theorem out0_9_eq (x0 : Vec F S1x256x2048 .f32) (x1 : Vec F S2048x4096 .bf16) (x2 : Vec F S1x4096 .f32) :
    out0_9 x0 x1 x2 = k0_pay4 x0 x1 x2 := by
  unfold out0_9
  rw [View.canon_unit_zero offs3_0, View.ld_unit_zero offs3_0, View.ld_unit_zero offs2_0, View.ld_unit_zero offs2_0]

/-- The single store covers the whole block. -/
theorem cover0_9 (p0 : Vec F S1x256x4096 .bf16) (y : S1x256x4096.Idx) :
    ∃ pc ∈ ([⟨ro0_9, p0⟩] : List (View.Piece (Elt F) S1x256x4096 .bf16)), y ∈ pc.1.set :=
  ⟨_, List.mem_singleton_self _, View.mem_set_unit_zero offs3_0 inb_S1x256x4096_S1x256x4096_0_0_0 y⟩

/-- Output window 10's buffer after the body, from the input blocks it depends on. -/
def out0_10 (x0 : Vec F S1x256x2048 .f32) (x3 : Vec F S2048x128 .bf16) (x4 : Vec F S1x128 .f32) (x5 : Vec F S1x128 .f32) (x6 : Vec F S1x128 .f32) : Vec F S1x256x128 .bf16 :=
  View.canon [⟨ro0_qk, k0_pay1 (k0_pay6 (View.ld x0 rx0) (View.ld x3 rwq0) (View.ld x4 rrow0) (View.ld x5 rrow0) (View.ld x6 rrow0))⟩]

/-- All loads and the store are whole-shape at offset zero: the buffer ends at the payload of the blocks themselves. -/
theorem out0_10_eq (x0 : Vec F S1x256x2048 .f32) (x3 : Vec F S2048x128 .bf16) (x4 : Vec F S1x128 .f32) (x5 : Vec F S1x128 .f32) (x6 : Vec F S1x128 .f32) :
    out0_10 x0 x3 x4 x5 x6 = k0_pay1 (k0_pay6 x0 x3 x4 x5 x6) := by
  unfold out0_10
  rw [View.canon_unit_zero offs3_0, View.ld_unit_zero offs3_0, View.ld_unit_zero offs2_0, View.ld_unit_zero offs2_0, View.ld_unit_zero offs2_0, View.ld_unit_zero offs2_0]

/-- The single store covers the whole block. -/
theorem cover0_10 (p0 : Vec F S1x256x128 .bf16) (y : S1x256x128.Idx) :
    ∃ pc ∈ ([⟨ro0_qk, p0⟩] : List (View.Piece (Elt F) S1x256x128 .bf16)), y ∈ pc.1.set :=
  ⟨_, List.mem_singleton_self _, View.mem_set_unit_zero offs3_0 inb_S1x256x128_S1x256x128_0_0_0 y⟩

/-- Output window 11's buffer after the body, from the input blocks it depends on. -/
def out0_11 (x0 : Vec F S1x256x2048 .f32) (x3 : Vec F S2048x128 .bf16) (x4 : Vec F S1x128 .f32) (x7 : Vec F S1x128 .f32) (x8 : Vec F S1x128 .f32) : Vec F S1x256x128 .bf16 :=
  View.canon [⟨ro0_qk, k0_pay2 (k0_pay5 (View.ld x0 rx0) (View.ld x3 rwq0) (View.ld x4 rrow0)) (k0_pay7 (View.ld x7 rrow0)) (View.ld x8 rrow0)⟩]

/-- All loads and the store are whole-shape at offset zero: the buffer ends at the payload of the blocks themselves. -/
theorem out0_11_eq (x0 : Vec F S1x256x2048 .f32) (x3 : Vec F S2048x128 .bf16) (x4 : Vec F S1x128 .f32) (x7 : Vec F S1x128 .f32) (x8 : Vec F S1x128 .f32) :
    out0_11 x0 x3 x4 x7 x8 = k0_pay2 (k0_pay5 x0 x3 x4) (k0_pay7 x7) x8 := by
  unfold out0_11
  rw [View.canon_unit_zero offs3_0, View.ld_unit_zero offs3_0, View.ld_unit_zero offs2_0, View.ld_unit_zero offs2_0, View.ld_unit_zero offs2_0, View.ld_unit_zero offs2_0]

/-- The single store covers the whole block. -/
theorem cover0_11 (p0 : Vec F S1x256x128 .bf16) (y : S1x256x128.Idx) :
    ∃ pc ∈ ([⟨ro0_qk, p0⟩] : List (View.Piece (Elt F) S1x256x128 .bf16)), y ∈ pc.1.set :=
  ⟨_, List.mem_singleton_self _, View.mem_set_unit_zero offs3_0 inb_S1x256x128_S1x256x128_0_0_0 y⟩

/-! ## An input window's buffer holds its block at every point

A window fetched only at the first point keeps its block index from point to point, so the block fetched then is
still the block of the current point. -/

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 4000000 in
/-- The body on whole staging memrefs: the nine inputs at contents `x0 … x8`, the three outputs at anything. It
    loads the inputs, loads each output once (the values are not used) and stores one payload over each whole
    output, so it ends with the inputs as they were and output `W` at `out0_W` of the blocks it depends on. -/
theorem sound_kernel0 (c : Dev nD) (E : Set ℕ) (i : grid0.Coords)
    (arg2 : Memref sig .tc .vmem S1x256x2048 .f32) (harg2 : arg2.IsWhole)
    (arg3 : Memref sig .tc .vmem S2048x4096 .bf16) (harg3 : arg3.IsWhole)
    (arg4 : Memref sig .tc .vmem S1x4096 .f32) (harg4 : arg4.IsWhole)
    (arg5 : Memref sig .tc .vmem S2048x128 .bf16) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole)
    (arg10 : Memref sig .tc .vmem S1x128 .f32) (harg10 : arg10.IsWhole)
    (arg11 : Memref sig .tc .vmem S1x256x4096 .bf16) (harg11 : arg11.IsWhole)
    (arg12 : Memref sig .tc .vmem S1x256x128 .bf16) (harg12 : arg12.IsWhole)
    (arg13 : Memref sig .tc .vmem S1x256x128 .bf16) (harg13 : arg13.IsWhole)
    (x0 : Vec F S1x256x2048 .f32) (x1 : Vec F S2048x4096 .bf16) (x2 : Vec F S1x4096 .f32) (x3 : Vec F S2048x128 .bf16) (x4 : Vec F S1x128 .f32) (x5 : Vec F S1x128 .f32) (x6 : Vec F S1x128 .f32) (x7 : Vec F S1x128 .f32) (x8 : Vec F S1x128 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare (out0_9 x0 x1 x2)
            ∗ owns (c : Thread nD τ) arg12 fullShare (out0_10 x0 x3 x4 x5 x6)
            ∗ owns (c : Thread nD τ) arg13 fullShare (out0_11 x0 x3 x4 x7 x8)) -∗ K ⟨⟩))
      ⊢ wp frame (wpE (defs₀ (F := F)) Variants.none c none) E (cc0__gau_v_qk_kernel i arg2 harg2 arg3 harg3 arg4 harg4 arg5 harg5 arg6 harg6 arg7 harg7 arg8 harg8 arg9 harg9 arg10 harg10 arg11 harg11 arg12 harg12 arg13 harg13) K := by
  simp only [cc0__gau_v_qk_kernel_eq_skeleton]; unfold cc0__gau_v_qk_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  isplitl [H10]
  · iexists _; isplitr
    swap; · iexact H10
    ipureintro
    sl_unfold_run_names
    exact View.read_writes_eq_canon _ _ _ (cover0_10 _)
  iexists _; isplitr
  swap; · iexact H11
  ipureintro
  sl_unfold_run_names
  exact View.read_writes_eq_canon _ _ _ (cover0_11 _)

/-! ## The pipeline's proof data -/

/-- The proof data of pipeline 0 on core `c`: the arrays as the region finds them; after the body at point `t`
    each input's buffer still at its block and each output's at `out0_W` of the input blocks it depends on; the
    invariant is the untouched rest of the core's state; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t)
    | ⟨10, _⟩ => out0_10 (iblk0 V c 0 t) (iblk0 V c 3 t) (iblk0 V c 4 t) (iblk0 V c 5 t) (iblk0 V c 6 t)
    | ⟨11, _⟩ => out0_11 (iblk0 V c 0 t) (iblk0 V c 3 t) (iblk0 V c 4 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) :
    (dat0 V c).after 0 t = iblk0 V c 0 t := by dsimp only [dat0]
theorem after0_1 (c : Dev nD) (t : Fin cfg0.N) :
    (dat0 V c).after 1 t = iblk0 V c 1 t := by dsimp only [dat0]
theorem after0_2 (c : Dev nD) (t : Fin cfg0.N) :
    (dat0 V c).after 2 t = iblk0 V c 2 t := by dsimp only [dat0]
theorem after0_3 (c : Dev nD) (t : Fin cfg0.N) :
    (dat0 V c).after 3 t = iblk0 V c 3 t := by dsimp only [dat0]
theorem after0_4 (c : Dev nD) (t : Fin cfg0.N) :
    (dat0 V c).after 4 t = iblk0 V c 4 t := by dsimp only [dat0]
theorem after0_5 (c : Dev nD) (t : Fin cfg0.N) :
    (dat0 V c).after 5 t = iblk0 V c 5 t := by dsimp only [dat0]
theorem after0_6 (c : Dev nD) (t : Fin cfg0.N) :
    (dat0 V c).after 6 t = iblk0 V c 6 t := by dsimp only [dat0]
theorem after0_7 (c : Dev nD) (t : Fin cfg0.N) :
    (dat0 V c).after 7 t = iblk0 V c 7 t := by dsimp only [dat0]
theorem after0_8 (c : Dev nD) (t : Fin cfg0.N) :
    (dat0 V c).after 8 t = iblk0 V c 8 t := by dsimp only [dat0]
theorem after0_9 (c : Dev nD) (t : Fin cfg0.N) :
    (dat0 V c).after 9 t = out0_9 (iblk0 V c 0 t) (iblk0 V c 1 t) (iblk0 V c 2 t) := by dsimp only [dat0]
theorem after0_10 (c : Dev nD) (t : Fin cfg0.N) :
    (dat0 V c).after 10 t = out0_10 (iblk0 V c 0 t) (iblk0 V c 3 t) (iblk0 V c 4 t) (iblk0 V c 5 t) (iblk0 V c 6 t) := by dsimp only [dat0]
theorem after0_11 (c : Dev nD) (t : Fin cfg0.N) :
    (dat0 V c).after 11 t = out0_11 (iblk0 V c 0 t) (iblk0 V c 3 t) (iblk0 V c 4 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«179628_j85083302134314_2_alg».proof.Proof.Gen.KernelIdeal.Launch
import proofs.«179628_j85083302134314_2_alg».proof.Proof.Gen.KernelIdeal.Skeleton
import proofs.«179628_j85083302134314_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Region 1: the gate projection, one block of 256 rows per grid point -/

/-- The block of window `w` at grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three zero offsets of a rank-3 rectangle are the constant zero function. -/
theorem zero3 : (![0, 0, 0] : Fin 3 → Nat) = fun _ => 0 := by
  funext a; match a with | ⟨0, _⟩ => rfl | ⟨1, _⟩ => rfl | ⟨2, _⟩ => rfl

/-- The two zero offsets of a rank-2 rectangle are the constant zero function. -/
theorem zero2 : (![0, 0] : Fin 2 → Nat) = fun _ => 0 := by
  funext a; match a with | ⟨0, _⟩ => rfl | ⟨1, _⟩ => rfl

/-! ## The rectangles the body reads and writes through: each is its buffer's whole shape at offset zero -/

abbrev rx1 : Rect S1x256x2048 := Rect.unit (s := S1x256x2048) ![0, 0, 0] S1x256x2048.size inb_S1x256x2048_S1x256x2048_0_0_0
abbrev rw1 : Rect S2048x4096 := Rect.unit (s := S2048x4096) ![0, 0] S2048x4096.size inb_S2048x4096_S2048x4096_0_0
abbrev rb1 : Rect S1x4096 := Rect.unit (s := S1x4096) ![0, 0] S1x4096.size inb_S1x4096_S1x4096_0_0
abbrev ro1 : Rect S1x256x4096 := Rect.unit (s := S1x256x4096) ![0, 0, 0] S1x256x4096.size inb_S1x256x4096_S1x256x4096_0_0_0

/-! ## What the body leaves in the output window's buffer -/

/-- The output buffer after the body, as a function of the three input blocks: its single store, over the
    payload of the three loads. -/
def out1_3 (x0 : Vec F S1x256x2048 .f32) (x1 : Vec F S2048x4096 .bf16) (x2 : Vec F S1x4096 .f32) : Vec F S1x256x4096 .f32 :=
  View.canon [⟨ro1, k1_pay1 (View.ld x0 rx1) (View.ld x1 rw1) (View.ld x2 rb1)⟩]

/-- Every load and the store go through a whole-shape rectangle at offset zero, so the buffer ends at the payload
    of the blocks themselves. -/
theorem out1_3_eq (x0 : Vec F S1x256x2048 .f32) (x1 : Vec F S2048x4096 .bf16) (x2 : Vec F S1x4096 .f32) :
    out1_3 x0 x1 x2 = k1_pay1 x0 x1 x2 := by
  unfold out1_3
  rw [View.canon_unit_zero zero3, View.ld_unit_zero zero3, View.ld_unit_zero zero2, View.ld_unit_zero zero2]

/-- The single store covers the whole output block. -/
theorem cover1_3 (p0 : Vec F S1x256x4096 .f32) (y : S1x256x4096.Idx) :
    ∃ pc ∈ ([⟨ro1, p0⟩] : List (View.Piece (Elt F) S1x256x4096 .f32)), y ∈ pc.1.set :=
  ⟨_, List.mem_singleton_self _, View.mem_set_unit_zero zero3 inb_S1x256x4096_S1x256x4096_0_0_0 y⟩

/-! ## An input window's buffer holds its block at every point

A window fetched only at the first point keeps its block index from point to point, so the block fetched then is
still the block of the current point. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The body on whole staging memrefs: the three inputs at contents `x0 x1 x2`, the output at anything. It loads
    the three inputs, loads the output (the value is not used), and stores the payload over the whole output, so
    it ends with the inputs as they were and the output at `out1_3 x0 x1 x2`. -/
theorem sound_kernel1 (c : Dev nD) (E : Set ℕ) (i : grid1.Coords)
    (arg2 : Memref sig .tc .vmem S1x256x2048 .f32) (harg2 : arg2.IsWhole)
    (arg3 : Memref sig .tc .vmem S2048x4096 .bf16) (harg3 : arg3.IsWhole)
    (arg4 : Memref sig .tc .vmem S1x4096 .f32) (harg4 : arg4.IsWhole)
    (arg5 : Memref sig .tc .vmem S1x256x4096 .f32) (harg5 : arg5.IsWhole)
    (x0 : Vec F S1x256x2048 .f32) (x1 : Vec F S2048x4096 .bf16) (x2 : Vec F S1x4096 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__gau_gate_kernel i arg2 harg2 arg3 harg3 arg4 harg4 arg5 harg5) K := by
  simp only [cc1__gau_gate_kernel_eq_skeleton]; unfold cc1__gau_gate_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer still at its block and the output's at `out1_3` of the three input blocks; the
    invariant is the untouched rest of the core's state; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Base.lean ====
/-
  The third kernel region (attention, gate, output projection, residual), seen from one grid point.

  Its grid is (batch, query tile, key tile) = (4, 8, 8): 256 points, the key tile innermost. At a point the body adds
  one key tile's contribution into a running sum kept in a scratch buffer of its own; the sum is reset at the first key
  tile of a run of eight and read out, gated and projected at the last. So the points fall into three kinds by the key
  tile's number `t mod 8`: the first (0), the middle ones (1…6) and the last (7). This module fixes what the three
  kinds share: each window's block at a point, the two branch conditions as arithmetic of the point's number, where the
  output window is idle (everywhere but at the last key tile, where it is written back), the staging memrefs, and the
  region's invariant with the scratch buffer singled out.
-/
import proofs.«179628_j85083302134314_2_alg».proof.Proof.Gen.KernelIdeal.Launch
import proofs.«179628_j85083302134314_2_alg».proof.Proof.Gen.KernelIdeal.Skeleton
import proofs.«179628_j85083302134314_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched window's
    block index has not moved since the last fetch. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched window's
    block index has not moved since the last fetch. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched window's
    block index has not moved since the last fetch. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched window's
    block index has not moved since the last fetch. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an unfetched window's
    block index has not moved since the last fetch. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: an unfetched window's
    block index has not moved since the last fetch. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: an unfetched window's
    block index has not moved since the last fetch. -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The two branches, as arithmetic of the point's number -/

/-- "This is the first key tile of its run": the reset branch's condition, from the grid coordinates. -/
abbrev isFirst (i : grid2.Coords) : Prop := (Scalar.cmpi .ne (Scalar.extui (Scalar.cmpi .eq (BitVec.ofNat 32 (i 2).val) 0#32)) 0#32) = 1#1
/-- It holds at the points ≡ 0 (mod 8). -/
theorem isFirst_iff : ∀ t : Fin cfg2.N, isFirst (grid2.coords t) ↔ t.val % 8 = 0 :=
  (by decide +kernel : ∀ t : Fin grid2.N, isFirst (grid2.coords t) ↔ t.val % 8 = 0)

/-- "This is the last key tile of its run": the read-out branch's condition. -/
abbrev isLast (i : grid2.Coords) : Prop := k2_cond2 i = 1#1
/-- It holds at the points ≡ 7 (mod 8). -/
theorem isLast_iff : ∀ t : Fin cfg2.N, isLast (grid2.coords t) ↔ t.val % 8 = 7 :=
  (by decide +kernel : ∀ t : Fin grid2.N, isLast (grid2.coords t) ↔ t.val % 8 = 7)

/-! ## Where the windows are idle -/

theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
theorem live2_3 : ∀ t : Fin cfg2.N, cfg2.idle 3 (grid2.coords t) = false := fun _ => rfl
theorem live2_4 : ∀ t : Fin cfg2.N, cfg2.idle 4 (grid2.coords t) = false := fun _ => rfl
theorem live2_5 : ∀ t : Fin cfg2.N, cfg2.idle 5 (grid2.coords t) = false := fun _ => rfl
theorem live2_6 : ∀ t : Fin cfg2.N, cfg2.idle 6 (grid2.coords t) = false := fun _ => rfl
/-- Away from the last key tile the output window is idle (the body stores nothing into it) and is not written back. -/
theorem idle2_7 : ∀ t : Fin cfg2.N, ¬isLast (grid2.coords t) → cfg2.idle 7 (grid2.coords t) = true := by decide +kernel
theorem noFlush2_7 : ∀ t : Fin cfg2.N, ¬isLast (grid2.coords t) → (cfg2.win 7).flush t = false := by decide +kernel
/-- At the last key tile it is live. -/
theorem live2_7 : ∀ t : Fin cfg2.N, isLast (grid2.coords t) → cfg2.idle 7 (grid2.coords t) = false := by decide +kernel

/-! ## The staging memrefs and the scratch buffer -/

abbrev ms2_0 (t : Fin cfg2.N) : Memref sig .tc .vmem S1x256x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x4096 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256x4096 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4096x2048 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x2048 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x256x2048 .f32 := win2_7.stage (cfg2.slots t 7)
abbrev hs2_7 (t : Fin cfg2.N) : (ms2_7 t).IsWhole := hstage2_7 ((cfg2.slots t 7).cast nbuf2_7)
/-- The running sum's buffer: a whole scoped buffer of the kernel's own. -/
abbrev accM : Memref sig .tc .vmem S256x4096 .f32 := Memref.whole cc2_scratch0
/-- The view through which the running sum's contents are stated. -/
abbrev accV : View sig .tc .vmem S256x4096 .f32 := accM.view
/-- One staging buffer of the output window, through which its contents are stated. -/
abbrev outV : View sig .tc .vmem S1x256x2048 .f32 := (Memref.whole cc2_stg7_0 : Memref sig .tc .vmem S1x256x2048 .f32).view

end Cert.KernelIdeal.Hand

end
-- ==== Proof.KI.Reg2First.lean ====
/-
  The third kernel's body at the first key tile of a run: the running sum is reset to zero, then this tile's contribution is added; the output
    window is left as found.
  The triple is stated on any whole staging memrefs; what the running sum's buffer end with is a list of
  stores that the symbolic run of the body finds.
-/
import proofs.«179628_j85083302134314_2_alg».proof.Proof.KI.Reg2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- On whole staging memrefs, the seven inputs' at read contents `x0 … x6`, the output's at `xi7`, the running sum's at anything:
    the body runs to the continuation holding the inputs' as they were, the output's untouched and the running
    sum's with its stores `LS` written. -/
noncomputable def runFirst (c : Dev nD) (i : grid2.Coords) (a0 : Memref sig .tc .vmem S1x256x128 .bf16) (h0 : a0.IsWhole) (a1 : Memref sig .tc .vmem S1x256x128 .bf16) (h1 : a1.IsWhole) (a2 : Memref sig .tc .vmem S1x256x4096 .bf16) (h2 : a2.IsWhole) (a3 : Memref sig .tc .vmem S1x256x4096 .f32) (h3 : a3.IsWhole) (a4 : Memref sig .tc .vmem S1x256x2048 .f32) (h4 : a4.IsWhole) (a5 : Memref sig .tc .vmem S4096x2048 .bf16) (h5 : a5.IsWhole) (a6 : Memref sig .tc .vmem S1x2048 .f32) (h6 : a6.IsWhole) (a7 : Memref sig .tc .vmem S1x256x2048 .f32) (h7 : a7.IsWhole) (acc : Memref sig .tc .vmem S256x4096 .f32) (hacc : acc.IsWhole) (hc0 : isFirst i) (hc1 : ¬isLast i)
    (x0 : Vec F S1x256x128 .bf16) (x1 : Vec F S1x256x128 .bf16) (x2 : Vec F S1x256x4096 .bf16) (x3 : Vec F S1x256x4096 .f32) (x4 : Vec F S1x256x2048 .f32) (x5 : Vec F S4096x2048 .bf16) (x6 : Vec F S1x2048 .f32) :
    { LS : List (View.Piece (Elt F) S256x4096 .f32) //
      ∀ (xi7 : Vec F S1x256x2048 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare xi7 ∗ (∃ d, owns (c : Thread nD τ) acc fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare xi7 ∗ (∃ f, acc.view.loc (c : Thread nD τ) ↦[acc.view.set]{fullShare} acc.view.writes (Elt F) f LS)) -∗ K ⟨⟩))
          ⊢ wp frame (wpE (defs₀ (F := F)) Variants.none c none) E (cc2__kernel i a0 h0 a1 h1 a2 h2 a3 h3 a4 h4 a5 h5 a6 h6 a7 h7 acc hacc) K } := by
  refine ⟨?_, fun xi7 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact HS

end Cert.KernelIdeal.Hand

end
-- ==== Proof.KI.Reg2Mid.lean ====
/-
  The third kernel's body at a middle key tile of a run: this tile's contribution is added to the running sum; the output window is left as
    found.
  The triple is stated on any whole staging memrefs; what the running sum's buffer end with is a list of
  stores that the symbolic run of the body finds.
-/
import proofs.«179628_j85083302134314_2_alg».proof.Proof.KI.Reg2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- On whole staging memrefs, the seven inputs' at read contents `x0 … x6`, the output's at `xi7`, the running sum's at `xs`:
    the body runs to the continuation holding the inputs' as they were, the output's untouched and the running
    sum's with its stores `LS` written. -/
noncomputable def runMid (c : Dev nD) (i : grid2.Coords) (a0 : Memref sig .tc .vmem S1x256x128 .bf16) (h0 : a0.IsWhole) (a1 : Memref sig .tc .vmem S1x256x128 .bf16) (h1 : a1.IsWhole) (a2 : Memref sig .tc .vmem S1x256x4096 .bf16) (h2 : a2.IsWhole) (a3 : Memref sig .tc .vmem S1x256x4096 .f32) (h3 : a3.IsWhole) (a4 : Memref sig .tc .vmem S1x256x2048 .f32) (h4 : a4.IsWhole) (a5 : Memref sig .tc .vmem S4096x2048 .bf16) (h5 : a5.IsWhole) (a6 : Memref sig .tc .vmem S1x2048 .f32) (h6 : a6.IsWhole) (a7 : Memref sig .tc .vmem S1x256x2048 .f32) (h7 : a7.IsWhole) (acc : Memref sig .tc .vmem S256x4096 .f32) (hacc : acc.IsWhole) (hc0 : ¬isFirst i) (hc1 : ¬isLast i)
    (x0 : Vec F S1x256x128 .bf16) (x1 : Vec F S1x256x128 .bf16) (x2 : Vec F S1x256x4096 .bf16) (x3 : Vec F S1x256x4096 .f32) (x4 : Vec F S1x256x2048 .f32) (x5 : Vec F S4096x2048 .bf16) (x6 : Vec F S1x2048 .f32) (xs : Vec F S256x4096 .f32) :
    { LS : List (View.Piece (Elt F) S256x4096 .f32) //
      ∀ (xi7 : Vec F S1x256x2048 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare xi7 ∗ owns (c : Thread nD τ) acc fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare xi7 ∗ (∃ f, acc.view.loc (c : Thread nD τ) ↦[acc.view.set]{fullShare} acc.view.writes (Elt F) f LS)) -∗ K ⟨⟩))
          ⊢ wp frame (wpE (defs₀ (F := F)) Variants.none c none) E (cc2__kernel i a0 h0 a1 h1 a2 h2 a3 h3 a4 h4 a5 h5 a6 h6 a7 h7 acc hacc) K } := by
  refine ⟨?_, fun xi7 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := hacc.eq_unread hfs
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact HS

end Cert.KernelIdeal.Hand

end
-- ==== Proof.KI.Reg2Last.lean ====
/-
  The third kernel's body at the last key tile of a run: this tile's contribution is added to the running sum, which is then gated, projected and,
    with the residual, stored into the output window.
  The triple is stated on any whole staging memrefs; what the running sum's buffer and the output's end with is a list of
  stores that the symbolic run of the body finds.
-/
import proofs.«179628_j85083302134314_2_alg».proof.Proof.KI.Reg2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- On whole staging memrefs, the seven inputs' at read contents `x0 … x6`, the output's at anything, the running sum's at `xs`:
    the body runs to the continuation holding the inputs' as they were, the output's with its stores `L7` written and the running
    sum's with its stores `LS` written. -/
noncomputable def runLast (c : Dev nD) (i : grid2.Coords) (a0 : Memref sig .tc .vmem S1x256x128 .bf16) (h0 : a0.IsWhole) (a1 : Memref sig .tc .vmem S1x256x128 .bf16) (h1 : a1.IsWhole) (a2 : Memref sig .tc .vmem S1x256x4096 .bf16) (h2 : a2.IsWhole) (a3 : Memref sig .tc .vmem S1x256x4096 .f32) (h3 : a3.IsWhole) (a4 : Memref sig .tc .vmem S1x256x2048 .f32) (h4 : a4.IsWhole) (a5 : Memref sig .tc .vmem S4096x2048 .bf16) (h5 : a5.IsWhole) (a6 : Memref sig .tc .vmem S1x2048 .f32) (h6 : a6.IsWhole) (a7 : Memref sig .tc .vmem S1x256x2048 .f32) (h7 : a7.IsWhole) (acc : Memref sig .tc .vmem S256x4096 .f32) (hacc : acc.IsWhole) (hc0 : ¬isFirst i) (hc1 : isLast i)
    (x0 : Vec F S1x256x128 .bf16) (x1 : Vec F S1x256x128 .bf16) (x2 : Vec F S1x256x4096 .bf16) (x3 : Vec F S1x256x4096 .f32) (x4 : Vec F S1x256x2048 .f32) (x5 : Vec F S4096x2048 .bf16) (x6 : Vec F S1x2048 .f32) (xs : Vec F S256x4096 .f32) :
    Σ' (L7 : List (View.Piece (Elt F) S1x256x2048 .f32)), { LS : List (View.Piece (Elt F) S256x4096 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ owns (c : Thread nD τ) acc fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L7) ∗ (∃ f, acc.view.loc (c : Thread nD τ) ↦[acc.view.set]{fullShare} acc.view.writes (Elt F) f LS)) -∗ K ⟨⟩))
          ⊢ wp frame (wpE (defs₀ (F := F)) Variants.none c none) E (cc2__kernel i a0 h0 a1 h1 a2 h2 a3 h3 a4 h4 a5 h5 a6 h6 a7 h7 acc hacc) K } := by
  refine ⟨?_, ?_, fun E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := hacc.eq_unread hfs
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexists _; iexact HS

end Cert.KernelIdeal.Hand

end
-- ==== Proof.KI.Reg2.lean ====
/-
  The third kernel region's proof data and its body obligation.

  The running sum. Within a run of eight key tiles the scratch buffer holds, after the tile numbered `j`, the sum of the
  contributions of tiles `0 … j` (`accAt`, by recursion on the point's number: reset-and-add at the first tile, add at
  the others). The region's invariant between points (`PhiS2`) is the class's invariant with that buffer pinned to
  `accAt` of the point before; before the very first point it is the class's invariant itself. The output window is
  stored into only at the last tile of a run, from the full sum; elsewhere it is idle and handed back as found.
-/
import proofs.«179628_j85083302134314_2_alg».proof.Proof.KI.Reg2First
import proofs.«179628_j85083302134314_2_alg».proof.Proof.KI.Reg2Mid
import proofs.«179628_j85083302134314_2_alg».proof.Proof.KI.Reg2Last

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each kind of point leaves -/

/-- The running sum after a first key tile: the stores the run found, read back. -/
def sFirstAt (c : Dev nD) (t : Fin cfg2.N) (h0 : t.val % 8 = 0) (h1 : ¬t.val % 8 = 7) : Vec F S256x4096 .f32 :=
  accV.read (Elt F) (accV.writes (Elt F) accV.junk (runFirst c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) ((isFirst_iff t).mpr h0) (fun h => h1 ((isLast_iff t).mp h)) (iblk2 V c 0 t) (iblk2 V c 1 t) (iblk2 V c 2 t) (iblk2 V c 3 t) (iblk2 V c 4 t) (iblk2 V c 5 t) (iblk2 V c 6 t)).1)

theorem sFirst_cover (c : Dev nD) (t : Fin cfg2.N) (h0 : t.val % 8 = 0) (h1 : ¬t.val % 8 = 7) (y : S256x4096.Idx) :
    ∃ pc ∈ (runFirst c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) ((isFirst_iff t).mpr h0) (fun h => h1 ((isLast_iff t).mp h)) (iblk2 V c 0 t) (iblk2 V c 1 t) (iblk2 V c 2 t) (iblk2 V c 3 t) (iblk2 V c 4 t) (iblk2 V c 5 t) (iblk2 V c 6 t)).1, y ∈ pc.1.set :=
  View.cover_of_tiledL _ S256x4096.size (by sl_kernel_rfl) y

/-- The running sum after a middle key tile, over what the tile before left (`xs`). -/
def sMidAt (c : Dev nD) (t : Fin cfg2.N) (h0 : ¬t.val % 8 = 0) (h1 : ¬t.val % 8 = 7) (xs : Vec F S256x4096 .f32) : Vec F S256x4096 .f32 :=
  accV.read (Elt F) (accV.writes (Elt F) accV.junk (runMid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) (fun h => h1 ((isLast_iff t).mp h)) (iblk2 V c 0 t) (iblk2 V c 1 t) (iblk2 V c 2 t) (iblk2 V c 3 t) (iblk2 V c 4 t) (iblk2 V c 5 t) (iblk2 V c 6 t) xs).1)

theorem sMid_cover (c : Dev nD) (t : Fin cfg2.N) (h0 : ¬t.val % 8 = 0) (h1 : ¬t.val % 8 = 7) (xs : Vec F S256x4096 .f32) (y : S256x4096.Idx) :
    ∃ pc ∈ (runMid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) (fun h => h1 ((isLast_iff t).mp h)) (iblk2 V c 0 t) (iblk2 V c 1 t) (iblk2 V c 2 t) (iblk2 V c 3 t) (iblk2 V c 4 t) (iblk2 V c 5 t) (iblk2 V c 6 t) xs).1, y ∈ pc.1.set :=
  View.cover_of_tiledL _ S256x4096.size (by sl_kernel_rfl) y

/-- The running sum after a last key tile, over what the tile before left. -/
def sLastAt (c : Dev nD) (t : Fin cfg2.N) (h0 : ¬t.val % 8 = 0) (h1 : t.val % 8 = 7) (xs : Vec F S256x4096 .f32) : Vec F S256x4096 .f32 :=
  accV.read (Elt F) (accV.writes (Elt F) accV.junk (runLast c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) ((isLast_iff t).mpr h1) (iblk2 V c 0 t) (iblk2 V c 1 t) (iblk2 V c 2 t) (iblk2 V c 3 t) (iblk2 V c 4 t) (iblk2 V c 5 t) (iblk2 V c 6 t) xs).2.1)

theorem sLast_cover (c : Dev nD) (t : Fin cfg2.N) (h0 : ¬t.val % 8 = 0) (h1 : t.val % 8 = 7) (xs : Vec F S256x4096 .f32) (y : S256x4096.Idx) :
    ∃ pc ∈ (runLast c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) ((isLast_iff t).mpr h1) (iblk2 V c 0 t) (iblk2 V c 1 t) (iblk2 V c 2 t) (iblk2 V c 3 t) (iblk2 V c 4 t) (iblk2 V c 5 t) (iblk2 V c 6 t) xs).2.1, y ∈ pc.1.set :=
  View.cover_of_tiledL _ S256x4096.size (by sl_kernel_rfl) y

/-- The output window's buffer after a last key tile. -/
def oLastAt (c : Dev nD) (t : Fin cfg2.N) (h0 : ¬t.val % 8 = 0) (h1 : t.val % 8 = 7) (xs : Vec F S256x4096 .f32) : Vec F S1x256x2048 .f32 :=
  outV.read (Elt F) (outV.writes (Elt F) outV.junk (runLast c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) ((isLast_iff t).mpr h1) (iblk2 V c 0 t) (iblk2 V c 1 t) (iblk2 V c 2 t) (iblk2 V c 3 t) (iblk2 V c 4 t) (iblk2 V c 5 t) (iblk2 V c 6 t) xs).1)

theorem oLast_cover (c : Dev nD) (t : Fin cfg2.N) (h0 : ¬t.val % 8 = 0) (h1 : t.val % 8 = 7) (xs : Vec F S256x4096 .f32) (y : S1x256x2048.Idx) :
    ∃ pc ∈ (runLast c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) ((isLast_iff t).mpr h1) (iblk2 V c 0 t) (iblk2 V c 1 t) (iblk2 V c 2 t) (iblk2 V c 3 t) (iblk2 V c 4 t) (iblk2 V c 5 t) (iblk2 V c 6 t) xs).1, y ∈ pc.1.set :=
  View.cover_of_tiledL _ S1x256x2048.size (by sl_kernel_rfl) y

/-! ## The accumulation -/

/-- What the running sum's buffer holds after the body at position `n`. -/
def accAt (c : Dev nD) : (n : ℕ) → n < cfg2.N → Vec F S256x4096 .f32
  | 0, hn => sFirstAt V c ⟨0, hn⟩ (Nat.zero_mod _) (fun h => absurd (show (0 : ℕ) % 8 = 7 from h) (by decide))
  | n + 1, hn =>
    if h0 : (n + 1) % 8 = 0 then sFirstAt V c ⟨n + 1, hn⟩ h0 (fun h => by have h' : (n + 1) % 8 = 7 := h; omega)
    else if h1 : (n + 1) % 8 = 7 then sLastAt V c ⟨n + 1, hn⟩ h0 h1 (accAt c n (Nat.lt_of_succ_lt hn))
    else sMidAt V c ⟨n + 1, hn⟩ h0 h1 (accAt c n (Nat.lt_of_succ_lt hn))

theorem accAt_first (c : Dev nD) (t : Fin cfg2.N) (h0 : t.val % 8 = 0) (h1 : ¬t.val % 8 = 7) :
    accAt V c t.val t.isLt = sFirstAt V c t h0 h1 := by
  obtain ⟨n, hn⟩ := t
  cases n with
  | zero => exact rfl
  | succ n => exact (dif_pos h0).trans rfl

theorem accAt_mid (c : Dev nD) (t : Fin cfg2.N) (h0 : ¬t.val % 8 = 0) (h1 : ¬t.val % 8 = 7) :
    accAt V c t.val t.isLt = sMidAt V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_last (c : Dev nD) (t : Fin cfg2.N) (h0 : ¬t.val % 8 = 0) (h1 : t.val % 8 = 7) :
    accAt V c t.val t.isLt = sLastAt V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's staging buffer holds after the body at point `t`: at a last key tile the read-out of the full
    sum; elsewhere the window is idle and this value is never consulted. -/
def outAt (c : Dev nD) (t : Fin cfg2.N) : Vec F S1x256x2048 .f32 :=
  if h1 : t.val % 8 = 7 then oLastAt V c t (fun h => by omega) h1 (accAt V c (t.val - 1) (Nat.lt_of_le_of_lt (Nat.sub_le _ _) t.isLt))
  else outV.read (Elt F) outV.junk

theorem outAt_last (c : Dev nD) (t : Fin cfg2.N) (h0 : ¬t.val % 8 = 0) (h1 : t.val % 8 = 7) :
    outAt V c t = oLastAt V c t h0 h1 (accAt V c (t.val - 1) (Nat.lt_of_le_of_lt (Nat.sub_le _ _) t.isLt)) := dif_pos h1

/-! ## The invariant between points -/

/-- The core's scoped buffers other than the running sum's, each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant, with the running sum's buffer singled out. -/
theorem PhiA2_split (c : Dev nD) :
    (Pipeline.ΦA spec2 c : sProp 𝕄) ⊢ iprop((others2 c ∗ (∃ d, owns (c : Thread nD τ) accM fullShare d)) ∗ (∃ r, prngReg c r)) := by
  unfold Pipeline.ΦA; rw [scopedRest2_eq]; unfold others2; simp only [accM, owns_whole]
  iintro ⟨⟨H0, H1, H2, H3, H4, H5, H6, H7, H8, H9, H10, H11, H12, H13, H14, H15, H16, H17, H18, H19, H20, H21, HS⟩, Hg⟩
  isplitr [Hg]
  · isplitr [HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    · iexact HS
  · iexact Hg

theorem PhiA2_join (c : Dev nD) :
    iprop((others2 c ∗ (∃ d, owns (c : Thread nD τ) accM fullShare d)) ∗ (∃ r, prngReg c r)) ⊢ (Pipeline.ΦA spec2 c : sProp 𝕄) := by
  unfold Pipeline.ΦA; rw [scopedRest2_eq]; unfold others2; simp only [accM, owns_whole]
  iintro ⟨⟨⟨H0, H1, H2, H3, H4, H5, H6, H7, H8, H9, H10, H11, H12, H13, H14, H15, H16, H17, H18, H19, H20, H21⟩, HS⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact HS
  · iexact Hg

/-- The region's invariant before position `n`: before the first point the class's; afterwards the other scoped buffers at
    anything, the running sum's buffer at what the point before left, the generator register at some state. -/
def PhiS2 (c : Dev nD) : (n : ℕ) → n ≤ cfg2.N → sProp 𝕄
  | 0, _ => Pipeline.ΦA spec2 c
  | n + 1, hn => iprop((others2 c ∗ owns (c : Thread nD τ) accM fullShare (accAt V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((others2 c ∗ owns (c : Thread nD τ) accM fullShare (accAt V c n hn)) ∗ (∃ r, prngReg c r)) := rfl

theorem PhiS2_pos (c : Dev nD) (n : ℕ) (h : n ≤ cfg2.N) (hz : n ≠ 0) :
    PhiS2 V c n h = iprop((others2 c ∗ owns (c : Thread nD τ) accM fullShare (accAt V c (n - 1) (by omega))) ∗ (∃ r, prngReg c r)) := by
  cases n with
  | zero => exact absurd rfl hz
  | succ n => rfl

/-! ## The proof data -/

/-- The proof data of the third pipeline on core `c`: the arrays as the region finds them; after the body at a point each
    input's buffer at its block and the output's at `outAt`; the invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outAt V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = outAt V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

end Cert.KernelIdeal.Hand

end
-- ==== Proof.KI.Reg2Body.lean ====
/-
  The third kernel's body at any grid point, and the region's invariant at the region's two ends.

  A point is a first, middle or last key tile of its run of eight (its number modulo 8 is 0, 1…6 or 7). In each case the
  body's triple for that case applies: the inputs' staging buffers hold their blocks; the running sum's buffer is handed
  over at what the tile before left (at anything, at a first tile) and taken back at this tile's sum; the output window
  is handed back as found except at a last tile, where it is taken back at the read-out of the full sum.
-/
import proofs.«179628_j85083302134314_2_alg».proof.Proof.KI.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  rw [show (dat2 V c).leavesExact 3 t = owns (c : Thread nD τ) (ms2_3 t) fullShare ((dat2 V c).after 3 t) from by
    unfold Dat.leavesExact; rw [live2_3 t], after2_3]
  rw [show (dat2 V c).leavesExact 4 t = owns (c : Thread nD τ) (ms2_4 t) fullShare ((dat2 V c).after 4 t) from by
    unfold Dat.leavesExact; rw [live2_4 t], after2_4]
  rw [show (dat2 V c).leavesExact 5 t = owns (c : Thread nD τ) (ms2_5 t) fullShare ((dat2 V c).after 5 t) from by
    unfold Dat.leavesExact; rw [live2_5 t], after2_5]
  rw [show (dat2 V c).leavesExact 6 t = owns (c : Thread nD τ) (ms2_6 t) fullShare ((dat2 V c).after 6 t) from by
    unfold Dat.leavesExact; rw [live2_6 t], after2_6]
  have hN : t.val < 256 := lt_of_lt_of_eq t.isLt (show cfg2.N = 256 from N_2)
  by_cases h0 : t.val % 8 = 0
  · have h1 : ¬t.val % 8 = 7 := by omega
    rw [Dat.leavesExact_idle (dat2 V c) 7 t (idle2_7 t (fun h => h1 ((isLast_iff t).mp h))) (noFlush2_7 t (fun h => h1 ((isLast_iff t).mp h)))]
    rw [accAt_first V c t h0 h1]
    unfold sFirstAt
    by_cases hz : t.val = 0
    · rw [Phi2_castSucc V c t, PhiS2_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiA2_split c) $$ HΦ
      icases HΦ' with ⟨⟨HR, HS⟩, Hg⟩
      iapply ((runFirst c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) ((isFirst_iff t).mpr h0) (fun h => h1 ((isLast_iff t).mp h)) (iblk2 V c 0 t) (iblk2 V c 1 t) (iblk2 V c 2 t) (iblk2 V c 3 t) (iblk2 V c 4 t) (iblk2 V c 5 t) (iblk2 V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HR HS Hg]
      · isplitl [HR HS]
        · isplitl [HR]; · iexact HR
          unfold owns; iexists _; isplitr
          swap; · iexact HS
          ipureintro; exact View.read_writes_of_cover _ _ _ _ _ (sFirst_cover V c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [Phi2_castSucc V c t, PhiS2_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) ((isFirst_iff t).mpr h0) (fun h => h1 ((isLast_iff t).mp h)) (iblk2 V c 0 t) (iblk2 V c 1 t) (iblk2 V c 2 t) (iblk2 V c 3 t) (iblk2 V c 4 t) (iblk2 V c 5 t) (iblk2 V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HR HS Hg]
      · isplitl [HR HS]
        · isplitl [HR]; · iexact HR
          unfold owns; iexists _; isplitr
          swap; · iexact HS
          ipureintro; exact View.read_writes_of_cover _ _ _ _ _ (sFirst_cover V c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 8 = 7
    · rw [show (dat2 V c).leavesExact 7 t = owns (c : Thread nD τ) (ms2_7 t) fullShare ((dat2 V c).after 7 t) from by
        unfold Dat.leavesExact; rw [live2_7 t ((isLast_iff t).mpr h1)], after2_7]
      rw [outAt_last V c t h0 h1, accAt_last V c t h0 h1]
      unfold oLastAt sLastAt
      rw [Phi2_castSucc V c t, PhiS2_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) ((isLast_iff t).mpr h1) (iblk2 V c 0 t) (iblk2 V c 1 t) (iblk2 V c 2 t) (iblk2 V c 3 t) (iblk2 V c 4 t) (iblk2 V c 5 t) (iblk2 V c 6 t) (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HR HS Hg]
      · isplitl [HR HS]
        · isplitl [HR]; · iexact HR
          unfold owns; iexists _; isplitr
          swap; · iexact HS
          ipureintro; exact View.read_writes_of_cover _ _ _ _ _ (sLast_cover V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (oLast_cover V c t h0 h1 _)
    · rw [Dat.leavesExact_idle (dat2 V c) 7 t (idle2_7 t (fun h => h1 ((isLast_iff t).mp h))) (noFlush2_7 t (fun h => h1 ((isLast_iff t).mp h)))]
      rw [accAt_mid V c t h0 h1]
      unfold sMidAt
      rw [Phi2_castSucc V c t, PhiS2_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) accM (Memref.isWhole_whole _) (fun h => h0 ((isFirst_iff t).mp h)) (fun h => h1 ((isLast_iff t).mp h)) (iblk2 V c 0 t) (iblk2 V c 1 t) (iblk2 V c 2 t) (iblk2 V c 3 t) (iblk2 V c 4 t) (iblk2 V c 5 t) (iblk2 V c 6 t) (accAt V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HR HS Hg]
      · isplitl [HR HS]
        · isplitl [HR]; · iexact HR
          unfold owns; iexists _; isplitr
          swap; · iexact HS
          ipureintro; exact View.read_writes_of_cover _ _ _ _ _ (sMid_cover V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives the class's back: the running sum's named contents are forgotten. -/
theorem hout2 (c : Dev nD) : (dat2 V c).Φ (Fin.last cfg2.N) ⊢ (Pipeline.ΦA spec2 c : sProp 𝕄) := by
  have hne : (Fin.last cfg2.N).val ≠ 0 := by rw [Fin.val_last]; have : cfg2.N = 256 := N_2; omega
  rw [show (dat2 V c).Φ (Fin.last cfg2.N) = PhiS2 V c (Fin.last cfg2.N).val (Nat.le_of_lt_succ (Fin.last cfg2.N).isLt) from rfl, PhiS2_pos V c _ _ hne]
  iintro ⟨⟨HR, HS⟩, Hg⟩
  iapply (PhiA2_join c)
  isplitl [HR HS]
  · isplitl [HR]; · iexact HR
    iexists _; iexact HS
  iexact Hg

end Cert.KernelIdeal.Hand

end
-- ==== Proof.KI.Run.lean ====
/-
  The whole run of the program: sixteen host operations, then the three kernel regions.

  Between two items every unscoped buffer of a core is held at named contents: `W0` at launch, `W1` after the host
  operations, `W2`, `W3`, `W4` after the three regions, each region changing only its own output arrays. Every weakly
  fair execution terminates, faults nowhere, and ends with each argument array as launched and the result array at what
  the third region's write-backs leave.
-/
import proofs.«179628_j85083302134314_2_alg».proof.Proof.KI.Reg0
import proofs.«179628_j85083302134314_2_alg».proof.Proof.KI.Reg1
import proofs.«179628_j85083302134314_2_alg».proof.Proof.KI.Reg2Body
import proofs.«179628_j85083302134314_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between items -/

/-- Core `c`'s unscoped buffers at launch, and after the host operations. -/
abbrev W0 (c : Dev nD) : Valuation τ sig (Elt F) := Gen.V0 m c
abbrev W1 (c : Dev nD) : Valuation τ sig (Elt F) := Gen.V1 m c
abbrev E1 : (c : Dev nD) → (b : Ref sig .tc) → Buf (Elt F) ((c : Thread nD τ).loc b) := fun c b => W1 m c b

/-- After region 0: its arrays at what the pipeline leaves (an input's as entered, an output's write-backs folded), every
    other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After region 1: its arrays at what the pipeline leaves (an input's as entered, an output's write-backs folded), every
    other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After region 2: its arrays at what the pipeline leaves (an input's as entered, an output's write-backs folded), every
    other buffer as entered. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev E4 : (c : Dev nD) → (b : Ref sig .tc) → Buf (Elt F) ((c : Thread nD τ).loc b) := fun c b => W4 m c b
theorem hF2 (c : Dev nD) (w : Fin cfg2.W) : (dat2 (E3 m) c).arrAt w cfg2.N = E4 m c (Pipeline.arrRef spec2 w) :=
  (W4_arr m c w).symm
theorem hrest2 (c : Dev nD) : ∀ b, b ∉ Finset.univ.image (Pipeline.arrRef spec2) → E4 m c b = E3 m c b :=
  fun b hb => W4_of_ne m c b fun w e => hb (Finset.mem_image.mpr ⟨w, Finset.mem_univ _, e⟩)

/-! ## The arguments end as launched, the result at the third region's write-backs -/

/-- `main_arg0` ends as launched: every region reads it through an input window, no host operation writes it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 4).trans (((dat2 (E3 m) c).arrAt_in 4 rfl _).trans (A_eq2 (E3 m) c 4))
    _ = W2 m c (Proc.devRef .tc main_arg0) := (W3_arr m c 0).trans (((dat1 (E2 m) c).arrAt_in 0 rfl _).trans (A_eq1 (E2 m) c 0))
    _ = W1 m c (Proc.devRef .tc main_arg0) := (W2_arr m c 0).trans (((dat0 (E1 m) c).arrAt_in 0 rfl _).trans (A_eq0 (E1 m) c 0))
    _ = m ((c : Thread nD τ).loc main_arg0) := (V1_of m c main_arg0 (by decide)).trans rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (V1_of m c main_arg1 (by decide)).trans rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := (V1_of m c main_arg2 (by decide)).trans rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := (V1_of m c main_arg3 (by decide)).trans rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = m ((c : Thread nD τ).loc main_arg4) := (V1_of m c main_arg4 (by decide)).trans rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = m ((c : Thread nD τ).loc main_arg5) := (V1_of m c main_arg5 (by decide)).trans rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = m ((c : Thread nD τ).loc main_arg6) := (V1_of m c main_arg6 (by decide)).trans rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := W3_of_ne m c main_arg7 (by decide)
    _ = W1 m c (Proc.devRef .tc main_arg7) := W2_of_ne m c main_arg7 (by decide)
    _ = m ((c : Thread nD τ).loc main_arg7) := (V1_of m c main_arg7 (by decide)).trans rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := W3_of_ne m c main_arg8 (by decide)
    _ = W1 m c (Proc.devRef .tc main_arg8) := W2_of_ne m c main_arg8 (by decide)
    _ = m ((c : Thread nD τ).loc main_arg8) := (V1_of m c main_arg8 (by decide)).trans rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := W3_of_ne m c main_arg9 (by decide)
    _ = W1 m c (Proc.devRef .tc main_arg9) := W2_of_ne m c main_arg9 (by decide)
    _ = m ((c : Thread nD τ).loc main_arg9) := (V1_of m c main_arg9 (by decide)).trans rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := W4_of_ne m c main_arg10 (by decide)
    _ = W2 m c (Proc.devRef .tc main_arg10) := W3_of_ne m c main_arg10 (by decide)
    _ = W1 m c (Proc.devRef .tc main_arg10) := W2_of_ne m c main_arg10 (by decide)
    _ = m ((c : Thread nD τ).loc main_arg10) := (V1_of m c main_arg10 (by decide)).trans rfl

theorem W4_main_v18 (c : Dev nD) : W4 m c (Proc.devRef .tc main_v18) = (dat2 (E3 m) c).arrAt 7 cfg2.N := W4_arr m c 7

/-! ## The proof data family and the thread states -/

abbrev admH : (p : Fin 3) → (pcfgs (F := F) p).Adm := fun p => (cfgs p).toPCfg_adm
/-- Every pipeline's proof data, each at its region's entry contents (a literal match on the pipeline's number). -/
def pdats : (p : Fin 3) → (c : Dev nD) → Dat τ (Elt F) Unit ℕ (Pipeline.UD sig nD τ) ℕ (Pipeline.pin (pcfgs (F := F)) admH p) c
  | ⟨0, _⟩ => fun c => dat0 (E1 m) c
  | ⟨1, _⟩ => fun c => dat1 (E2 m) c
  | ⟨2, _⟩ => fun c => dat2 (E3 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- The host operations as one item, from the launch contents. -/
abbrev hseg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as items -/

set_option backward.isDefEq.respectTransparency.types false in
/-- Region 0 over the thread states: entered with every unscoped buffer at `W1`, left with them at `W2`. Its arrays are
    split out of the unscoped buffers at entry and put back at their final contents at exit; the generator register goes
    into the region's invariant and comes back; nothing is owed; the kernel has no semaphore of its own. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := Pipeline.UD sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread states: entered with every unscoped buffer at `W2`, left with them at `W3`. Its arrays are
    split out of the unscoped buffers at entry and put back at their final contents at exit; the generator register goes
    into the region's invariant and comes back; nothing is owed; the kernel has no semaphore of its own. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (E2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := Pipeline.UD sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread states: entered with every unscoped buffer at `W3`, left with them at `W4`. Its arrays are
    split out of the unscoped buffers at entry and put back at their final contents at exit; the generator register goes
    into the region's invariant and comes back; nothing is owed; the kernel has no semaphore of its own. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (E3 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := Pipeline.UD sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev items : List (Pipeline.Seg (pcfgs (F := F)) admH (pdats m) () defs₀ 𝒱₀ L lv) :=
  [ .host (hseg0 m), .region (reg0 m), .region (reg1 m), .region (reg2 m) ]
theorem main_run (c : Dev nD) : main (F := F) c = Pipeline.Seg.run (items m) := (main_chain c).trans (by chain_rfl)

set_option backward.isDefEq.respectTransparency.types false in
/-- THE RUN. From any memory with zero counters every weakly fair execution of the program terminates, nothing faulting,
    and every final state has the result array at what the third region's write-backs leave and each argument as launched. -/
theorem run : θ_run defs (onTc (τ := τ) (main (F := F))) ⟨m, fun _ => 0, ρ⟩ (fun r => ∀ c : Dev nD,
      r.2.mem ((c.tc : Thread nD τ).loc main_v18) = (dat2 (E3 m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) admH (pdats m) () cellOf_inj embL defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v18 (by decide))).trans (W4_main_v18 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c),
       (h c _ (mem_uc main_arg7 (by decide))).trans (W4_main_arg7 m c),
       (h c _ (mem_uc main_arg8 (by decide))).trans (W4_main_arg8 m c),
       (h c _ (mem_uc main_arg9 (by decide))).trans (W4_main_arg9 m c),
       (h c _ (mem_uc main_arg10 (by decide))).trans (W4_main_arg10 m c)⟩)

end Cert.KernelIdeal.Hand

end
-- ==== Proof.LibWholeBlock.lean ====
/-
  Whole-block loads and stores of a whole buffer.
-/
import Idealize.ShloMosaic.Lib.Pipeline.FrameBody
import Idealize.ShloMosaic.Lib.Pipeline.Frame
import Idealize.ShloMosaic.Lib.Pipeline.Value

noncomputable section

namespace Idealize.ShloMosaic.WholeBlock

open Idealize.ShloMosaic

variable {Val : EltTy → Type} {S : Shape} {e : EltTy} {sig : RefSig} {κ : Kind} {sp : Space}

/-- A list of stores whose LAST one goes through the whole-shape rectangle at zero offsets leaves, read back through
    the view, that store's payload: whatever the buffer held and whatever the earlier stores wrote. -/
theorem read_writes_unit_zero [∀ e, Nonempty (Val e)] (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole-shape rectangle at zero offsets of a whole buffer holding `X` reads `X`. -/
theorem readAt_unit_zero_unread (m : Memref sig κ sp S e) (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  show View.ld (m.view.read Val (hm.unread X)) (Rect.unit off S.size inb) = X
  rw [hm.read_unread, View.ld_unit_zero h inb]

/-- The two zero offsets of a rank-2 rectangle, as the constant function. -/
theorem zero2 : (![0, 0] : Fin 2 → Nat) = fun _ => 0 := by
  funext a; match a with | ⟨0, _⟩ => rfl | ⟨1, _⟩ => rfl

end Idealize.ShloMosaic.WholeBlock

end
-- ==== Proof.KI.Val2Pieces.lean ====
/-
  What the third kernel's body leaves in the running sum's buffer and in the output block, as closed payload terms
  of the grid point's blocks.

  At every grid point the body adds one key tile's contribution into the running sum; at a first key tile the sum is
  first reset to zeros, and at a last key tile the finished sum is gated, projected and added to the input tile. Each
  load and each store in the body goes through the whole shape of its buffer at offset zero, so a load reads the
  buffer's contents and a store leaves exactly its payload; a load that follows a whole store reads that store's
  payload. Hence the lists of stores of the three kinds of point read back as the closed payload terms below.
-/
import proofs.«179628_j85083302134314_2_alg».proof.Proof.KI.Reg2
import proofs.«179628_j85083302134314_2_alg».proof.Proof.LibWholeBlock

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The three zero offsets of a rank-3 rectangle are the constant zero function. -/
theorem pieces_zero3 : (![0, 0, 0] : Fin 3 → Nat) = fun _ => 0 := by
  funext a; match a with | ⟨0, _⟩ => rfl | ⟨1, _⟩ => rfl | ⟨2, _⟩ => rfl

/-- The two zero offsets of a rank-2 rectangle are the constant zero function. -/
theorem pieces_zero2 : (![0, 0] : Fin 2 → Nat) = fun _ => 0 := by
  funext a; match a with | ⟨0, _⟩ => rfl | ⟨1, _⟩ => rfl

/-- The contribution payload respects equality of its four arguments. -/
theorem pay2_congr {a0 b0 : Vec F S1x256x128 .bf16} {a1 b1 : Vec F S1x256x128 .bf16} {a2 b2 : Vec F S1x256x4096 .bf16}
    {a3 b3 : Vec F S256x4096 .f32} (e0 : a0 = b0) (e1 : a1 = b1) (e2 : a2 = b2) (e3 : a3 = b3) :
    k2_pay2 a0 a1 a2 a3 = k2_pay2 b0 b1 b2 b3 := by
  rw [e0, e1, e2, e3]

/-- The read-out payload respects equality of its five arguments. -/
theorem pay3_congr {a0 b0 : Vec F S256x4096 .f32} {a1 b1 : Vec F S1x256x4096 .f32} {a2 b2 : Vec F S4096x2048 .bf16}
    {a3 b3 : Vec F S1x2048 .f32} {a4 b4 : Vec F S1x256x2048 .f32}
    (e0 : a0 = b0) (e1 : a1 = b1) (e2 : a2 = b2) (e3 : a3 = b3) (e4 : a4 = b4) :
    k2_pay3 a0 a1 a2 a3 a4 = k2_pay3 b0 b1 b2 b3 b4 := by
  rw [e0, e1, e2, e3, e4]

/-- After a first key tile the running sum is this tile's contribution added to zeros: the reset store is read
    back by the load that follows it. -/
theorem sFirstAt_eq (c : Dev nD) (t : Fin cfg2.N) (h0 : t.val % 8 = 0) (h1 : ¬t.val % 8 = 7) :
    sFirstAt V c t h0 h1 = k2_pay2 (iblk2 V c 0 t) (iblk2 V c 1 t) (iblk2 V c 2 t) (k2_pay1 (F := F)) := by
  unfold sFirstAt
  rw [View.read_writes_eq_canon _ _ _ (sFirst_cover V c t h0 h1)]
  unfold runFirst
  dsimp only
  sl_unfold_words
  exact (View.canon_cons_unit_zero (S := S256x4096) pieces_zero2 _ _ _).trans
    (pay2_congr (WholeBlock.readAt_unit_zero_unread (ms2_0 t) (hs2_0 t) pieces_zero3 _ _) (WholeBlock.readAt_unit_zero_unread (ms2_1 t) (hs2_1 t) pieces_zero3 _ _)
      (WholeBlock.readAt_unit_zero_unread (ms2_2 t) (hs2_2 t) pieces_zero3 _ _) (View.readCov_unit_zero (S := S256x4096) accM.view pieces_zero2 _ _))

/-- After a middle key tile the running sum is this tile's contribution added to what the tile before left. -/
theorem sMidAt_eq (c : Dev nD) (t : Fin cfg2.N) (h0 : ¬t.val % 8 = 0) (h1 : ¬t.val % 8 = 7) (xs : Vec F S256x4096 .f32) :
    sMidAt V c t h0 h1 xs = k2_pay2 (iblk2 V c 0 t) (iblk2 V c 1 t) (iblk2 V c 2 t) xs := by
  unfold sMidAt
  rw [View.read_writes_eq_canon _ _ _ (sMid_cover V c t h0 h1 xs)]
  unfold runMid
  dsimp only
  sl_unfold_words
  exact (View.canon_unit_zero (S := S256x4096) pieces_zero2 _ _).trans
    (pay2_congr (WholeBlock.readAt_unit_zero_unread (ms2_0 t) (hs2_0 t) pieces_zero3 _ _) (WholeBlock.readAt_unit_zero_unread (ms2_1 t) (hs2_1 t) pieces_zero3 _ _)
      (WholeBlock.readAt_unit_zero_unread (ms2_2 t) (hs2_2 t) pieces_zero3 _ _) (WholeBlock.readAt_unit_zero_unread accM (Memref.isWhole_whole _) pieces_zero2 _ _))

/-- After a last key tile the running sum is likewise this tile's contribution added to what the tile before left. -/
theorem sLastAt_eq (c : Dev nD) (t : Fin cfg2.N) (h0 : ¬t.val % 8 = 0) (h1 : t.val % 8 = 7) (xs : Vec F S256x4096 .f32) :
    sLastAt V c t h0 h1 xs = k2_pay2 (iblk2 V c 0 t) (iblk2 V c 1 t) (iblk2 V c 2 t) xs := by
  unfold sLastAt
  rw [View.read_writes_eq_canon _ _ _ (sLast_cover V c t h0 h1 xs)]
  unfold runLast
  dsimp only
  sl_unfold_words
  exact (View.canon_unit_zero (S := S256x4096) pieces_zero2 _ _).trans
    (pay2_congr (WholeBlock.readAt_unit_zero_unread (ms2_0 t) (hs2_0 t) pieces_zero3 _ _) (WholeBlock.readAt_unit_zero_unread (ms2_1 t) (hs2_1 t) pieces_zero3 _ _)
      (WholeBlock.readAt_unit_zero_unread (ms2_2 t) (hs2_2 t) pieces_zero3 _ _) (WholeBlock.readAt_unit_zero_unread accM (Memref.isWhole_whole _) pieces_zero2 _ _))

/-- At a last key tile the output block is the read-out payload of the finished sum (read back from the store
    just made), the gate tile, the output weight, the output bias and the input tile. -/
theorem oLastAt_eq (c : Dev nD) (t : Fin cfg2.N) (h0 : ¬t.val % 8 = 0) (h1 : t.val % 8 = 7) (xs : Vec F S256x4096 .f32) :
    oLastAt V c t h0 h1 xs = k2_pay3 (k2_pay2 (iblk2 V c 0 t) (iblk2 V c 1 t) (iblk2 V c 2 t) xs) (iblk2 V c 3 t)
      (iblk2 V c 5 t) (iblk2 V c 6 t) (iblk2 V c 4 t) := by
  unfold oLastAt
  rw [View.read_writes_eq_canon _ _ _ (oLast_cover V c t h0 h1 xs)]
  unfold runLast
  dsimp only
  sl_unfold_words
  exact (View.canon_unit_zero (S := S1x256x2048) pieces_zero3 _ _).trans
    (pay3_congr
      ((View.readCov_unit_zero (S := S256x4096) accM.view pieces_zero2 _ _).trans
        (pay2_congr (WholeBlock.readAt_unit_zero_unread (ms2_0 t) (hs2_0 t) pieces_zero3 _ _) (WholeBlock.readAt_unit_zero_unread (ms2_1 t) (hs2_1 t) pieces_zero3 _ _)
      (WholeBlock.readAt_unit_zero_unread (ms2_2 t) (hs2_2 t) pieces_zero3 _ _) (WholeBlock.readAt_unit_zero_unread accM (Memref.isWhole_whole _) pieces_zero2 _ _)))
      (WholeBlock.readAt_unit_zero_unread (ms2_3 t) (hs2_3 t) pieces_zero3 _ _) (WholeBlock.readAt_unit_zero_unread (ms2_5 t) (hs2_5 t) pieces_zero2 _ _)
      (WholeBlock.readAt_unit_zero_unread (ms2_6 t) (hs2_6 t) pieces_zero2 _ _) (WholeBlock.readAt_unit_zero_unread (ms2_4 t) (hs2_4 t) pieces_zero3 _ _))

end Cert.KernelIdeal.Hand

end
-- ==== Proof.Math.lean ====
/-
  The scalar functions of the gated attention unit, on the extended reals.

  Every activation in the unit is one of two scalar maps: the sigmoid-weighted identity
  `silu z = z · σ(z)` with `σ(z) = 1 / (1 + e^(−z))`, applied after each of the two input projections,
  and the squared positive part `relu2 s = (max s 0)²`, applied to the scaled query–key products.
  Both programs are stated through these two names, so that their agreement is an agreement of sums.
-/
import Idealize.ShloMosaic.PureOps.Ideal

noncomputable section

namespace Cert.Gau

open Idealize.ShloMosaic

/-- The sigmoid-weighted identity, `z · σ(z)`. -/
def silu (z : EReal) : EReal := z * Ideal.logistic z

/-- The squared positive part, `(max s 0)²`. -/
def relu2 (s : EReal) : EReal := max s 0 * max s 0

/-- The sigmoid written out with the division, negation and exponential of the extended reals is the sigmoid:
    `1 / (1 + e^(−z)) = σ(z)`, by definition. -/
theorem logistic_spelt (z : EReal) : Ideal.div 1 (1 + Ideal.exp (-z)) = Ideal.logistic z := rfl

end Cert.Gau

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.PayLayout.lean ====
/-
  Reading a projection at an entry.

  Every kernel of the unit is built from the same few array operations: a tile with a leading axis of
  extent one viewed as a matrix, a matrix product into the zero matrix, a row of biases repeated down the
  rows, and a scalar activation applied entry by entry. This file reads each of these at an entry (p, q):
  the product is the finite sum over the contracted coordinate, the repeated row is the row's entry at q,
  and the two activations are the scalar maps `silu` and `relu2`.
-/
import Idealize.ShloMosaic.Lib.ValueLayout
import proofs.«179628_j85083302134314_2_alg».proof.Proof.Math
import proofs.«179628_j85083302134314_2_alg».proof.Proof.LibPlainDot

noncomputable section

namespace Cert.Gau.Pay

open Idealize.ShloMosaic Idealize.ShloMosaic.ValueIdx
open scoped BigOperators

/-! ## The two activations, entry by entry -/

/-- An array times its own sigmoid is `silu` of each entry. -/
theorem silu_apply {s : Shape} {φ : FTy} (A : FVec Ideal s φ) (i : s.Idx) :
    mulf A (logistic A) i = silu (A i) := rfl

/-- The entrywise maximum with a constant array of zeros, multiplied by itself, is `relu2` of each entry. -/
theorem relu2_apply {s : Shape} {φ : FTy} (A : FVec Ideal s φ) (z : Ideal φ) (hz : z = 0) (i : s.Idx) :
    mulf (maximumf A (broadcast s z)) (maximumf A (broadcast s z)) i = relu2 (A i) := by
  subst hz
  rfl

/-! ## A product of an M×K by a K×N matrix, with a row of biases -/

/-- Entry (p, q) of `l · w + b`, the bias row `b` repeated down the rows: `Σ_k l[p,k] · w[k,q] + b[0,q]`. -/
theorem matmul_bias_apply {M K N : Nat} {φ₁ φ₂ : FTy}
    (D : DotDims ⟨2, ![M, K]⟩ ⟨2, ![K, N]⟩ ⟨2, ![M, N]⟩) (hD : D = DotDims.plain M K N)
    (l : FVec Ideal ⟨2, ![M, K]⟩ φ₁) (w : FVec Ideal ⟨2, ![K, N]⟩ φ₂) (b : FVec Ideal ⟨2, ![1, N]⟩ .f32)
    (hw : (⟨2, ![K, N]⟩ : Shape).ShapeCasts ⟨2, ![K, N]⟩) (hb : (⟨2, ![1, N]⟩ : Shape).ShapeCasts ⟨2, ![1, N]⟩)
    (hbb : (⟨2, ![1, N]⟩ : Shape).Broadcasts ⟨2, ![M, N]⟩) (p : Fin M) (q : Fin N) :
    addf (matmul D none l (shapeCast ⟨2, ![K, N]⟩ w hw) (constant (F := Ideal) ⟨2, ![M, N]⟩ .f32 0x00000000#32))
        (broadcastTo ⟨2, ![M, N]⟩ (shapeCast ⟨2, ![1, N]⟩ b hb) hbb) (ix2 p q)
      = (∑ k : Fin K, l (ix2 p k) * w (ix2 k q)) + b (ix2 (0 : Fin 1) q) := by
  subst hD
  rw [shapeCast_self w hw, shapeCast_self b hb]
  refine (addf_apply _ _ _).trans ?_
  rw [Cert.PlainDot.matmul_zero_apply, broadcastTo_1b_ab_apply]

/-- Entry (p, q) of `l · w` for an M×K matrix `l` and a K×N matrix `w`: `Σ_k l[p,k] · w[k,q]`. -/
theorem matmul_plain_apply {M K N : Nat} {φ₁ φ₂ : FTy}
    (D : DotDims ⟨2, ![M, K]⟩ ⟨2, ![K, N]⟩ ⟨2, ![M, N]⟩) (hD : D = DotDims.plain M K N)
    (l : FVec Ideal ⟨2, ![M, K]⟩ φ₁) (w : FVec Ideal ⟨2, ![K, N]⟩ φ₂) (p : Fin M) (q : Fin N) :
    matmul D none l w (constant (F := Ideal) ⟨2, ![M, N]⟩ .f32 0x00000000#32) (ix2 p q)
      = ∑ k : Fin K, l (ix2 p k) * w (ix2 k q) := by
  subst hD
  exact Cert.PlainDot.matmul_zero_apply M K N none l w p q

/-! ## A product of an M×K matrix by the transpose of an N×K matrix -/

theorem nt_contr_rank (M K N : Nat) : (DotDims.transposedRhs M K N).contr.rank = 1 := rfl

theorem nt_contr_size (M K N : Nat) :
    (DotDims.transposedRhs M K N).contr.size ⟨0, by rw [nt_contr_rank]; exact Nat.one_pos⟩ = K := rfl

/-- With both operands contracted on their second axis, the left operand is read at (p, k) … -/
theorem nt_lhsIdx_eq (M K N : Nat) (p : Fin M) (q : Fin N) (k : Fin K) :
    (DotDims.transposedRhs M K N).lhsIdx (ix2 p q)
        ((contrEquiv1 (DotDims.transposedRhs M K N) K (nt_contr_rank M K N) (nt_contr_size M K N)).symm k) = ix2 p k := by
  have hk := contrEquiv1_symm_val (DotDims.transposedRhs M K N) K (nt_contr_rank M K N) (nt_contr_size M K N) k
  funext a
  refine Fin.ext ?_
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ =>
    exact ((DotDims.transposedRhs M K N).lhsIdx_val_of_single (cl := (1 : Fin 2)) rfl _ _).trans hk

/-- … and the right operand at (q, k): its ROW is the result's column. -/
theorem nt_rhsIdx_eq (M K N : Nat) (p : Fin M) (q : Fin N) (k : Fin K) :
    (DotDims.transposedRhs M K N).rhsIdx (ix2 p q)
        ((contrEquiv1 (DotDims.transposedRhs M K N) K (nt_contr_rank M K N) (nt_contr_size M K N)).symm k) = ix2 q k := by
  have hk := contrEquiv1_symm_val (DotDims.transposedRhs M K N) K (nt_contr_rank M K N) (nt_contr_size M K N) k
  funext a
  refine Fin.ext ?_
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ =>
    exact ((DotDims.transposedRhs M K N).rhsIdx_val_of_single (cr := (1 : Fin 2)) rfl _ _).trans hk

/-- Entry (p, q) of `l · rᵀ` for an M×K matrix `l` and an N×K matrix `r`: `Σ_k l[p,k] · r[q,k]`. -/
theorem matmul_nt_apply {M K N : Nat} {φ₁ φ₂ : FTy}
    (D : DotDims ⟨2, ![M, K]⟩ ⟨2, ![N, K]⟩ ⟨2, ![M, N]⟩) (hD : D = DotDims.transposedRhs M K N)
    (l : FVec Ideal ⟨2, ![M, K]⟩ φ₁) (r : FVec Ideal ⟨2, ![N, K]⟩ φ₂) (p : Fin M) (q : Fin N) :
    matmul D none l r (constant (F := Ideal) ⟨2, ![M, N]⟩ .f32 0x00000000#32) (ix2 p q)
      = ∑ k : Fin K, l (ix2 p k) * r (ix2 q k) := by
  subst hD
  show FloatOps.matmul (DotDims.transposedRhs M K N) none l r (constant ⟨2, ![M, N]⟩ .f32 0x00000000#32) (ix2 p q) = _
  rw [Ideal.matmul_constant_zero_apply,
    ← Equiv.sum_comp (contrEquiv1 (DotDims.transposedRhs M K N) K (nt_contr_rank M K N) (nt_contr_size M K N)).symm]
  refine Finset.sum_congr rfl fun k _ => ?_
  rw [nt_lhsIdx_eq, nt_rhsIdx_eq]

end Cert.Gau.Pay

end
-- ==== Proof.Pay2.lean ====
/-
  The attention kernel's arithmetic at an entry.

  The kernel keeps a running 256×4096 sum for one tile of 256 query positions. It starts at zero. Each tile
  of 256 key positions adds its contribution: the products `q_r · k_j` of query and key rows (both of width
  128, so the second operand is used transposed), scaled by the constant word of the kernel, passed through
  the squared positive part, and multiplied into that tile's 256×4096 values. After the last key tile the
  sum is multiplied entry by entry by the gate, projected by the 4096×2048 output weights, the output bias
  row is added to every row, and the input tile is added back.
-/
import proofs.«179628_j85083302134314_2_alg».proof.Proof.Gen.KernelIdeal.Skeleton
import proofs.«179628_j85083302134314_2_alg».proof.Proof.PayLayout

noncomputable section

namespace Cert.Gau.Pay

open Idealize.ShloMosaic Idealize.ShloMosaic.ValueIdx Cert.KernelIdeal Cert.KernelIdeal.Gen
open scoped BigOperators

/-- The query–key product contracts the second axis of BOTH operands: a 256×128 matrix by the transpose of a 256×128 matrix. -/
theorem dot_sim_eq : dot_S256x128_S256x128_S256x256_1_1_0_0_n_n = DotDims.transposedRhs 256 128 256 := rfl

/-- The weights times the values: an ordinary 256×256 by 256×4096 product. -/
theorem dot_mix_eq : dot_S256x256_S256x4096_S256x4096_1_0_0_1_n_n = DotDims.plain 256 256 4096 := rfl

/-- The output projection: an ordinary 256×4096 by 4096×2048 product. -/
theorem dot_out_eq : dot_S256x4096_S4096x2048_S256x2048_1_0_0_1_n_n = DotDims.plain 256 4096 2048 := rfl

/-- The running sum starts at zero. -/
theorem k2_pay1_apply (r : Fin 256) (h : Fin 4096) : k2_pay1 (F := Ideal) (ix2 r h) = 0 := by
  unfold k2_pay1
  exact (congrFun (shapeCast_self _ _) _).trans Ideal.ofBits_zero_f32

/-- One key tile's step: entry (r, h) of the new sum is the old entry plus
    `Σ_j relu2 ((Σ_e q[0,r,e] · k[0,j,e]) · c) · v[0,j,h]`, `c` the kernel's scaling word. -/
theorem k2_pay2_apply (v3 v5 : Vec Ideal S1x256x128 .bf16) (v13 : Vec Ideal S1x256x4096 .bf16) (v15 : Vec Ideal S256x4096 .f32)
    (r : Fin 256) (h : Fin 4096) :
    k2_pay2 v3 v5 v13 v15 (ix2 r h)
      = v15 (ix2 r h) + ∑ j : Fin 256,
          relu2 ((∑ e : Fin 128, v3 (ix3 (0 : Fin 1) r e) * v5 (ix3 (0 : Fin 1) j e)) * Ideal.ofBits .f32 0x3A000000#32)
            * v13 (ix3 (0 : Fin 1) j h) := by
  unfold k2_pay2
  refine (congrFun (shapeCast_self _ _) _).trans ?_
  refine (addf_apply _ _ _).trans (congrArg (v15 (ix2 r h) + ·) ?_)
  refine (matmul_plain_apply _ dot_mix_eq _ _ r h).trans (Finset.sum_congr rfl fun j _ => ?_)
  refine congr (congrArg HMul.hMul ?_) (shapeCast_1ab_ab_apply v13 _ j h)
  refine (truncf_apply (ψ := .bf16) _ bitsLt_bf16_f32 (ix2 r j)).trans ?_
  refine (relu2_apply _ _ Ideal.ofBits_zero_f32 _).trans (congrArg relu2 ?_)
  refine (mulf_apply _ _ _).trans ?_
  refine congrArg (· * Ideal.ofBits .f32 0x3A000000#32) ?_
  refine (matmul_nt_apply _ dot_sim_eq _ _ r j).trans (Finset.sum_congr rfl fun e _ => ?_)
  exact congr (congrArg HMul.hMul (shapeCast_1ab_ab_apply v3 _ r e)) (shapeCast_1ab_ab_apply v5 _ j e)

/-- The last step: entry (0, r, d) of the output tile is
    `(Σ_h (acc[r,h] · gate[0,r,h]) · W[h,d] + b[0,d]) + x[0,r,d]`. -/
theorem k2_pay3_apply (v25 : Vec Ideal S256x4096 .f32) (v26 : Vec Ideal S1x256x4096 .f32) (v29 : Vec Ideal S4096x2048 .bf16)
    (v33 : Vec Ideal S1x2048 .f32) (v37 : Vec Ideal S1x256x2048 .f32) (r : Fin 256) (d : Fin 2048) :
    k2_pay3 v25 v26 v29 v33 v37 (ix3 (0 : Fin 1) r d)
      = ((∑ h : Fin 4096, (v25 (ix2 r h) * v26 (ix3 (0 : Fin 1) r h)) * v29 (ix2 h d)) + v33 (ix2 (0 : Fin 1) d))
          + v37 (ix3 (0 : Fin 1) r d) := by
  unfold k2_pay3
  refine (shapeCast_ab_1ab_apply _ _ 0 r d).trans ?_
  refine (addf_apply _ _ _).trans ?_
  refine congr (congrArg HAdd.hAdd ?_) (shapeCast_1ab_ab_apply v37 _ r d)
  refine (matmul_bias_apply _ dot_out_eq _ v29 v33 _ _ _ r d).trans ?_
  refine congrArg (· + v33 (ix2 (0 : Fin 1) d)) (Finset.sum_congr rfl fun h _ => ?_)
  refine congrArg (· * v29 (ix2 h d)) ?_
  refine (truncf_apply (ψ := .bf16) _ bitsLt_bf16_f32 (ix2 r h)).trans ?_
  refine (mulf_apply _ _ _).trans ?_
  exact congrArg (v25 (ix2 r h) * ·) (shapeCast_1ab_ab_apply v26 _ r h)

end Cert.Gau.Pay

end
-- ==== Proof.LibReal.lean ====
import Mathlib.Data.EReal.Inv
import Idealize.ShloMosaic.PureOps.Ideal

/-!
# Real-valued extended reals

An extended real is *real* when it is the image of a real number, that is when it is neither
of the two infinities. The sum, difference, product, maximum and finite sums of real extended
reals are real, and so is the quotient of one by a nonzero real; a coercion of a finite sum of
reals is the sum of the coercions. The last sections read a few `f32` bit patterns as the
extended reals they denote, and read back the comparison `|x| < +∞`.
-/

noncomputable section

namespace Cert.GinMath

open Idealize.ShloMosaic
open scoped BigOperators

/-- An extended real is *real* when it is the image of a real number. -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither `⊤` nor `⊥`. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

/-- An extended real strictly between `⊥` and `⊤` is real. -/
theorem isReal_of_lt {x : EReal} (hb : ⊥ < x) (ht : x < ⊤) : IsReal x :=
  isReal_iff.mpr ⟨ne_of_lt ht, ne_of_gt hb⟩

/-- The sum of two real extended reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real extended reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real extended real is real. -/
theorem IsReal.neg {x : EReal} (hx : IsReal x) : IsReal (-x) := by
  obtain ⟨a, rfl⟩ := hx
  exact ⟨-a, (EReal.coe_neg a).symm⟩

/-- The maximum of two real extended reals is real. -/
theorem IsReal.max {x y : EReal} (hx : IsReal x) (hy : IsReal y) : IsReal (max x y) := by
  rcases max_choice x y with h | h <;> rw [h] <;> assumption

/-- A finite sum of real extended reals is real. -/
theorem IsReal.sum {ι : Type*} {s : Finset ι} {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- The quotient of a real extended real by a nonzero real is real. -/
theorem IsReal.div_coe {x : EReal} {y : ℝ} (hy : y ≠ 0) (hx : IsReal x) :
    IsReal (Ideal.div x (y : EReal)) := by
  rw [Ideal.div_coe hy]
  exact hx.mul (IsReal.coe _)

/-- The quotient of two reals, the divisor not zero, as an extended real. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the coercion of a family of reals. -/
theorem exists_real_fun {ι : Type*} {f : ι → EReal} (h : ∀ i, IsReal (f i)) :
    ∃ g : ι → ℝ, ∀ i, f i = (g i : EReal) :=
  ⟨fun i => Classical.choose (h i), fun i => Classical.choose_spec (h i)⟩

/-! ### A few `f32` patterns -/

/-- The pattern of `+0.0` denotes zero. -/
theorem ofBits_zero : Ideal.ofBits .f32 0x00000000#32 = 0 := by
  simp [Ideal.ofBits, Ideal.ieee]

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x47C35000` denotes `100000 = (2^23 + 4411392) · 2^(-7)`. -/
theorem ofBits_1e5 : Ideal.ofBits .f32 0x47C35000#32 = ((100000 : ℝ) : EReal) := by
  simp [Ideal.ofBits, Ideal.ieee, -EReal.coe_mul]; norm_num

/-- The pattern `0x3727C5AC` (the `f32` nearest `10⁻⁵`) has an exponent field that is neither
all zeros nor all ones, so it denotes a real number. -/
theorem isReal_ofBits_eps : IsReal (Ideal.ofBits .f32 0x3727C5AC#32) := by
  simp [Ideal.ofBits, Ideal.ieee, -EReal.coe_mul]
  exact ⟨_, rfl⟩

/-- The pattern `0x7F800000` (sign clear, exponent all ones, fraction zero) denotes `⊤`. -/
theorem ofBits_inf : Ideal.ofBits .f32 0x7F800000#32 = ⊤ := by
  simp [Ideal.ofBits, Ideal.ieee]

/-! ### A finiteness test read back -/

/-- A one-bit word made from a Boolean is `1` exactly when the Boolean is true. -/
theorem ofBool_eq_one_iff (b : Bool) : BitVec.ofBool b = 1#1 ↔ b = true := by
  cases b <;> decide

/-- An extended real whose absolute value `max x (-x)` is below `⊤` is real: `x < ⊤` excludes
`⊤`, and `-x < ⊤` excludes `⊥`. -/
theorem isReal_of_abs_lt_top {x : EReal} (h : max x (-x) < ⊤) : IsReal x := by
  rw [max_lt_iff] at h
  refine isReal_iff.mpr ⟨ne_of_lt h.1, ?_⟩
  rintro rfl
  simp at h

/-- The comparison `|x| < +∞` against the pattern of `+∞`, answered `1`, says `x` is real. -/
theorem isReal_of_cmp_abs_lt_inf {x : EReal}
    (h : Ideal.cmp .olt (max x (-x)) (Ideal.ofBits .f32 0x7F800000#32) = 1#1) : IsReal x := by
  rw [ofBits_inf] at h
  have e : Ideal.cmp .olt (max x (-x)) ⊤ = BitVec.ofBool (decide (max x (-x) < ⊤)) := rfl
  rw [e, ofBool_eq_one_iff, decide_eq_true_eq] at h
  exact isReal_of_abs_lt_top h

end Cert.GinMath

end
-- ==== Proof.TileSum.lean ====
/-
  Two laws the tiled accumulation of the attention weights rests on.

  The sum over the 2048 keys may be taken as eight consecutive tiles of 256, added tile by tile into a
  running sum that starts at zero: finite sums in a commutative monoid may be regrouped, and the
  running sum after the last tile is the sum of the eight tile sums. Scaling by `2⁻¹¹` is dividing by
  `2048`: both `f32` words are exact reals, and the quotient of an extended real by a nonzero real is
  the product with its inverse, whatever the extended real (the infinities included).
-/
import Mathlib.Algebra.BigOperators.Fin
import Mathlib.Logic.Equiv.Fin.Basic
import Idealize.ShloMosaic.PureOps.Ideal
import proofs.«179628_j85083302134314_2_alg».proof.Proof.Math
import proofs.«179628_j85083302134314_2_alg».proof.Proof.LibReal

noncomputable section

namespace Cert.Gau

open Idealize.ShloMosaic
open scoped BigOperators

/-- The pattern `0x45000000` (exponent field 138, fraction zero) denotes `2048 = 2¹¹`. -/
theorem TileWords.ofBits_2048 : Ideal.ofBits .f32 0x45000000#32 = ((2048 : ℝ) : EReal) := by
  simp [Ideal.ofBits, Ideal.ieee, -EReal.coe_mul]; norm_num

/-- The pattern `0x3A000000` (exponent field 116, fraction zero) denotes `1 / 2048 = 2⁻¹¹`. -/
theorem TileWords.ofBits_inv2048 : Ideal.ofBits .f32 0x3A000000#32 = ((1 / 2048 : ℝ) : EReal) := by
  simp [Ideal.ofBits, Ideal.ieee, -EReal.coe_mul]; norm_num

/-- Scaling by `2⁻¹¹` is dividing by `2048`, for every extended real. -/
theorem scale_eq (s : EReal) :
    s * Ideal.ofBits .f32 0x3A000000#32 = Ideal.div s (Ideal.ofBits .f32 0x45000000#32) := by
  rw [TileWords.ofBits_inv2048, TileWords.ofBits_2048, Ideal.div_coe (by norm_num : (2048 : ℝ) ≠ 0)]

/-- A sum over 2048 terms is the sum of its eight consecutive tiles of 256. -/
theorem sum_tiles {M : Type*} [AddCommMonoid M] (f : Fin 2048 → M) :
    (∑ kt : Fin 8, ∑ jj : Fin 256, f ⟨256 * kt.val + jj.val, by omega⟩) = ∑ j : Fin 2048, f j := by
  rw [← Fintype.sum_prod_type' (f := fun (kt : Fin 8) (jj : Fin 256) => f ⟨256 * kt.val + jj.val, by omega⟩)]
  refine Fintype.sum_equiv (finProdFinEquiv (m := 8) (n := 256)) _ _ fun p => ?_
  refine congrArg f (Fin.ext ?_)
  show 256 * p.1.val + p.2.val = p.2.val + 256 * p.1.val
  omega

/-- The running sum of a sequence: it starts from zero and adds one term at a time. -/
def runSum (g : ℕ → EReal) : ℕ → EReal
  | 0 => 0 + g 0
  | n + 1 => runSum g n + g (n + 1)

/-- The running sum after term `n` is the sum of the terms `0, …, n`. -/
theorem runSum_eq (g : ℕ → EReal) (n : ℕ) : runSum g n = ∑ k ∈ Finset.range (n + 1), g k := by
  induction n with
  | zero => rw [runSum, zero_add, Finset.sum_range_one]
  | succ n ih => rw [runSum, ih, Finset.sum_range_succ _ (n + 1)]

/-- The running sum after the eighth term is the sum of the eight terms. -/
theorem runSum_seven (g : ℕ → EReal) : runSum g 7 = ∑ kt : Fin 8, g kt.val := by
  rw [runSum_eq, Finset.sum_range]

end Cert.Gau

end
-- ==== Proof.Val2Idx.lean ====
/-
  The third kernel region's windows, read at an entry.

  The region's grid is (batch, query tile, key tile) = (4, 8, 8), the key tile innermost: point `t` is
  `64 · b + 8 · qi + kt`. The queries', the gate's, the input's and the output's windows move with
  `(b, qi)`; the keys' and the values' with `(b, kt)`; the output weights and bias are whole. A block is
  one batch by 256 positions by all columns, so entry `(0, r, x)` of a block is entry
  `(b, 256 · q + r, x)` of its array, `q` the tile number the window moves with. The output window is
  written back at the points with `kt = 7` only, and the blocks written back there tile its array.
-/
import proofs.«179628_j85083302134314_2_alg».proof.Proof.KI.Reg2
import Idealize.ShloMosaic.Lib.Pipeline.Value
import Idealize.ShloMosaic.Lib.ValueIdx

set_option maxRecDepth 16384

noncomputable section

namespace Cert.Gau.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Hand
open scoped BigOperators

/-- Row `r` of tile `q`, as a position. -/
abbrev tile (q : Fin 8) (r : Fin 256) : Fin 2048 := ⟨256 * q.val + r.val, by omega⟩

/-- A point's number is below 256. -/
theorem lt256 (t : Fin cfg2.N) : t.val < 256 := Nat.lt_of_lt_of_eq t.isLt Gen.N_2

/-! ## The printed index maps, decided once over the grid -/

theorem idx0 : ∀ t : Fin cfg2.N, win2_0.index t (0 : Fin 3) = t.val / 64 ∧ win2_0.index t (1 : Fin 3) = t.val / 8 % 8
    ∧ win2_0.index t (2 : Fin 3) = 0 :=
  (by decide +kernel : ∀ t : Fin grid2.N, _)

theorem idx1 : ∀ t : Fin cfg2.N, win2_1.index t (0 : Fin 3) = t.val / 64 ∧ win2_1.index t (1 : Fin 3) = t.val % 8
    ∧ win2_1.index t (2 : Fin 3) = 0 :=
  (by decide +kernel : ∀ t : Fin grid2.N, _)

theorem idx2 : ∀ t : Fin cfg2.N, win2_2.index t (0 : Fin 3) = t.val / 64 ∧ win2_2.index t (1 : Fin 3) = t.val % 8
    ∧ win2_2.index t (2 : Fin 3) = 0 :=
  (by decide +kernel : ∀ t : Fin grid2.N, _)

theorem idx3 : ∀ t : Fin cfg2.N, win2_3.index t (0 : Fin 3) = t.val / 64 ∧ win2_3.index t (1 : Fin 3) = t.val / 8 % 8
    ∧ win2_3.index t (2 : Fin 3) = 0 :=
  (by decide +kernel : ∀ t : Fin grid2.N, _)

theorem idx4 : ∀ t : Fin cfg2.N, win2_4.index t (0 : Fin 3) = t.val / 64 ∧ win2_4.index t (1 : Fin 3) = t.val / 8 % 8
    ∧ win2_4.index t (2 : Fin 3) = 0 :=
  (by decide +kernel : ∀ t : Fin grid2.N, _)

theorem idx7 : ∀ t : Fin cfg2.N, win2_7.index t (0 : Fin 3) = t.val / 64 ∧ win2_7.index t (1 : Fin 3) = t.val / 8 % 8
    ∧ win2_7.index t (2 : Fin 3) = 0 :=
  (by decide +kernel : ∀ t : Fin grid2.N, _)

theorem idx5 : ∀ t : Fin cfg2.N, win2_5.index t (0 : Fin 2) = 0 ∧ win2_5.index t (1 : Fin 2) = 0 :=
  (by decide +kernel : ∀ t : Fin grid2.N, _)

theorem idx6 : ∀ t : Fin cfg2.N, win2_6.index t (0 : Fin 2) = 0 ∧ win2_6.index t (1 : Fin 2) = 0 :=
  (by decide +kernel : ∀ t : Fin grid2.N, _)

/-! ## The windows' blocks at an entry -/

section
variable (V : (c : Dev nD) → (b : Ref sig .tc) → Buf (Elt Ideal) ((c : Thread nD τ).loc b)) (c : Dev nD)

/-- The region's operands as it finds them, as arrays of extended reals: the queries, -/
abbrev opQ : S4x2048x128.Idx → EReal := V c main_v16_1
/-- the keys, -/
abbrev opK : S4x2048x128.Idx → EReal := V c main_v16_2
/-- the values, -/
abbrev opV : S4x2048x4096.Idx → EReal := V c main_v16_0
/-- the gate, -/
abbrev opG : S4x2048x4096.Idx → EReal := V c main_v17
/-- the input, -/
abbrev opX : S4x2048x2048.Idx → EReal := V c main_arg0
/-- the output weights -/
abbrev opW : S4096x2048.Idx → EReal := V c main_v7
/-- and the output bias, a one-row matrix. -/
abbrev opB : S1x2048.Idx → EReal := V c main_v15

/-- The queries' block: row `r` of query tile `qi`. -/
theorem blk0_at (t : Fin cfg2.N) (b : Fin 4) (qi kt : Fin 8) (ht : t.val = 64 * b.val + 8 * qi.val + kt.val)
    (r : Fin 256) (x : Fin 128) :
    iblk2 V c 0 t (ix3 (0 : Fin 1) r x) = opQ V c (ix3 b (tile qi r) x) := by
  obtain ⟨e0, e1, e2⟩ := idx0 t
  show (V c main_v16_1 : S4x2048x128.Idx → EReal) (((cfg2.win 0).blk t).view.emb (ix3 (0 : Fin 1) r x)) = _
  refine congrArg _ (funext fun a => Fin.ext ?_)
  match a with
  | ⟨0, _⟩ => show win2_0.index t (0 : Fin 3) * 1 + 1 * 0 = b.val; omega
  | ⟨1, _⟩ => show win2_0.index t (1 : Fin 3) * 256 + 1 * r.val = 256 * qi.val + r.val; omega
  | ⟨2, _⟩ => show win2_0.index t (2 : Fin 3) * 128 + 1 * x.val = x.val; omega

/-- The keys' block: row `r` of key tile `kt`. -/
theorem blk1_at (t : Fin cfg2.N) (b : Fin 4) (qi kt : Fin 8) (ht : t.val = 64 * b.val + 8 * qi.val + kt.val)
    (r : Fin 256) (x : Fin 128) :
    iblk2 V c 1 t (ix3 (0 : Fin 1) r x) = opK V c (ix3 b (tile kt r) x) := by
  obtain ⟨e0, e1, e2⟩ := idx1 t
  show (V c main_v16_2 : S4x2048x128.Idx → EReal) (((cfg2.win 1).blk t).view.emb (ix3 (0 : Fin 1) r x)) = _
  refine congrArg _ (funext fun a => Fin.ext ?_)
  match a with
  | ⟨0, _⟩ => show win2_1.index t (0 : Fin 3) * 1 + 1 * 0 = b.val; omega
  | ⟨1, _⟩ => show win2_1.index t (1 : Fin 3) * 256 + 1 * r.val = 256 * kt.val + r.val; omega
  | ⟨2, _⟩ => show win2_1.index t (2 : Fin 3) * 128 + 1 * x.val = x.val; omega

/-- The values' block: row `r` of key tile `kt`. -/
theorem blk2_at (t : Fin cfg2.N) (b : Fin 4) (qi kt : Fin 8) (ht : t.val = 64 * b.val + 8 * qi.val + kt.val)
    (r : Fin 256) (x : Fin 4096) :
    iblk2 V c 2 t (ix3 (0 : Fin 1) r x) = opV V c (ix3 b (tile kt r) x) := by
  obtain ⟨e0, e1, e2⟩ := idx2 t
  show (V c main_v16_0 : S4x2048x4096.Idx → EReal) (((cfg2.win 2).blk t).view.emb (ix3 (0 : Fin 1) r x)) = _
  refine congrArg _ (funext fun a => Fin.ext ?_)
  match a with
  | ⟨0, _⟩ => show win2_2.index t (0 : Fin 3) * 1 + 1 * 0 = b.val; omega
  | ⟨1, _⟩ => show win2_2.index t (1 : Fin 3) * 256 + 1 * r.val = 256 * kt.val + r.val; omega
  | ⟨2, _⟩ => show win2_2.index t (2 : Fin 3) * 4096 + 1 * x.val = x.val; omega

/-- The gate's block: row `r` of query tile `qi`. -/
theorem blk3_at (t : Fin cfg2.N) (b : Fin 4) (qi kt : Fin 8) (ht : t.val = 64 * b.val + 8 * qi.val + kt.val)
    (r : Fin 256) (x : Fin 4096) :
    iblk2 V c 3 t (ix3 (0 : Fin 1) r x) = opG V c (ix3 b (tile qi r) x) := by
  obtain ⟨e0, e1, e2⟩ := idx3 t
  show (V c main_v17 : S4x2048x4096.Idx → EReal) (((cfg2.win 3).blk t).view.emb (ix3 (0 : Fin 1) r x)) = _
  refine congrArg _ (funext fun a => Fin.ext ?_)
  match a with
  | ⟨0, _⟩ => show win2_3.index t (0 : Fin 3) * 1 + 1 * 0 = b.val; omega
  | ⟨1, _⟩ => show win2_3.index t (1 : Fin 3) * 256 + 1 * r.val = 256 * qi.val + r.val; omega
  | ⟨2, _⟩ => show win2_3.index t (2 : Fin 3) * 4096 + 1 * x.val = x.val; omega

/-- The input's block: row `r` of query tile `qi`. -/
theorem blk4_at (t : Fin cfg2.N) (b : Fin 4) (qi kt : Fin 8) (ht : t.val = 64 * b.val + 8 * qi.val + kt.val)
    (r : Fin 256) (x : Fin 2048) :
    iblk2 V c 4 t (ix3 (0 : Fin 1) r x) = opX V c (ix3 b (tile qi r) x) := by
  obtain ⟨e0, e1, e2⟩ := idx4 t
  show (V c main_arg0 : S4x2048x2048.Idx → EReal) (((cfg2.win 4).blk t).view.emb (ix3 (0 : Fin 1) r x)) = _
  refine congrArg _ (funext fun a => Fin.ext ?_)
  match a with
  | ⟨0, _⟩ => show win2_4.index t (0 : Fin 3) * 1 + 1 * 0 = b.val; omega
  | ⟨1, _⟩ => show win2_4.index t (1 : Fin 3) * 256 + 1 * r.val = 256 * qi.val + r.val; omega
  | ⟨2, _⟩ => show win2_4.index t (2 : Fin 3) * 2048 + 1 * x.val = x.val; omega

/-- The output weights are one whole block. -/
theorem blk5_at (t : Fin cfg2.N) (h : Fin 4096) (d : Fin 2048) :
    iblk2 V c 5 t (ix2 h d) = opW V c (ix2 h d) := by
  obtain ⟨e0, e1⟩ := idx5 t
  show (V c main_v7 : S4096x2048.Idx → EReal) (((cfg2.win 5).blk t).view.emb (ix2 h d)) = _
  refine congrArg _ (funext fun a => Fin.ext ?_)
  match a with
  | ⟨0, _⟩ => show win2_5.index t (0 : Fin 2) * 4096 + 1 * h.val = h.val; omega
  | ⟨1, _⟩ => show win2_5.index t (1 : Fin 2) * 2048 + 1 * d.val = d.val; omega

/-- The output bias is one whole block. -/
theorem blk6_at (t : Fin cfg2.N) (u : Fin 1) (d : Fin 2048) :
    iblk2 V c 6 t (ix2 u d) = opB V c (ix2 u d) := by
  obtain ⟨e0, e1⟩ := idx6 t
  show (V c main_v15 : S1x2048.Idx → EReal) (((cfg2.win 6).blk t).view.emb (ix2 u d)) = _
  refine congrArg _ (funext fun a => Fin.ext ?_)
  match a with
  | ⟨0, _⟩ => show win2_6.index t (0 : Fin 2) * 1 + 1 * u.val = u.val; omega
  | ⟨1, _⟩ => show win2_6.index t (1 : Fin 2) * 2048 + 1 * d.val = d.val; omega

end

/-! ## The output window's blocks in its array -/

/-- Entry `(0, r, d)` of the output block at a point is entry `(b, 256 · qi + r, d)` of the array. -/
theorem emb7 (t : Fin cfg2.N) (b : Fin 4) (qi kt : Fin 8) (ht : t.val = 64 * b.val + 8 * qi.val + kt.val)
    (r : Fin 256) (d : Fin 2048) :
    ((cfg2.win 7).blk t).view.emb (ix3 (0 : Fin 1) r d) = (ix3 b (tile qi r) d : S4x2048x2048.Idx) := by
  obtain ⟨e0, e1, e2⟩ := idx7 t
  refine funext fun a => Fin.ext ?_
  match a with
  | ⟨0, _⟩ => show win2_7.index t (0 : Fin 3) * 1 + 1 * 0 = b.val; omega
  | ⟨1, _⟩ => show win2_7.index t (1 : Fin 3) * 256 + 1 * r.val = 256 * qi.val + r.val; omega
  | ⟨2, _⟩ => show win2_7.index t (2 : Fin 3) * 2048 + 1 * d.val = d.val; omega

/-- An index of the output array is in a point's block iff each coordinate is in the block's range on its axis. -/
theorem mem_blk7 (t : Fin cfg2.N) (i : S4x2048x2048.Idx) :
    i ∈ ((cfg2.win 7).blk t).view.set
      ↔ ∀ a : Fin 3, win2_7.index t a * S1x256x2048.size a ≤ (i a).val
          ∧ (i a).val < win2_7.index t a * S1x256x2048.size a + S1x256x2048.size a := by
  show i ∈ ((View.whole main_v18).slice (win2_7.rect t)).set ↔ _
  rw [View.set_slice_whole, Rect.mem_set_unit]
  exact Iff.rfl

/-- Every entry of the output array is in the block some point writes back: the point of its batch, its
    query tile and the last key tile. -/
theorem cover7 (i : S4x2048x2048.Idx) :
    ∃ t : Fin cfg2.N, (cfg2.win 7).flush t = true ∧ i ∈ ((cfg2.win 7).blk t).view.set := by
  have h0 : (i 0).val < 4 := (i 0).isLt
  have h1 : (i 1).val < 2048 := (i 1).isLt
  have h2 : (i 2).val < 2048 := (i 2).isLt
  let t : Fin cfg2.N := ⟨64 * (i 0).val + 8 * ((i 1).val / 256) + 7, by rw [show cfg2.N = 256 from Gen.N_2]; omega⟩
  have htv : t.val = 64 * (i 0).val + 8 * ((i 1).val / 256) + 7 := rfl
  obtain ⟨e0, e1, e2⟩ := idx7 t
  refine ⟨t, (Gen.flush2_7 t).mpr (by omega), ?_⟩
  rw [mem_blk7]
  intro a
  match a with
  | ⟨0, _⟩ => show win2_7.index t (0 : Fin 3) * 1 ≤ (i 0).val ∧ (i 0).val < win2_7.index t (0 : Fin 3) * 1 + 1; omega
  | ⟨1, _⟩ => show win2_7.index t (1 : Fin 3) * 256 ≤ (i 1).val ∧ (i 1).val < win2_7.index t (1 : Fin 3) * 256 + 256; omega
  | ⟨2, _⟩ => show win2_7.index t (2 : Fin 3) * 2048 ≤ (i 2).val ∧ (i 2).val < win2_7.index t (2 : Fin 3) * 2048 + 2048; omega

end Cert.Gau.Val

end
-- ==== Proof.Val2Acc.lean ====
/-
  The third kernel region's running sum, at an entry.

  Within a run of eight key tiles the running sum for query tile `qi` of batch `b` starts at zero and
  takes one tile's contribution per point: at key tile `k`, row `r` and column `h`, the sum over the
  tile's 256 keys `j` of `relu2 ((q_i · k_j) · 2⁻¹¹) · v[j, h]`, `i` the row's position. So after key
  tile `k` the entry is the running sum of the first `k + 1` tile terms, and after the eighth it is the sum
  over all 2048 keys.
-/
import proofs.«179628_j85083302134314_2_alg».proof.Proof.KI.Val2Pieces
import proofs.«179628_j85083302134314_2_alg».proof.Proof.Pay2
import proofs.«179628_j85083302134314_2_alg».proof.Proof.TileSum
import proofs.«179628_j85083302134314_2_alg».proof.Proof.Val2Idx

set_option maxRecDepth 16384

noncomputable section

namespace Cert.Gau.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Hand
open scoped BigOperators

section
variable (V : (c : Dev nD) → (b : Ref sig .tc) → Buf (Elt Ideal) ((c : Thread nD τ).loc b)) (c : Dev nD)

/-- What key `j` contributes to column `h` of the weighted values of position `i` in batch `b`: the attention
    weight `relu2 ((q_i · k_j) · 2⁻¹¹)` times the value. -/
def contrib (b : Fin 4) (i j : Fin 2048) (h : Fin 4096) : EReal :=
  relu2 ((∑ e : Fin 128, opQ V c (ix3 b i e) * opK V c (ix3 b j e)) * Ideal.ofBits .f32 0x3A000000#32)
    * opV V c (ix3 b j h)

/-- The contribution of key tile `k` as a whole (zero past the eighth tile, which is never asked). -/
def tileTerm (b : Fin 4) (i : Fin 2048) (h : Fin 4096) (k : ℕ) : EReal :=
  if hk : k < 8 then ∑ jj : Fin 256, contrib V c b i (tile ⟨k, hk⟩ jj) h else 0

/-- The running sum takes one more term. -/
theorem runSum_succ (g : ℕ → EReal) (n : ℕ) : runSum g (n + 1) = runSum g n + g (n + 1) := rfl

/-- One point's step at an entry: the old entry plus the point's key tile's term. -/
theorem step_at (t : Fin cfg2.N) (b : Fin 4) (qi kt : Fin 8) (ht : t.val = 64 * b.val + 8 * qi.val + kt.val)
    (xs : Vec Ideal S256x4096 .f32) (r : Fin 256) (h : Fin 4096) :
    k2_pay2 (iblk2 V c 0 t) (iblk2 V c 1 t) (iblk2 V c 2 t) xs (ix2 r h)
      = xs (ix2 r h) + tileTerm V c b (tile qi r) h kt.val := by
  refine (Cert.Gau.Pay.k2_pay2_apply _ _ _ _ r h).trans ?_
  simp only [blk0_at V c t b qi kt ht, blk1_at V c t b qi kt ht, blk2_at V c t b qi kt ht]
  unfold tileTerm
  rw [dif_pos kt.isLt]
  rfl

/-- THE RUNNING SUM after the point of batch `b`, query tile `qi` and key tile `k`, at row `r` and column `h`. -/
theorem acc_at (b : Fin 4) (qi : Fin 8) (r : Fin 256) (h : Fin 4096) :
    ∀ (k : ℕ) (hk : k < 8) (t : Fin cfg2.N), t.val = 64 * b.val + 8 * qi.val + k →
      accAt V c t.val t.isLt (ix2 r h) = runSum (tileTerm V c b (tile qi r) h) k
  | 0, hk, t, ht => by
    have h0 : t.val % 8 = 0 := by omega
    have h1 : ¬t.val % 8 = 7 := by omega
    rw [accAt_first V c t h0 h1, sFirstAt_eq V c t h0 h1, step_at V c t b qi ⟨0, hk⟩ ht,
      Cert.Gau.Pay.k2_pay1_apply]
    rfl
  | k + 1, hk, t, ht => by
    have h0 : ¬t.val % 8 = 0 := by omega
    have ih := acc_at b qi r h k (by omega) ⟨t.val - 1, Nat.lt_of_le_of_lt (Nat.sub_le _ _) t.isLt⟩
      (by show t.val - 1 = _; omega)
    rw [runSum_succ]
    by_cases h1 : t.val % 8 = 7
    · rw [accAt_last V c t h0 h1, sLastAt_eq V c t h0 h1, step_at V c t b qi ⟨k + 1, hk⟩ ht]
      exact congrArg (· + tileTerm V c b (tile qi r) h (k + 1)) ih
    · rw [accAt_mid V c t h0 h1, sMidAt_eq V c t h0 h1, step_at V c t b qi ⟨k + 1, hk⟩ ht]
      exact congrArg (· + tileTerm V c b (tile qi r) h (k + 1)) ih

/-- The eight tile terms add up to the sum over all 2048 keys. -/
theorem runSum_tiles (b : Fin 4) (i : Fin 2048) (h : Fin 4096) :
    runSum (tileTerm V c b i h) 7 = ∑ j : Fin 2048, contrib V c b i j h := by
  rw [runSum_seven]
  refine Eq.trans (Finset.sum_congr rfl fun kt _ => ?_) (sum_tiles fun j => contrib V c b i j h)
  unfold tileTerm
  rw [dif_pos kt.isLt]

/-- THE FULL SUM: at a last key tile the step over what the seventh tile left is the sum over all keys. -/
theorem total_at (t : Fin cfg2.N) (b : Fin 4) (qi : Fin 8) (ht : t.val = 64 * b.val + 8 * qi.val + 7)
    (r : Fin 256) (h : Fin 4096) :
    k2_pay2 (iblk2 V c 0 t) (iblk2 V c 1 t) (iblk2 V c 2 t)
        (accAt V c (t.val - 1) (Nat.lt_of_le_of_lt (Nat.sub_le _ _) t.isLt)) (ix2 r h)
      = ∑ j : Fin 2048, contrib V c b (tile qi r) j h := by
  have h0 : ¬t.val % 8 = 0 := by omega
  have h1 : t.val % 8 = 7 := by omega
  have e := (accAt_last V c t h0 h1).trans (sLastAt_eq V c t h0 h1 _)
  rw [← e, acc_at V c b qi r h 7 (by omega) t ht, runSum_tiles]

end

end Cert.Gau.Val

end
-- ==== Proof.Val2.lean ====
/-
  The third kernel region's output array in closed form.

  At the last key tile of a run the body multiplies the finished sum entry by entry by the gate, projects
  it by the output weights, adds the output bias to every row and adds the input tile back; that block
  is written to rows `256 · qi … 256 · qi + 255` of batch `b` of the output array. The blocks written
  at the 32 such points tile the array, so after the region entry `(b, i, d)` of the array is
  `(Σ_h (Σ_j contrib b i j h) · gate[b,i,h] · W_o[h,d] + b_o[d]) + x[b,i,d]`, a function of what the
  region found in its operands.
-/
import proofs.«179628_j85083302134314_2_alg».proof.Proof.Val2Acc

set_option maxRecDepth 16384

noncomputable section

namespace Cert.Gau.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Hand
open scoped BigOperators

/-- A function on a one-batch block is determined by its entries `(0, r, d)`. -/
theorem ext_block {α : Type} {a b : ℕ} {f g : (⟨3, ![1, a, b]⟩ : Shape).Idx → α}
    (H : ∀ (r : Fin a) (d : Fin b), f (ix3 (0 : Fin 1) r d) = g (ix3 (0 : Fin 1) r d)) : f = g := by
  funext j
  have hj : j = ix3 (0 : Fin 1) (j 1) (j 2) := by
    funext x
    match x with
    | ⟨0, _⟩ => exact Fin.ext (Nat.lt_one_iff.mp (j 0).isLt)
    | ⟨1, _⟩ => rfl
    | ⟨2, _⟩ => rfl
  rw [hj]
  exact H _ _

section
variable (V : (c : Dev nD) → (b : Ref sig .tc) → Buf (Elt Ideal) ((c : Thread nD τ).loc b)) (c : Dev nD)

/-- The output at batch `b`, position `i`, feature `d`, from the region's operands. -/
def outEntry (b : Fin 4) (i d : Fin 2048) : EReal :=
  ((∑ h : Fin 4096, ((∑ j : Fin 2048, contrib V c b i j h) * opG V c (ix3 b i h))
      * opW V c (ix2 h d)) + opB V c (ix2 (0 : Fin 1) d))
    + opX V c (ix3 b i d)

/-- The output array. -/
def outG : S4x2048x2048.Idx → EReal := fun i => outEntry V c (i 0) (i 1) (i 2)

theorem outG_apply (b : Fin 4) (i d : Fin 2048) : outG V c (ix3 b i d) = outEntry V c b i d := rfl

/-- WHAT A LAST KEY TILE'S POINT WRITES BACK is its block of the output array. -/
theorem flushed7_eq (t : Fin cfg2.N) (hf : (cfg2.win 7).flush t = true) :
    (dat2 V c).flushed 7 t = ((cfg2.win 7).blk t).view.read (Elt Ideal) (outG V c) := by
  have h1 : t.val % 8 = 7 := (Gen.flush2_7 t).mp hf
  have h0 : ¬t.val % 8 = 0 := by omega
  have hlt := lt256 t
  have ht : t.val = 64 * (⟨t.val / 64, by omega⟩ : Fin 4).val + 8 * (⟨t.val / 8 % 8, by omega⟩ : Fin 8).val + 7 := by
    show t.val = 64 * (t.val / 64) + 8 * (t.val / 8 % 8) + 7
    omega
  generalize (⟨t.val / 64, by omega⟩ : Fin 4) = b at ht
  generalize (⟨t.val / 8 % 8, by omega⟩ : Fin 8) = qi at ht
  refine ext_block (a := 256) (b := 2048) fun r d => ?_
  have hR : ((cfg2.win 7).blk t).view.read (Elt Ideal) (outG V c) (ix3 (0 : Fin 1) r d) = outEntry V c b (tile qi r) d := by
    show outG V c (((cfg2.win 7).blk t).view.emb (ix3 (0 : Fin 1) r d)) = _
    rw [emb7 t b qi 7 ht r d]
    rfl
  rw [hR]
  show (cfg2.win 7).cut (grid2.coords t) ((dat2 V c).after 7 t) (ix3 (0 : Fin 1) r d) = _
  rw [after2_7]
  show outAt V c t (ix3 (0 : Fin 1) r d) = _
  rw [outAt_last V c t h0 h1, oLastAt_eq V c t h0 h1]
  refine (Cert.Gau.Pay.k2_pay3_apply _ _ _ _ _ r d).trans ?_
  simp only [total_at V c t b qi ht, blk3_at V c t b qi 7 ht, blk4_at V c t b qi 7 ht, blk5_at V c t, blk6_at V c t]
  rfl

/-- THE OUTPUT ARRAY after the region, entry by entry. -/
theorem out_array (b : Fin 4) (i d : Fin 2048) :
    ((dat2 (F := Ideal) V c).arrAt 7 cfg2.N : S4x2048x2048.Idx → EReal) (ix3 b i d)
      = ((∑ h : Fin 4096, ((∑ j : Fin 2048, contrib V c b i j h) * opG V c (ix3 b i h))
            * opW V c (ix2 h d)) + opB V c (ix2 (0 : Fin 1) d))
          + opX V c (ix3 b i d) := by
  have e := (dat2 V c).arrAt_eq_of_cover 7 (outG V c) (fun t hf => flushed7_eq V c t hf) cover7
  rw [e]
  rfl

end

end Cert.Gau.Val

end
-- ==== Proof.Spec.lean ====
/-
  The gated attention unit as ONE function of its eleven argument arrays, entry by entry, on the extended reals.

  With `x : [4, 2048, 2048]` (batch, position, feature), the unit computes, per batch `b`:
    * a hidden projection `hid = silu (x · W_h + b_h)` of width 8192, whose first 4096 columns are the values
      `val` and whose last 4096 columns are the gate `gate`;
    * a shared projection `qk = silu (x · W_qk + b_qk)` of width 128, rescaled twice into the queries
      `qry = qk · γ_q + β_q` and the keys `key = qk · γ_k + β_k`;
    * the similarity `sim i j = (Σ_e qry i e · key j e) / 2048` and the weights `attn = relu2 sim`
      (no normalisation: a position's weights are not made to sum to one);
    * the mixed values `mix i h = (Σ_j attn i j · val j h) · gate i h`;
    * the output `(Σ_h mix i h · W_o h d + b_o d) + x i d`, the last term the residual connection.
  Sums are finite sums in the commutative monoid of the extended reals, so their order and grouping are free.
-/
import Idealize.ShloMosaic.Lib.ValueIdx
import proofs.«179628_j85083302134314_2_alg».proof.Proof.Math

noncomputable section

namespace Cert.Gau

open Idealize.ShloMosaic Idealize.ShloMosaic.ValueIdx

/-- Arrays of extended reals of rank one, two and three, over literal extents. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- The divisor of the similarity: the f32 word of 2048, the sequence length. -/
abbrev seqLen : EReal := Ideal.ofBits .f32 0x45000000#32

section
variable (x : A3 4 2048 2048) (Wh : A2 2048 8192) (bh : A1 8192) (Wqk : A2 2048 128) (bqk gq bq gk bk : A1 128)
  (Wo : A2 4096 2048) (bo : A1 2048)

/-- The hidden projection at column `h` of 8192: `silu (Σ_d x[b,n,d] · W_h[d,h] + b_h[h])`. -/
def hid (b : Fin 4) (n : Fin 2048) (h : Fin 8192) : EReal :=
  silu ((∑ d : Fin 2048, x (ix3 b n d) * Wh (ix2 d h)) + bh (ix1 h))

/-- The values: the first 4096 columns of the hidden projection. -/
def val (b : Fin 4) (n : Fin 2048) (h : Fin 4096) : EReal := hid x Wh bh b n ⟨h.val, by omega⟩

/-- The gate: the last 4096 columns of the hidden projection. -/
def gate (b : Fin 4) (n : Fin 2048) (h : Fin 4096) : EReal := hid x Wh bh b n ⟨4096 + h.val, by omega⟩

/-- The shared query–key projection: `silu (Σ_d x[b,n,d] · W_qk[d,e] + b_qk[e])`. -/
def qk (b : Fin 4) (n : Fin 2048) (e : Fin 128) : EReal :=
  silu ((∑ d : Fin 2048, x (ix3 b n d) * Wqk (ix2 d e)) + bqk (ix1 e))

/-- The queries: the shared projection rescaled by `γ_q`, shifted by `β_q`. -/
def qry (b : Fin 4) (n : Fin 2048) (e : Fin 128) : EReal := qk x Wqk bqk b n e * gq (ix1 e) + bq (ix1 e)

/-- The keys: the shared projection rescaled by `γ_k`, shifted by `β_k`. -/
def key (b : Fin 4) (n : Fin 2048) (e : Fin 128) : EReal := qk x Wqk bqk b n e * gk (ix1 e) + bk (ix1 e)

/-- The query–key product of positions `i`, `j`, before scaling. -/
def dotQK (b : Fin 4) (i j : Fin 2048) : EReal :=
  ∑ e : Fin 128, qry x Wqk bqk gq bq b i e * key x Wqk bqk gk bk b j e

/-- The attention weight of position `j` for position `i`: the squared positive part of the product over 2048. -/
def attn (b : Fin 4) (i j : Fin 2048) : EReal :=
  relu2 (Ideal.div (dotQK x Wqk bqk gq bq gk bk b i j) seqLen)

/-- The weighted values at position `i`, column `h`, before the gate. -/
def mixed (b : Fin 4) (i : Fin 2048) (h : Fin 4096) : EReal :=
  ∑ j : Fin 2048, attn x Wqk bqk gq bq gk bk b i j * val x Wh bh b j h

/-- The gated weighted values. -/
def gated (b : Fin 4) (i : Fin 2048) (h : Fin 4096) : EReal :=
  mixed x Wh bh Wqk bqk gq bq gk bk b i h * gate x Wh bh b i h

/-- The unit's output at batch `b`, position `i`, feature `d`. -/
def out (b : Fin 4) (i : Fin 2048) (d : Fin 2048) : EReal :=
  ((∑ h : Fin 4096, gated x Wh bh Wqk bqk gq bq gk bk b i h * Wo (ix2 h d)) + bo (ix1 d)) + x (ix3 b i d)

/-- The unit's output array. -/
def G : A3 4 2048 2048 := fun j => out x Wh bh Wqk bqk gq bq gk bk Wo bo (j 0) (j 1) (j 2)

theorem G_apply (b : Fin 4) (i : Fin 2048) (d : Fin 2048) :
    G x Wh bh Wqk bqk gq bq gk bk Wo bo (ix3 b i d) = out x Wh bh Wqk bqk gq bq gk bk Wo bo b i d := rfl

end

end Cert.Gau

end
-- ==== Proof.KI.RunVals.lean ====
/-
  Where the buffers the third region reads came from.

  Entering the third region, the query, key and value arrays are what the first region's write-backs left, the gate array
  what the second region's left, and the input array, the output weight and the output bias are as the host operations
  left them: no region in between writes them. Likewise for what the second region reads.
-/
import proofs.«179628_j85083302134314_2_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- The queries entering the third region: the first region's second output array. -/
theorem E3_q (c : Dev nD) : W3 m c (Proc.devRef .tc main_v16_1) = (dat0 (E1 m) c).arrAt 10 cfg0.N :=
  (W3_of_ne m c main_v16_1 (by decide)).trans (W2_arr m c 10)
/-- The keys: the first region's third output array. -/
theorem E3_k (c : Dev nD) : W3 m c (Proc.devRef .tc main_v16_2) = (dat0 (E1 m) c).arrAt 11 cfg0.N :=
  (W3_of_ne m c main_v16_2 (by decide)).trans (W2_arr m c 11)
/-- The values: the first region's first output array. -/
theorem E3_v (c : Dev nD) : W3 m c (Proc.devRef .tc main_v16_0) = (dat0 (E1 m) c).arrAt 9 cfg0.N :=
  (W3_of_ne m c main_v16_0 (by decide)).trans (W2_arr m c 9)
/-- The gate: the second region's output array. -/
theorem E3_gate (c : Dev nD) : W3 m c (Proc.devRef .tc main_v17) = (dat1 (E2 m) c).arrAt 3 cfg1.N := W3_arr m c 3
/-- The input array is as launched at every boundary. -/
theorem E2_x (c : Dev nD) : W2 m c (Proc.devRef .tc main_arg0) = m ((c : Thread nD τ).loc main_arg0) :=
  ((W2_arr m c 0).trans (((dat0 (E1 m) c).arrAt_in 0 rfl _).trans (A_eq0 (E1 m) c 0))).trans ((V1_of m c main_arg0 (by decide)).trans rfl)
theorem E3_x (c : Dev nD) : W3 m c (Proc.devRef .tc main_arg0) = m ((c : Thread nD τ).loc main_arg0) :=
  ((W3_arr m c 0).trans (((dat1 (E2 m) c).arrAt_in 0 rfl _).trans (A_eq1 (E2 m) c 0))).trans (E2_x m c)
/-- The output weight and bias, and the gate's weight and bias, are as the host operations left them. -/
theorem E3_wo (c : Dev nD) : W3 m c (Proc.devRef .tc main_v7) = W1 m c (Proc.devRef .tc main_v7) :=
  (W3_of_ne m c main_v7 (by decide)).trans (W2_of_ne m c main_v7 (by decide))
theorem E3_bo (c : Dev nD) : W3 m c (Proc.devRef .tc main_v15) = W1 m c (Proc.devRef .tc main_v15) :=
  (W3_of_ne m c main_v15 (by decide)).trans (W2_of_ne m c main_v15 (by decide))
theorem E2_wg (c : Dev nD) : W2 m c (Proc.devRef .tc main_v5) = W1 m c (Proc.devRef .tc main_v5) := W2_of_ne m c main_v5 (by decide)
theorem E2_bg (c : Dev nD) : W2 m c (Proc.devRef .tc main_v9) = W1 m c (Proc.devRef .tc main_v9) := W2_of_ne m c main_v9 (by decide)

end Cert.KernelIdeal.Hand

end
-- ==== Proof.HostPre.lean ====
/-
  The kernel program's host operations before its first region, read entry by entry.

  Before the three regions the program prepares its operands on the host: it cuts the fused weight
  `W_h : [2048, 8192]` and the fused bias `b_h : [8192]` into their first and last 4096 columns, changes
  the format of the four weight matrices (at the exact instance a change of format is the identity),
  and views each of the eight vectors as a one-row matrix. Every buffer these operations write is
  therefore, entry by entry, an entry of one argument array; the argument arrays themselves are
  written by none of them.
-/
import proofs.«179628_j85083302134314_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.Gau.Host

open Cert.KernelIdeal Cert.KernelIdeal.Gen
open Idealize.ShloMosaic Idealize.ShloMosaic.TcCoe Idealize.SL.Sem Idealize.ShloMosaic.StableHlo Idealize.ShloMosaic.ValueIdx

section
variable {α : Type}

/-- A vector cut from `o` reads, at `j`, the source at `k` with `k = o + j`. -/
theorem slice1_apply {n l : Nat} (o : Nat) (X : (⟨1, ![n]⟩ : Shape).Idx → α)
    (h : (⟨1, ![n]⟩ : Shape).Slices ![o] ⟨1, ![l]⟩) (j : Fin l) (k : Fin n) (hk : k.val = o + j.val) :
    extractStridedSlice ⟨1, ![l]⟩ ![o] X h (ix1 j) = X (ix1 k) :=
  extractStridedSlice_apply _ _ _ _ _ (fun ax => by
    match ax with
    | ⟨0, _⟩ => exact hk)

end

section
variable (m : (ℓ : Loc nD τ sig) → Buf (Elt Ideal) ℓ) (c : Dev nD)

/-! ### The two halves of the fused weight -/

/-- The first half of the fused weight, as one term of the argument. -/
theorem v4_eq : (Gen.V1 m c main_v4 : S2048x4096.Idx → EReal)
    = extractStridedSlice S2048x4096 ![0, 0] (m ((c : Thread nD τ).loc main_arg1) : S2048x8192.Idx → EReal) slices_S2048x8192_S2048x4096_0_0 := by
  dsimp only [Gen.V1, Gen.hostOps0]
  after_results
  rfl

/-- Its entry `(d, h)` is the fused weight's entry `(d, h)`. -/
theorem v4_at (d : Fin 2048) (h : Fin 4096) :
    (Gen.V1 m c main_v4 : S2048x4096.Idx → EReal) (ix2 d h)
      = (m ((c : Thread nD τ).loc main_arg1) : S2048x8192.Idx → EReal) (ix2 d ⟨h.val, by omega⟩) := by
  rw [v4_eq]
  exact slice2_axis1_apply 0 _ _ d h _ (Nat.zero_add _).symm

/-- The second half of the fused weight, as one term of the argument. -/
theorem v5_eq : (Gen.V1 m c main_v5 : S2048x4096.Idx → EReal)
    = extractStridedSlice S2048x4096 ![0, 4096] (m ((c : Thread nD τ).loc main_arg1) : S2048x8192.Idx → EReal) slices_S2048x8192_S2048x4096_0_4096 := by
  dsimp only [Gen.V1, Gen.hostOps0]
  after_results
  rfl

/-- Its entry `(d, h)` is the fused weight's entry `(d, 4096 + h)`. -/
theorem v5_at (d : Fin 2048) (h : Fin 4096) :
    (Gen.V1 m c main_v5 : S2048x4096.Idx → EReal) (ix2 d h)
      = (m ((c : Thread nD τ).loc main_arg1) : S2048x8192.Idx → EReal) (ix2 d ⟨4096 + h.val, by omega⟩) := by
  rw [v5_eq]
  exact slice2_axis1_apply 4096 _ _ d h _ rfl

/-! ### The two weights that only change format -/

/-- The query–key weight is the argument itself. -/
theorem v6_eq : (Gen.V1 m c main_v6 : S2048x128.Idx → EReal) = (m ((c : Thread nD τ).loc main_arg3) : S2048x128.Idx → EReal) := by
  dsimp only [Gen.V1, Gen.hostOps0]
  after_results
  rfl

theorem v6_at (d : Fin 2048) (e : Fin 128) :
    (Gen.V1 m c main_v6 : S2048x128.Idx → EReal) (ix2 d e) = (m ((c : Thread nD τ).loc main_arg3) : S2048x128.Idx → EReal) (ix2 d e) := by
  rw [v6_eq]

/-- The output weight is the argument itself. -/
theorem v7_eq : (Gen.V1 m c main_v7 : S4096x2048.Idx → EReal) = (m ((c : Thread nD τ).loc main_arg9) : S4096x2048.Idx → EReal) := by
  dsimp only [Gen.V1, Gen.hostOps0]
  after_results
  rfl

theorem v7_at (h : Fin 4096) (d : Fin 2048) :
    (Gen.V1 m c main_v7 : S4096x2048.Idx → EReal) (ix2 h d) = (m ((c : Thread nD τ).loc main_arg9) : S4096x2048.Idx → EReal) (ix2 h d) := by
  rw [v7_eq]

/-! ### The two halves of the fused bias, as one-row matrices -/

/-- The first half of the fused bias, as one term of the argument. -/
theorem v8_eq : (Gen.V1 m c main_v8 : S1x4096.Idx → EReal)
    = shapeCast S1x4096 (extractStridedSlice S4096 ![0] (m ((c : Thread nD τ).loc main_arg2) : S8192.Idx → EReal) slices_S8192_S4096_0)
        shapeCasts_S4096_S1x4096 := by
  dsimp only [Gen.V1, Gen.hostOps0]
  after_results
  rfl

/-- Its entry `(0, h)` is the fused bias's entry `h`. -/
theorem v8_at (u : Fin 1) (h : Fin 4096) :
    (Gen.V1 m c main_v8 : S1x4096.Idx → EReal) (ix2 u h) = (m ((c : Thread nD τ).loc main_arg2) : S8192.Idx → EReal) (ix1 ⟨h.val, by omega⟩) := by
  rw [v8_eq, shapeCast_a_1a_apply]
  exact slice1_apply 0 _ _ h _ (Nat.zero_add _).symm

/-- The second half of the fused bias, as one term of the argument. -/
theorem v9_eq : (Gen.V1 m c main_v9 : S1x4096.Idx → EReal)
    = shapeCast S1x4096 (extractStridedSlice S4096 ![4096] (m ((c : Thread nD τ).loc main_arg2) : S8192.Idx → EReal) slices_S8192_S4096_4096)
        shapeCasts_S4096_S1x4096 := by
  dsimp only [Gen.V1, Gen.hostOps0]
  after_results
  rfl

/-- Its entry `(0, h)` is the fused bias's entry `4096 + h`. -/
theorem v9_at (u : Fin 1) (h : Fin 4096) :
    (Gen.V1 m c main_v9 : S1x4096.Idx → EReal) (ix2 u h) = (m ((c : Thread nD τ).loc main_arg2) : S8192.Idx → EReal) (ix1 ⟨4096 + h.val, by omega⟩) := by
  rw [v9_eq, shapeCast_a_1a_apply]
  exact slice1_apply 4096 _ _ h _ rfl

/-! ### The six vectors viewed as one-row matrices -/

/-- The shared projection's bias as a one-row matrix: its entry `(0, e)` is the vector's entry `e`. -/
theorem v10_eq : (Gen.V1 m c main_v10 : S1x128.Idx → EReal)
    = shapeCast S1x128 (m ((c : Thread nD τ).loc main_arg4) : S128.Idx → EReal) shapeCasts_S128_S1x128 := by
  dsimp only [Gen.V1, Gen.hostOps0]
  after_results
  rfl

theorem v10_at (u : Fin 1) (e : Fin 128) :
    (Gen.V1 m c main_v10 : S1x128.Idx → EReal) (ix2 u e) = (m ((c : Thread nD τ).loc main_arg4) : S128.Idx → EReal) (ix1 e) := by
  rw [v10_eq, shapeCast_a_1a_apply]

/-- The queries' scale as a one-row matrix. -/
theorem v11_eq : (Gen.V1 m c main_v11 : S1x128.Idx → EReal)
    = shapeCast S1x128 (m ((c : Thread nD τ).loc main_arg5) : S128.Idx → EReal) shapeCasts_S128_S1x128 := by
  dsimp only [Gen.V1, Gen.hostOps0]
  after_results
  rfl

theorem v11_at (u : Fin 1) (e : Fin 128) :
    (Gen.V1 m c main_v11 : S1x128.Idx → EReal) (ix2 u e) = (m ((c : Thread nD τ).loc main_arg5) : S128.Idx → EReal) (ix1 e) := by
  rw [v11_eq, shapeCast_a_1a_apply]

/-- The queries' shift as a one-row matrix. -/
theorem v12_eq : (Gen.V1 m c main_v12 : S1x128.Idx → EReal)
    = shapeCast S1x128 (m ((c : Thread nD τ).loc main_arg6) : S128.Idx → EReal) shapeCasts_S128_S1x128 := by
  dsimp only [Gen.V1, Gen.hostOps0]
  after_results
  rfl

theorem v12_at (u : Fin 1) (e : Fin 128) :
    (Gen.V1 m c main_v12 : S1x128.Idx → EReal) (ix2 u e) = (m ((c : Thread nD τ).loc main_arg6) : S128.Idx → EReal) (ix1 e) := by
  rw [v12_eq, shapeCast_a_1a_apply]

/-- The keys' scale as a one-row matrix. -/
theorem v13_eq : (Gen.V1 m c main_v13 : S1x128.Idx → EReal)
    = shapeCast S1x128 (m ((c : Thread nD τ).loc main_arg7) : S128.Idx → EReal) shapeCasts_S128_S1x128 := by
  dsimp only [Gen.V1, Gen.hostOps0]
  after_results
  rfl

theorem v13_at (u : Fin 1) (e : Fin 128) :
    (Gen.V1 m c main_v13 : S1x128.Idx → EReal) (ix2 u e) = (m ((c : Thread nD τ).loc main_arg7) : S128.Idx → EReal) (ix1 e) := by
  rw [v13_eq, shapeCast_a_1a_apply]

/-- The keys' shift as a one-row matrix. -/
theorem v14_eq : (Gen.V1 m c main_v14 : S1x128.Idx → EReal)
    = shapeCast S1x128 (m ((c : Thread nD τ).loc main_arg8) : S128.Idx → EReal) shapeCasts_S128_S1x128 := by
  dsimp only [Gen.V1, Gen.hostOps0]
  after_results
  rfl

theorem v14_at (u : Fin 1) (e : Fin 128) :
    (Gen.V1 m c main_v14 : S1x128.Idx → EReal) (ix2 u e) = (m ((c : Thread nD τ).loc main_arg8) : S128.Idx → EReal) (ix1 e) := by
  rw [v14_eq, shapeCast_a_1a_apply]

/-- The output bias as a one-row matrix. -/
theorem v15_eq : (Gen.V1 m c main_v15 : S1x2048.Idx → EReal)
    = shapeCast S1x2048 (m ((c : Thread nD τ).loc main_arg10) : S2048.Idx → EReal) shapeCasts_S2048_S1x2048 := by
  dsimp only [Gen.V1, Gen.hostOps0]
  after_results
  rfl

theorem v15_at (u : Fin 1) (e : Fin 2048) :
    (Gen.V1 m c main_v15 : S1x2048.Idx → EReal) (ix2 u e) = (m ((c : Thread nD τ).loc main_arg10) : S2048.Idx → EReal) (ix1 e) := by
  rw [v15_eq, shapeCast_a_1a_apply]

/-! ### The input -/

/-- No host operation writes the input array. -/
theorem arg0_eq : Gen.V1 m c main_arg0 = m ((c : Thread nD τ).loc main_arg0) :=
  (Gen.V1_of m c main_arg0 (by decide)).trans rfl

end

end Cert.Gau.Host

end
-- ==== Proof.Pay0.lean ====
/-
  The value–query–key kernel's arithmetic at an entry.

  One tile of 256 positions of the input, viewed as a 256×2048 matrix `x`, goes through two projections.
  The values are `silu (x · W_v + b_v)` with the 2048×4096 value half of the hidden weights. The shared
  query–key projection is `s = silu (x · W_qk + b_qk)` of width 128; the queries are `s · γ_q + β_q` and the
  keys `s · γ_k + β_k`, each scale and shift a row repeated down the 256 positions. Every stored tile has a
  leading axis of extent one, and a change of float format does nothing to an extended real.
-/
import proofs.«179628_j85083302134314_2_alg».proof.Proof.Gen.KernelIdeal.Skeleton
import proofs.«179628_j85083302134314_2_alg».proof.Proof.PayLayout

noncomputable section

namespace Cert.Gau.Pay

open Idealize.ShloMosaic Idealize.ShloMosaic.ValueIdx Cert.KernelIdeal Cert.KernelIdeal.Gen
open scoped BigOperators

/-- The value projection contracts the tile's features with the weight's rows: an ordinary 256×2048 by 2048×4096 product. -/
theorem dot_val_eq : dot_S256x2048_S2048x4096_S256x4096_1_0_0_1_n_n = DotDims.plain 256 2048 4096 := rfl

/-- So does the query–key projection: an ordinary 256×2048 by 2048×128 product. -/
theorem dot_qk_eq : dot_S256x2048_S2048x128_S256x128_1_0_0_1_n_n = DotDims.plain 256 2048 128 := rfl

/-- A row of 128 numbers repeated down 256 rows reads, at (r, e), the row's entry e. -/
theorem row_apply (b : Vec Ideal S1x128 .f32) (hb : S1x128.ShapeCasts S1x128) (hbb : S1x128.Broadcasts S256x128)
    (r : Fin 256) (e : Fin 128) :
    broadcastTo S256x128 (shapeCast S1x128 b hb) hbb (ix2 r e) = b (ix2 (0 : Fin 1) e) := by
  rw [shapeCast_self b hb]
  exact broadcastTo_1b_ab_apply b hbb r e

/-- The tile as a matrix: entry (r, d) is the tile's entry (0, r, d). -/
theorem k0_pay3_apply (v0 : Vec Ideal S1x256x2048 .f32) (r : Fin 256) (d : Fin 2048) :
    k0_pay3 v0 (ix2 r d) = v0 (ix3 (0 : Fin 1) r d) := by
  unfold k0_pay3
  exact (truncf_apply (ψ := .bf16) _ bitsLt_bf16_f32 (ix2 r d)).trans (shapeCast_1ab_ab_apply v0 _ r d)

/-- Entry (r, h) of the value tile: `silu (Σ_d x[0,r,d] · W[d,h] + b[0,h])`. -/
theorem k0_pay4_apply (v0 : Vec Ideal S1x256x2048 .f32) (v3 : Vec Ideal S2048x4096 .bf16) (v6 : Vec Ideal S1x4096 .f32)
    (r : Fin 256) (h : Fin 4096) :
    k0_pay4 v0 v3 v6 (ix3 (0 : Fin 1) r h)
      = silu ((∑ d : Fin 2048, v0 (ix3 (0 : Fin 1) r d) * v3 (ix2 d h)) + v6 (ix2 (0 : Fin 1) h)) := by
  unfold k0_pay4
  refine (shapeCast_ab_1ab_apply _ _ 0 r h).trans ?_
  refine (truncf_apply (ψ := .bf16) _ bitsLt_bf16_f32 (ix2 r h)).trans ?_
  refine (silu_apply _ _).trans (congrArg silu ?_)
  refine (matmul_bias_apply _ dot_val_eq (k0_pay3 v0) v3 v6 _ _ _ r h).trans ?_
  refine congrArg (· + v6 (ix2 (0 : Fin 1) h)) (Finset.sum_congr rfl fun d _ => ?_)
  exact congrArg (· * v3 (ix2 d h)) (k0_pay3_apply v0 r d)

/-- Entry (r, e) of the shared query–key projection: `silu (Σ_d x[0,r,d] · W[d,e] + b[0,e])`. -/
theorem k0_pay5_apply (v0 : Vec Ideal S1x256x2048 .f32) (v16 : Vec Ideal S2048x128 .bf16) (v19 : Vec Ideal S1x128 .f32)
    (r : Fin 256) (e : Fin 128) :
    k0_pay5 v0 v16 v19 (ix2 r e)
      = silu ((∑ d : Fin 2048, v0 (ix3 (0 : Fin 1) r d) * v16 (ix2 d e)) + v19 (ix2 (0 : Fin 1) e)) := by
  unfold k0_pay5
  refine (silu_apply _ _).trans (congrArg silu ?_)
  refine (matmul_bias_apply _ dot_qk_eq (k0_pay3 v0) v16 v19 _ _ _ r e).trans ?_
  refine congrArg (· + v19 (ix2 (0 : Fin 1) e)) (Finset.sum_congr rfl fun d _ => ?_)
  exact congrArg (· * v16 (ix2 d e)) (k0_pay3_apply v0 r d)

/-- Entry (r, e) of the queries: the shared projection scaled and shifted by the rows `γ`, `β`. -/
theorem k0_pay6_apply (v0 : Vec Ideal S1x256x2048 .f32) (v16 : Vec Ideal S2048x128 .bf16) (v19 v25 v29 : Vec Ideal S1x128 .f32)
    (r : Fin 256) (e : Fin 128) :
    k0_pay6 v0 v16 v19 v25 v29 (ix2 r e)
      = k0_pay5 v0 v16 v19 (ix2 r e) * v25 (ix2 (0 : Fin 1) e) + v29 (ix2 (0 : Fin 1) e) := by
  unfold k0_pay6
  refine (addf_apply _ _ _).trans ?_
  refine congr (congrArg HAdd.hAdd ?_) (row_apply v29 _ _ r e)
  refine (mulf_apply _ _ _).trans ?_
  exact congrArg (k0_pay5 v0 v16 v19 (ix2 r e) * ·) (row_apply v25 _ _ r e)

/-- The keys' scale row, cast to its own shape, is itself. -/
theorem k0_pay7_apply (v33 : Vec Ideal S1x128 .f32) (e : Fin 128) :
    k0_pay7 v33 (ix2 (0 : Fin 1) e) = v33 (ix2 (0 : Fin 1) e) := by
  unfold k0_pay7
  exact congrFun (shapeCast_self v33 _) _

/-- Entry (0, r, e) of the stored query tile is entry (r, e) of the queries. -/
theorem k0_pay1_apply (v32 : FVec Ideal S256x128 .f32) (r : Fin 256) (e : Fin 128) :
    k0_pay1 v32 (ix3 (0 : Fin 1) r e) = v32 (ix2 r e) := by
  unfold k0_pay1
  exact (shapeCast_ab_1ab_apply _ _ 0 r e).trans (truncf_apply (ψ := .bf16) v32 bitsLt_bf16_f32 (ix2 r e))

/-- Entry (0, r, e) of the stored key tile: the shared projection scaled and shifted by the keys' rows. -/
theorem k0_pay2_apply (v24 : FVec Ideal S256x128 .f32) (v34 : FVec Ideal S1x128 .f32) (v37 : Vec Ideal S1x128 .f32)
    (r : Fin 256) (e : Fin 128) :
    k0_pay2 v24 v34 v37 (ix3 (0 : Fin 1) r e) = v24 (ix2 r e) * v34 (ix2 (0 : Fin 1) e) + v37 (ix2 (0 : Fin 1) e) := by
  unfold k0_pay2
  refine (shapeCast_ab_1ab_apply _ _ 0 r e).trans ?_
  refine (truncf_apply (ψ := .bf16) _ bitsLt_bf16_f32 (ix2 r e)).trans ?_
  refine (addf_apply _ _ _).trans ?_
  refine congr (congrArg HAdd.hAdd ?_) (row_apply v37 _ _ r e)
  refine (mulf_apply _ _ _).trans ?_
  exact congrArg (v24 (ix2 r e) * ·) (broadcastTo_1b_ab_apply v34 _ r e)

end Cert.Gau.Pay

end
-- ==== Proof.Val0.lean ====
/-
  The value, query and key arrays after the first region, entry by entry.

  The region visits 32 points, one per batch b and tile i of 256 positions. At a point it reads rows
  256·i … 256·i + 255 of batch b of the input, and, whole, the value weights and bias, the query–key weights and
  bias, and the four rows that scale and shift the shared projection into queries and keys. It writes the
  values, the queries and the keys of those rows to the same rows of batch b of the three output arrays. Row n
  of batch b is written at the point (b, n / 256), as row n mod 256 of its tile, and the 32 tiles fill each
  output array. So at (b, n, ·) the arrays end holding the values `silu (Σ_d x[b,n,d] · W_v[d,h] + b_v[0,h])`
  and, with `s = silu (Σ_d x[b,n,d] · W_qk[d,e] + b_qk[0,e])`, the queries `s · γ_q[0,e] + β_q[0,e]` and the keys
  `s · γ_k[0,e] + β_k[0,e]`.
-/
import proofs.«179628_j85083302134314_2_alg».proof.Proof.KI.Reg0
import proofs.«179628_j85083302134314_2_alg».proof.Proof.Pay0

noncomputable section

namespace Cert.Gau.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The three arrays as functions of the arrays the region finds -/

/-- A projection of the input with the sigmoid-weighted identity applied: `silu (Σ_d X[b,n,d] · W[d,h] + B[0,h])`. -/
abbrev proj0 {N : Nat} (X : S4x2048x2048.Idx → EReal) (W : (⟨2, ![2048, N]⟩ : Shape).Idx → EReal)
    (B : (⟨2, ![1, N]⟩ : Shape).Idx → EReal) (b : Fin 4) (n : Fin 2048) (h : Fin N) : EReal :=
  silu ((∑ d : Fin 2048, X (ix3 b n d) * W (ix2 d h)) + B (ix2 (0 : Fin 1) h))

/-- The shared projection scaled by the row `g` and shifted by the row `s`: a query, or a key. -/
abbrev scaled0 (X : S4x2048x2048.Idx → EReal) (W : S2048x128.Idx → EReal) (B g s : S1x128.Idx → EReal)
    (b : Fin 4) (n : Fin 2048) (e : Fin 128) : EReal :=
  proj0 X W B b n e * g (ix2 (0 : Fin 1) e) + s (ix2 (0 : Fin 1) e)

/-- The values as one array. -/
def Gval (X : S4x2048x2048.Idx → EReal) (W : S2048x4096.Idx → EReal) (B : S1x4096.Idx → EReal) :
    S4x2048x4096.Idx → EReal := fun i => proj0 X W B (i 0) (i 1) (i 2)

/-- The queries, or the keys, as one array. -/
def Gqk (X : S4x2048x2048.Idx → EReal) (W : S2048x128.Idx → EReal) (B g s : S1x128.Idx → EReal) :
    S4x2048x128.Idx → EReal := fun i => scaled0 X W B g s (i 0) (i 1) (i 2)

/-! ## Where the blocks sit, decided over the 32 points -/

/-- The input tile and the three output tiles move together, along batch and row tile, and stay in range. -/
theorem idx_tiles0 : ∀ t : Fin cfg0.N,
    win0_0.index t (0 : Fin 3) = win0_9.index t (0 : Fin 3) ∧ win0_0.index t (1 : Fin 3) = win0_9.index t (1 : Fin 3)
    ∧ win0_0.index t (2 : Fin 3) = 0 ∧ win0_9.index t (2 : Fin 3) = 0
    ∧ win0_10.index t (0 : Fin 3) = win0_9.index t (0 : Fin 3) ∧ win0_10.index t (1 : Fin 3) = win0_9.index t (1 : Fin 3)
    ∧ win0_10.index t (2 : Fin 3) = 0
    ∧ win0_11.index t (0 : Fin 3) = win0_9.index t (0 : Fin 3) ∧ win0_11.index t (1 : Fin 3) = win0_9.index t (1 : Fin 3)
    ∧ win0_11.index t (2 : Fin 3) = 0
    ∧ win0_9.index t (0 : Fin 3) ≤ 3 ∧ win0_9.index t (1 : Fin 3) ≤ 7 :=
  (by decide +kernel : ∀ t : Fin grid0.N, _)

/-- The weights, biases, scales and shifts are always read whole. -/
theorem idx_whole0 : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every pair (batch, row tile) is some point's block of the value array. -/
theorem idx_onto0 : ∀ (q0 : Fin 4) (q1 : Fin 8), ∃ t : Fin cfg0.N, win0_9.index t = ![q0.val, q1.val, 0] :=
  (by decide +kernel : ∀ (q0 : Fin 4) (q1 : Fin 8), ∃ t : Fin grid0.N, win0_9.index t = ![q0.val, q1.val, 0])

/-! ## The input blocks, read where they sit in their arrays -/

/-- Row r of the input tile at the point `t` is row `256 · (tile index) + r` of the batch the point works on. -/
theorem xblk0 (c : Dev nD) (t : Fin cfg0.N) (r : Fin 256) (d : Fin 2048) (b : Fin 4) (n : Fin 2048)
    (hb : b.val = win0_0.index t (0 : Fin 3)) (hn : n.val = win0_0.index t (1 : Fin 3) * 256 + r.val) :
    iblk0 V c 0 t (ix3 (0 : Fin 1) r d) = (V c main_arg0 : S4x2048x2048.Idx → EReal) (ix3 b n d) := by
  obtain ⟨-, -, e2, -⟩ := idx_tiles0 t
  show V c main_arg0 (((cfg0.win 0).blk t).view.emb (ix3 (0 : Fin 1) r d)) = V c main_arg0 _
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 256 + 1 * r.val = n.val; omega
  | ⟨2, _⟩ => show win0_0.index t (2 : Fin 3) * 2048 + 1 * d.val = d.val; omega

/-- The value weights are read whole. -/
theorem wblk0_1 (c : Dev nD) (t : Fin cfg0.N) (d : Fin 2048) (h : Fin 4096) :
    iblk0 V c 1 t (ix2 d h) = (V c main_v4 : S2048x4096.Idx → EReal) (ix2 d h) := by
  obtain ⟨e0, e1, -⟩ := idx_whole0 t
  show V c main_v4 (((cfg0.win 1).blk t).view.emb (ix2 d h)) = V c main_v4 _
  refine congrArg (V c main_v4) (funext fun a => Fin.ext ?_)
  match a with
  | ⟨0, _⟩ => show win0_1.index t (0 : Fin 2) * 2048 + 1 * d.val = d.val; omega
  | ⟨1, _⟩ => show win0_1.index t (1 : Fin 2) * 4096 + 1 * h.val = h.val; omega

/-- The value bias row is read whole. -/
theorem wblk0_2 (c : Dev nD) (t : Fin cfg0.N) (h : Fin 4096) :
    iblk0 V c 2 t (ix2 (0 : Fin 1) h) = (V c main_v8 : S1x4096.Idx → EReal) (ix2 (0 : Fin 1) h) := by
  obtain ⟨-, -, e0, e1, -⟩ := idx_whole0 t
  show V c main_v8 (((cfg0.win 2).blk t).view.emb (ix2 (0 : Fin 1) h)) = V c main_v8 _
  refine congrArg (V c main_v8) (funext fun a => Fin.ext ?_)
  match a with
  | ⟨0, _⟩ => show win0_2.index t (0 : Fin 2) * 1 + 1 * 0 = 0; omega
  | ⟨1, _⟩ => show win0_2.index t (1 : Fin 2) * 4096 + 1 * h.val = h.val; omega

/-- The query–key weights are read whole. -/
theorem wblk0_3 (c : Dev nD) (t : Fin cfg0.N) (d : Fin 2048) (e : Fin 128) :
    iblk0 V c 3 t (ix2 d e) = (V c main_v6 : S2048x128.Idx → EReal) (ix2 d e) := by
  obtain ⟨-, -, -, -, e0, e1, -⟩ := idx_whole0 t
  show V c main_v6 (((cfg0.win 3).blk t).view.emb (ix2 d e)) = V c main_v6 _
  refine congrArg (V c main_v6) (funext fun a => Fin.ext ?_)
  match a with
  | ⟨0, _⟩ => show win0_3.index t (0 : Fin 2) * 2048 + 1 * d.val = d.val; omega
  | ⟨1, _⟩ => show win0_3.index t (1 : Fin 2) * 128 + 1 * e.val = e.val; omega

/-- The query–key bias row is read whole. -/
theorem wblk0_4 (c : Dev nD) (t : Fin cfg0.N) (e : Fin 128) :
    iblk0 V c 4 t (ix2 (0 : Fin 1) e) = (V c main_v10 : S1x128.Idx → EReal) (ix2 (0 : Fin 1) e) := by
  obtain ⟨-, -, -, -, -, -, e0, e1, -⟩ := idx_whole0 t
  show V c main_v10 (((cfg0.win 4).blk t).view.emb (ix2 (0 : Fin 1) e)) = V c main_v10 _
  refine congrArg (V c main_v10) (funext fun a => Fin.ext ?_)
  match a with
  | ⟨0, _⟩ => show win0_4.index t (0 : Fin 2) * 1 + 1 * 0 = 0; omega
  | ⟨1, _⟩ => show win0_4.index t (1 : Fin 2) * 128 + 1 * e.val = e.val; omega

/-- The queries' scale row is read whole. -/
theorem wblk0_5 (c : Dev nD) (t : Fin cfg0.N) (e : Fin 128) :
    iblk0 V c 5 t (ix2 (0 : Fin 1) e) = (V c main_v11 : S1x128.Idx → EReal) (ix2 (0 : Fin 1) e) := by
  obtain ⟨-, -, -, -, -, -, -, -, e0, e1, -⟩ := idx_whole0 t
  show V c main_v11 (((cfg0.win 5).blk t).view.emb (ix2 (0 : Fin 1) e)) = V c main_v11 _
  refine congrArg (V c main_v11) (funext fun a => Fin.ext ?_)
  match a with
  | ⟨0, _⟩ => show win0_5.index t (0 : Fin 2) * 1 + 1 * 0 = 0; omega
  | ⟨1, _⟩ => show win0_5.index t (1 : Fin 2) * 128 + 1 * e.val = e.val; omega

/-- The queries' shift row is read whole. -/
theorem wblk0_6 (c : Dev nD) (t : Fin cfg0.N) (e : Fin 128) :
    iblk0 V c 6 t (ix2 (0 : Fin 1) e) = (V c main_v12 : S1x128.Idx → EReal) (ix2 (0 : Fin 1) e) := by
  obtain ⟨-, -, -, -, -, -, -, -, -, -, e0, e1, -⟩ := idx_whole0 t
  show V c main_v12 (((cfg0.win 6).blk t).view.emb (ix2 (0 : Fin 1) e)) = V c main_v12 _
  refine congrArg (V c main_v12) (funext fun a => Fin.ext ?_)
  match a with
  | ⟨0, _⟩ => show win0_6.index t (0 : Fin 2) * 1 + 1 * 0 = 0; omega
  | ⟨1, _⟩ => show win0_6.index t (1 : Fin 2) * 128 + 1 * e.val = e.val; omega

/-- The keys' scale row is read whole. -/
theorem wblk0_7 (c : Dev nD) (t : Fin cfg0.N) (e : Fin 128) :
    iblk0 V c 7 t (ix2 (0 : Fin 1) e) = (V c main_v13 : S1x128.Idx → EReal) (ix2 (0 : Fin 1) e) := by
  obtain ⟨-, -, -, -, -, -, -, -, -, -, -, -, e0, e1, -⟩ := idx_whole0 t
  show V c main_v13 (((cfg0.win 7).blk t).view.emb (ix2 (0 : Fin 1) e)) = V c main_v13 _
  refine congrArg (V c main_v13) (funext fun a => Fin.ext ?_)
  match a with
  | ⟨0, _⟩ => show win0_7.index t (0 : Fin 2) * 1 + 1 * 0 = 0; omega
  | ⟨1, _⟩ => show win0_7.index t (1 : Fin 2) * 128 + 1 * e.val = e.val; omega

/-- The keys' shift row is read whole. -/
theorem wblk0_8 (c : Dev nD) (t : Fin cfg0.N) (e : Fin 128) :
    iblk0 V c 8 t (ix2 (0 : Fin 1) e) = (V c main_v14 : S1x128.Idx → EReal) (ix2 (0 : Fin 1) e) := by
  obtain ⟨-, -, -, -, -, -, -, -, -, -, -, -, -, -, e0, e1⟩ := idx_whole0 t
  show V c main_v14 (((cfg0.win 8).blk t).view.emb (ix2 (0 : Fin 1) e)) = V c main_v14 _
  refine congrArg (V c main_v14) (funext fun a => Fin.ext ?_)
  match a with
  | ⟨0, _⟩ => show win0_8.index t (0 : Fin 2) * 1 + 1 * 0 = 0; omega
  | ⟨1, _⟩ => show win0_8.index t (1 : Fin 2) * 128 + 1 * e.val = e.val; omega

/-- The shared projection of a tile's row, read in the arrays: the same sum over the features of the array's row. -/
theorem qkblk0 (c : Dev nD) (t : Fin cfg0.N) (r : Fin 256) (e : Fin 128) (b : Fin 4) (n : Fin 2048)
    (hb : b.val = win0_0.index t (0 : Fin 3)) (hn : n.val = win0_0.index t (1 : Fin 3) * 256 + r.val) :
    k0_pay5 (iblk0 V c 0 t) (iblk0 V c 3 t) (iblk0 V c 4 t) (ix2 r e)
      = proj0 (V c main_arg0) (V c main_v6) (V c main_v10) b n e := by
  refine (Cert.Gau.Pay.k0_pay5_apply (iblk0 V c 0 t) (iblk0 V c 3 t) (iblk0 V c 4 t) r e).trans ?_
  exact congrArg silu (congr (congrArg HAdd.hAdd (Finset.sum_congr rfl fun d _ =>
    congr (congrArg HMul.hMul (xblk0 V c t r d b n hb hn)) (wblk0_3 V c t d e))) (wblk0_4 V c t e))

/-! ## What each point writes back -/

/-- The point `t` writes back its block of the value array. -/
theorem flushed_eq9 (c : Dev nD) (t : Fin cfg0.N) :
    (dat0 (F := Ideal) V c).flushed 9 t
      = ((cfg0.win 9).blk t).view.read (Elt Ideal) (Gval (V c main_arg0) (V c main_v4) (V c main_v8)) := by
  show (cfg0.win 9).cut (grid0.coords t) ((dat0 V c).after 9 t) = _
  rw [after0_9, out0_9_eq]
  funext y
  have hy0 : (y 0).val < 1 := (y 0).isLt
  have hy1 : (y 1).val < 256 := (y 1).isLt
  have hy2 : (y 2).val < 4096 := (y 2).isLt
  obtain ⟨e0, e1, -, e3, -, -, -, -, -, -, -, -⟩ := idx_tiles0 t
  have hy : (cfg0.win 9).xinj (grid0.coords t) y = ix3 (0 : Fin 1) (y 1) (y 2) := by
    funext a; apply Fin.ext
    match a with
    | ⟨0, _⟩ => show (y 0).val = 0; omega
    | ⟨1, _⟩ => rfl
    | ⟨2, _⟩ => rfl
  show k0_pay4 (iblk0 V c 0 t) (iblk0 V c 1 t) (iblk0 V c 2 t) ((cfg0.win 9).xinj (grid0.coords t) y)
      = Gval (V c main_arg0) (V c main_v4) (V c main_v8) (((cfg0.win 9).blk t).view.emb y)
  refine (congrArg (k0_pay4 (iblk0 V c 0 t) (iblk0 V c 1 t) (iblk0 V c 2 t)) hy).trans ?_
  refine (Cert.Gau.Pay.k0_pay4_apply (iblk0 V c 0 t) (iblk0 V c 1 t) (iblk0 V c 2 t) (y 1) (y 2)).trans ?_
  show _ = proj0 (V c main_arg0) (V c main_v4) (V c main_v8) ((((cfg0.win 9).blk t).view.emb y) 0)
      ((((cfg0.win 9).blk t).view.emb y) 1) ((((cfg0.win 9).blk t).view.emb y) 2)
  have h2 : (((cfg0.win 9).blk t).view.emb y) 2 = y 2 :=
    Fin.ext (by show win0_9.index t (2 : Fin 3) * 4096 + 1 * (y 2).val = (y 2).val; omega)
  rw [h2]
  refine congrArg silu (congr (congrArg HAdd.hAdd (Finset.sum_congr rfl fun d _ =>
    congr (congrArg HMul.hMul (xblk0 V c t (y 1) d _ _ ?_ ?_)) (wblk0_1 V c t d (y 2)))) (wblk0_2 V c t (y 2)))
  · show win0_9.index t (0 : Fin 3) * 1 + 1 * (y 0).val = win0_0.index t (0 : Fin 3); omega
  · show win0_9.index t (1 : Fin 3) * 256 + 1 * (y 1).val = win0_0.index t (1 : Fin 3) * 256 + (y 1).val; omega

/-- The point `t` writes back its block of the query array. -/
theorem flushed_eq10 (c : Dev nD) (t : Fin cfg0.N) :
    (dat0 (F := Ideal) V c).flushed 10 t
      = ((cfg0.win 10).blk t).view.read (Elt Ideal)
          (Gqk (V c main_arg0) (V c main_v6) (V c main_v10) (V c main_v11) (V c main_v12)) := by
  show (cfg0.win 10).cut (grid0.coords t) ((dat0 V c).after 10 t) = _
  rw [after0_10, out0_10_eq]
  funext y
  have hy0 : (y 0).val < 1 := (y 0).isLt
  have hy1 : (y 1).val < 256 := (y 1).isLt
  have hy2 : (y 2).val < 128 := (y 2).isLt
  obtain ⟨e0, e1, -, -, e4, e5, e6, -, -, -, -, -⟩ := idx_tiles0 t
  have hy : (cfg0.win 10).xinj (grid0.coords t) y = ix3 (0 : Fin 1) (y 1) (y 2) := by
    funext a; apply Fin.ext
    match a with
    | ⟨0, _⟩ => show (y 0).val = 0; omega
    | ⟨1, _⟩ => rfl
    | ⟨2, _⟩ => rfl
  show k0_pay1 (k0_pay6 (iblk0 V c 0 t) (iblk0 V c 3 t) (iblk0 V c 4 t) (iblk0 V c 5 t) (iblk0 V c 6 t))
        ((cfg0.win 10).xinj (grid0.coords t) y)
      = Gqk (V c main_arg0) (V c main_v6) (V c main_v10) (V c main_v11) (V c main_v12) (((cfg0.win 10).blk t).view.emb y)
  refine (congrArg (k0_pay1 (k0_pay6 (iblk0 V c 0 t) (iblk0 V c 3 t) (iblk0 V c 4 t) (iblk0 V c 5 t) (iblk0 V c 6 t))) hy).trans ?_
  refine (Cert.Gau.Pay.k0_pay1_apply (k0_pay6 (iblk0 V c 0 t) (iblk0 V c 3 t) (iblk0 V c 4 t) (iblk0 V c 5 t) (iblk0 V c 6 t))
    (y 1) (y 2)).trans ?_
  refine (Cert.Gau.Pay.k0_pay6_apply (iblk0 V c 0 t) (iblk0 V c 3 t) (iblk0 V c 4 t) (iblk0 V c 5 t) (iblk0 V c 6 t)
    (y 1) (y 2)).trans ?_
  show _ = scaled0 (V c main_arg0) (V c main_v6) (V c main_v10) (V c main_v11) (V c main_v12)
      ((((cfg0.win 10).blk t).view.emb y) 0) ((((cfg0.win 10).blk t).view.emb y) 1) ((((cfg0.win 10).blk t).view.emb y) 2)
  have h2 : (((cfg0.win 10).blk t).view.emb y) 2 = y 2 :=
    Fin.ext (by show win0_10.index t (2 : Fin 3) * 128 + 1 * (y 2).val = (y 2).val; omega)
  rw [h2]
  refine congr (congrArg HAdd.hAdd (congr (congrArg HMul.hMul (qkblk0 V c t (y 1) (y 2) _ _ ?_ ?_)) (wblk0_5 V c t (y 2))))
    (wblk0_6 V c t (y 2))
  · show win0_10.index t (0 : Fin 3) * 1 + 1 * (y 0).val = win0_0.index t (0 : Fin 3); omega
  · show win0_10.index t (1 : Fin 3) * 256 + 1 * (y 1).val = win0_0.index t (1 : Fin 3) * 256 + (y 1).val; omega

/-- The point `t` writes back its block of the key array. -/
theorem flushed_eq11 (c : Dev nD) (t : Fin cfg0.N) :
    (dat0 (F := Ideal) V c).flushed 11 t
      = ((cfg0.win 11).blk t).view.read (Elt Ideal)
          (Gqk (V c main_arg0) (V c main_v6) (V c main_v10) (V c main_v13) (V c main_v14)) := by
  show (cfg0.win 11).cut (grid0.coords t) ((dat0 V c).after 11 t) = _
  rw [after0_11, out0_11_eq]
  funext y
  have hy0 : (y 0).val < 1 := (y 0).isLt
  have hy1 : (y 1).val < 256 := (y 1).isLt
  have hy2 : (y 2).val < 128 := (y 2).isLt
  obtain ⟨e0, e1, -, -, -, -, -, e7, e8, e9, -, -⟩ := idx_tiles0 t
  have hy : (cfg0.win 11).xinj (grid0.coords t) y = ix3 (0 : Fin 1) (y 1) (y 2) := by
    funext a; apply Fin.ext
    match a with
    | ⟨0, _⟩ => show (y 0).val = 0; omega
    | ⟨1, _⟩ => rfl
    | ⟨2, _⟩ => rfl
  show k0_pay2 (k0_pay5 (iblk0 V c 0 t) (iblk0 V c 3 t) (iblk0 V c 4 t)) (k0_pay7 (iblk0 V c 7 t)) (iblk0 V c 8 t)
        ((cfg0.win 11).xinj (grid0.coords t) y)
      = Gqk (V c main_arg0) (V c main_v6) (V c main_v10) (V c main_v13) (V c main_v14) (((cfg0.win 11).blk t).view.emb y)
  refine (congrArg (k0_pay2 (k0_pay5 (iblk0 V c 0 t) (iblk0 V c 3 t) (iblk0 V c 4 t)) (k0_pay7 (iblk0 V c 7 t)) (iblk0 V c 8 t)) hy).trans ?_
  refine (Cert.Gau.Pay.k0_pay2_apply (k0_pay5 (iblk0 V c 0 t) (iblk0 V c 3 t) (iblk0 V c 4 t)) (k0_pay7 (iblk0 V c 7 t))
    (iblk0 V c 8 t) (y 1) (y 2)).trans ?_
  show _ = scaled0 (V c main_arg0) (V c main_v6) (V c main_v10) (V c main_v13) (V c main_v14)
      ((((cfg0.win 11).blk t).view.emb y) 0) ((((cfg0.win 11).blk t).view.emb y) 1) ((((cfg0.win 11).blk t).view.emb y) 2)
  have h2 : (((cfg0.win 11).blk t).view.emb y) 2 = y 2 :=
    Fin.ext (by show win0_11.index t (2 : Fin 3) * 128 + 1 * (y 2).val = (y 2).val; omega)
  rw [h2]
  refine congr (congrArg HAdd.hAdd (congr (congrArg HMul.hMul (qkblk0 V c t (y 1) (y 2) _ _ ?_ ?_))
    ((Cert.Gau.Pay.k0_pay7_apply (iblk0 V c 7 t) (y 2)).trans (wblk0_7 V c t (y 2))))) (wblk0_8 V c t (y 2))
  · show win0_11.index t (0 : Fin 3) * 1 + 1 * (y 0).val = win0_0.index t (0 : Fin 3); omega
  · show win0_11.index t (1 : Fin 3) * 256 + 1 * (y 1).val = win0_0.index t (1 : Fin 3) * 256 + (y 1).val; omega

/-! ## The blocks fill the arrays -/

/-- An entry of the value array lies in the point `t`'s block when each coordinate is in the block's range. -/
theorem mem_blk9 (t : Fin cfg0.N) (i : S4x2048x4096.Idx) :
    i ∈ ((cfg0.win 9).blk t).view.set ↔ ∀ a : Fin 3, win0_9.index t a * S1x256x4096.size a ≤ (i a).val
      ∧ (i a).val < win0_9.index t a * S1x256x4096.size a + S1x256x4096.size a := by
  show i ∈ ((View.whole main_v16_0).slice (win0_9.rect t)).set ↔ _
  rw [View.set_slice_whole, Rect.mem_set_unit]
  exact Iff.rfl

/-- The same for the query array. -/
theorem mem_blk10 (t : Fin cfg0.N) (i : S4x2048x128.Idx) :
    i ∈ ((cfg0.win 10).blk t).view.set ↔ ∀ a : Fin 3, win0_10.index t a * S1x256x128.size a ≤ (i a).val
      ∧ (i a).val < win0_10.index t a * S1x256x128.size a + S1x256x128.size a := by
  show i ∈ ((View.whole main_v16_1).slice (win0_10.rect t)).set ↔ _
  rw [View.set_slice_whole, Rect.mem_set_unit]
  exact Iff.rfl

/-- The same for the key array. -/
theorem mem_blk11 (t : Fin cfg0.N) (i : S4x2048x128.Idx) :
    i ∈ ((cfg0.win 11).blk t).view.set ↔ ∀ a : Fin 3, win0_11.index t a * S1x256x128.size a ≤ (i a).val
      ∧ (i a).val < win0_11.index t a * S1x256x128.size a + S1x256x128.size a := by
  show i ∈ ((View.whole main_v16_2).slice (win0_11.rect t)).set ↔ _
  rw [View.set_slice_whole, Rect.mem_set_unit]
  exact Iff.rfl

/-- Every entry (b, n, h) of the value array is in the block of the point (b, n / 256). -/
theorem cover9 (i : S4x2048x4096.Idx) :
    ∃ t : Fin cfg0.N, (cfg0.win 9).flush t = true ∧ i ∈ ((cfg0.win 9).blk t).view.set := by
  have hi0 : (i 0).val < 4 := (i 0).isLt
  have hi1 : (i 1).val < 2048 := (i 1).isLt
  have hi2 : (i 2).val < 4096 := (i 2).isLt
  obtain ⟨t, ht⟩ := idx_onto0 ⟨(i 0).val, hi0⟩ ⟨(i 1).val / 256, by omega⟩
  have q0 : win0_9.index t (0 : Fin 3) = (i 0).val := congrFun ht 0
  have q1 : win0_9.index t (1 : Fin 3) = (i 1).val / 256 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 4096 ≤ (i 2).val ∧ (i 2).val < win0_9.index t (2 : Fin 3) * 4096 + 4096; omega

/-- Every entry (b, n, e) of the query array is in the block of the point (b, n / 256). -/
theorem cover10 (i : S4x2048x128.Idx) :
    ∃ t : Fin cfg0.N, (cfg0.win 10).flush t = true ∧ i ∈ ((cfg0.win 10).blk t).view.set := by
  have hi0 : (i 0).val < 4 := (i 0).isLt
  have hi1 : (i 1).val < 2048 := (i 1).isLt
  have hi2 : (i 2).val < 128 := (i 2).isLt
  obtain ⟨t, ht⟩ := idx_onto0 ⟨(i 0).val, hi0⟩ ⟨(i 1).val / 256, by omega⟩
  have q0 : win0_9.index t (0 : Fin 3) = (i 0).val := congrFun ht 0
  have q1 : win0_9.index t (1 : Fin 3) = (i 1).val / 256 := congrFun ht 1
  obtain ⟨-, -, -, -, e4, e5, e6, -, -, -, -, -⟩ := idx_tiles0 t
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 128 ≤ (i 2).val ∧ (i 2).val < win0_10.index t (2 : Fin 3) * 128 + 128; omega

/-- Every entry (b, n, e) of the key array is in the block of the point (b, n / 256). -/
theorem cover11 (i : S4x2048x128.Idx) :
    ∃ t : Fin cfg0.N, (cfg0.win 11).flush t = true ∧ i ∈ ((cfg0.win 11).blk t).view.set := by
  have hi0 : (i 0).val < 4 := (i 0).isLt
  have hi1 : (i 1).val < 2048 := (i 1).isLt
  have hi2 : (i 2).val < 128 := (i 2).isLt
  obtain ⟨t, ht⟩ := idx_onto0 ⟨(i 0).val, hi0⟩ ⟨(i 1).val / 256, by omega⟩
  have q0 : win0_9.index t (0 : Fin 3) = (i 0).val := congrFun ht 0
  have q1 : win0_9.index t (1 : Fin 3) = (i 1).val / 256 := congrFun ht 1
  obtain ⟨-, -, -, -, -, -, -, e7, e8, e9, -, -⟩ := idx_tiles0 t
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 256 ≤ (i 1).val ∧ (i 1).val < win0_11.index t (1 : Fin 3) * 256 + 256; omega
  | ⟨2, _⟩ => show win0_11.index t (2 : Fin 3) * 128 ≤ (i 2).val ∧ (i 2).val < win0_11.index t (2 : Fin 3) * 128 + 128; omega

/-! ## The arrays after the region -/

/-- The value array after the region. -/
theorem final9 (c : Dev nD) :
    (dat0 (F := Ideal) V c).arrAt 9 cfg0.N = Gval (V c main_arg0) (V c main_v4) (V c main_v8) :=
  (dat0 V c).arrAt_eq_of_cover 9 _ (fun t _ => flushed_eq9 V c t) cover9

/-- The query array after the region. -/
theorem final10 (c : Dev nD) :
    (dat0 (F := Ideal) V c).arrAt 10 cfg0.N
      = Gqk (V c main_arg0) (V c main_v6) (V c main_v10) (V c main_v11) (V c main_v12) :=
  (dat0 V c).arrAt_eq_of_cover 10 _ (fun t _ => flushed_eq10 V c t) cover10

/-- The key array after the region. -/
theorem final11 (c : Dev nD) :
    (dat0 (F := Ideal) V c).arrAt 11 cfg0.N
      = Gqk (V c main_arg0) (V c main_v6) (V c main_v10) (V c main_v13) (V c main_v14) :=
  (dat0 V c).arrAt_eq_of_cover 11 _ (fun t _ => flushed_eq11 V c t) cover11

/-- The value array at (b, n, h), the arrays the region found named. -/
theorem v_array_of (c : Dev nD) (X : S4x2048x2048.Idx → EReal) (W : S2048x4096.Idx → EReal) (B : S1x4096.Idx → EReal)
    (hX : (V c main_arg0 : S4x2048x2048.Idx → EReal) = X) (hW : (V c main_v4 : S2048x4096.Idx → EReal) = W)
    (hB : (V c main_v8 : S1x4096.Idx → EReal) = B) (b : Fin 4) (n : Fin 2048) (h : Fin 4096) :
    ((dat0 (F := Ideal) V c).arrAt 9 cfg0.N : S4x2048x4096.Idx → EReal) (ix3 b n h)
      = Cert.Gau.silu ((∑ d : Fin 2048, X (ix3 b n d) * W (ix2 d h)) + B (ix2 (0 : Fin 1) h)) := by
  subst hX hW hB
  rw [final9]
  rfl

/-- The query array at (b, n, e), the arrays the region found named. -/
theorem q_array_of (c : Dev nD) (X : S4x2048x2048.Idx → EReal) (W : S2048x128.Idx → EReal) (B g s : S1x128.Idx → EReal)
    (hX : (V c main_arg0 : S4x2048x2048.Idx → EReal) = X) (hW : (V c main_v6 : S2048x128.Idx → EReal) = W)
    (hB : (V c main_v10 : S1x128.Idx → EReal) = B) (hg : (V c main_v11 : S1x128.Idx → EReal) = g)
    (hs : (V c main_v12 : S1x128.Idx → EReal) = s) (b : Fin 4) (n : Fin 2048) (e : Fin 128) :
    ((dat0 (F := Ideal) V c).arrAt 10 cfg0.N : S4x2048x128.Idx → EReal) (ix3 b n e)
      = Cert.Gau.silu ((∑ d : Fin 2048, X (ix3 b n d) * W (ix2 d e)) + B (ix2 (0 : Fin 1) e)) * g (ix2 (0 : Fin 1) e)
          + s (ix2 (0 : Fin 1) e) := by
  subst hX hW hB hg hs
  rw [final10]
  rfl

/-- The key array at (b, n, e), the arrays the region found named. -/
theorem k_array_of (c : Dev nD) (X : S4x2048x2048.Idx → EReal) (W : S2048x128.Idx → EReal) (B g s : S1x128.Idx → EReal)
    (hX : (V c main_arg0 : S4x2048x2048.Idx → EReal) = X) (hW : (V c main_v6 : S2048x128.Idx → EReal) = W)
    (hB : (V c main_v10 : S1x128.Idx → EReal) = B) (hg : (V c main_v13 : S1x128.Idx → EReal) = g)
    (hs : (V c main_v14 : S1x128.Idx → EReal) = s) (b : Fin 4) (n : Fin 2048) (e : Fin 128) :
    ((dat0 (F := Ideal) V c).arrAt 11 cfg0.N : S4x2048x128.Idx → EReal) (ix3 b n e)
      = Cert.Gau.silu ((∑ d : Fin 2048, X (ix3 b n d) * W (ix2 d e)) + B (ix2 (0 : Fin 1) e)) * g (ix2 (0 : Fin 1) e)
          + s (ix2 (0 : Fin 1) e) := by
  subst hX hW hB hg hs
  rw [final11]
  rfl

/-- The value array at (b, n, h), over the arrays the region found. -/
theorem v_array (c : Dev nD) (b : Fin 4) (n : Fin 2048) (h : Fin 4096) :
    ((dat0 (F := Ideal) V c).arrAt 9 cfg0.N : S4x2048x4096.Idx → EReal) (ix3 b n h)
      = proj0 (V c main_arg0) (V c main_v4) (V c main_v8) b n h :=
  v_array_of V c _ _ _ rfl rfl rfl b n h

/-- The query array at (b, n, e), over the arrays the region found. -/
theorem q_array (c : Dev nD) (b : Fin 4) (n : Fin 2048) (e : Fin 128) :
    ((dat0 (F := Ideal) V c).arrAt 10 cfg0.N : S4x2048x128.Idx → EReal) (ix3 b n e)
      = scaled0 (V c main_arg0) (V c main_v6) (V c main_v10) (V c main_v11) (V c main_v12) b n e :=
  q_array_of V c _ _ _ _ _ rfl rfl rfl rfl rfl b n e

/-- The key array at (b, n, e), over the arrays the region found. -/
theorem k_array (c : Dev nD) (b : Fin 4) (n : Fin 2048) (e : Fin 128) :
    ((dat0 (F := Ideal) V c).arrAt 11 cfg0.N : S4x2048x128.Idx → EReal) (ix3 b n e)
      = scaled0 (V c main_arg0) (V c main_v6) (V c main_v10) (V c main_v13) (V c main_v14) b n e :=
  k_array_of V c _ _ _ _ _ rfl rfl rfl rfl rfl b n e

end Cert.Gau.Val

end
-- ==== Proof.Pay1.lean ====
/-
  The gate kernel's arithmetic at an entry.

  One tile of 256 positions of the input, viewed as a 256×2048 matrix, is multiplied by the gate's half of the
  hidden weights (2048×4096), the gate's bias row is added to every row, and the sigmoid-weighted identity is
  applied to every entry. So entry (r, h) of the stored tile is `silu (Σ_d x[r,d] · W[d,h] + b[h])`.
-/
import proofs.«179628_j85083302134314_2_alg».proof.Proof.Gen.KernelIdeal.Skeleton
import proofs.«179628_j85083302134314_2_alg».proof.Proof.PayLayout

noncomputable section

namespace Cert.Gau.Pay

open Idealize.ShloMosaic Idealize.ShloMosaic.ValueIdx Cert.KernelIdeal Cert.KernelIdeal.Gen
open scoped BigOperators

/-- The gate kernel's product contracts the tile's features with the weight's rows: an ordinary 256×2048 by 2048×4096 product. -/
theorem dot_gate_eq : dot_S256x2048_S2048x4096_S256x4096_1_0_0_1_n_n = DotDims.plain 256 2048 4096 := rfl

/-- Entry (r, h) of the gate tile: `silu (Σ_d x[0,r,d] · W[d,h] + b[0,h])`. -/
theorem k1_pay1_apply (v0 : Vec Ideal S1x256x2048 .f32) (v3 : Vec Ideal S2048x4096 .bf16) (v6 : Vec Ideal S1x4096 .f32)
    (r : Fin 256) (h : Fin 4096) :
    k1_pay1 v0 v3 v6 (ix3 (0 : Fin 1) r h)
      = silu ((∑ d : Fin 2048, v0 (ix3 (0 : Fin 1) r d) * v3 (ix2 d h)) + v6 (ix2 (0 : Fin 1) h)) := by
  unfold k1_pay1
  refine (shapeCast_ab_1ab_apply _ _ 0 r h).trans ?_
  refine (silu_apply _ _).trans (congrArg silu ?_)
  refine (matmul_bias_apply _ dot_gate_eq _ v3 v6 _ _ _ r h).trans ?_
  refine congrArg (· + v6 (ix2 (0 : Fin 1) h)) (Finset.sum_congr rfl fun d _ => ?_)
  exact congrArg (· * v3 (ix2 d h))
    ((truncf_apply (ψ := .bf16) _ bitsLt_bf16_f32 (ix2 r d)).trans (shapeCast_1ab_ab_apply v0 _ r d))

end Cert.Gau.Pay

end
-- ==== Proof.Val1.lean ====
/-
  The gate array after the gate region, entry by entry.

  The region visits 32 points, one per batch b and tile i of 256 positions. At a point it reads rows
  256·i … 256·i + 255 of batch b of the input, the whole weight matrix and the whole bias row, and writes the
  gate of those rows to the same rows of batch b of the output. Row n of batch b is therefore written at the
  point (b, n / 256), as row n mod 256 of its tile, and the 32 tiles fill the output array. So the array ends
  holding, at (b, n, h), `silu (Σ_d x[b,n,d] · W[d,h] + bias[0,h])`.
-/
import proofs.«179628_j85083302134314_2_alg».proof.Proof.KI.Reg1
import proofs.«179628_j85083302134314_2_alg».proof.Proof.Pay1

noncomputable section

namespace Cert.Gau.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The gate at batch `b`, position `n`, column `h`, from the input `X`, the weights `W` and the bias row `B`. -/
abbrev gate1 (X : S4x2048x2048.Idx → EReal) (W : S2048x4096.Idx → EReal) (B : S1x4096.Idx → EReal)
    (b : Fin 4) (n : Fin 2048) (h : Fin 4096) : EReal :=
  silu ((∑ d : Fin 2048, X (ix3 b n d) * W (ix2 d h)) + B (ix2 (0 : Fin 1) h))

/-- The gate as one array. -/
def G1 (X : S4x2048x2048.Idx → EReal) (W : S2048x4096.Idx → EReal) (B : S1x4096.Idx → EReal) :
    S4x2048x4096.Idx → EReal := fun i => gate1 X W B (i 0) (i 1) (i 2)

/-- Where the blocks sit, decided over the 32 points: the input tile moves with the output tile, along batch and
    row tile; the weights and the bias are always read whole; the output's block indices stay in range. -/
theorem idx_facts1 : ∀ t : Fin cfg1.N,
    win1_0.index t (0 : Fin 3) = win1_3.index t (0 : Fin 3) ∧ win1_0.index t (1 : Fin 3) = win1_3.index t (1 : Fin 3)
    ∧ win1_0.index t (2 : Fin 3) = 0 ∧ win1_3.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) ≤ 3 ∧ win1_3.index t (1 : Fin 3) ≤ 7 :=
  (by decide +kernel : ∀ t : Fin grid1.N, _)

/-- Every pair (batch, row tile) is some point's output block. -/
theorem idx_onto1 : ∀ (q0 : Fin 4) (q1 : Fin 8), ∃ t : Fin cfg1.N, win1_3.index t = ![q0.val, q1.val, 0] :=
  (by decide +kernel : ∀ (q0 : Fin 4) (q1 : Fin 8), ∃ t : Fin grid1.N, win1_3.index t = ![q0.val, q1.val, 0])

/-- What the point `t` writes back is its block of `G1`: entry (0, r, h) of the tile is the gate at the array's
    entry that the tile's entry lands on, because each input block is read at the matching place. -/
theorem flushed_eq1 (c : Dev nD) (t : Fin cfg1.N) :
    (dat1 (F := Ideal) V c).flushed 3 t
      = ((cfg1.win 3).blk t).view.read (Elt Ideal) (G1 (V c main_arg0) (V c main_v5) (V c main_v9)) := by
  show (cfg1.win 3).cut (grid1.coords t) ((dat1 V c).after 3 t) = _
  rw [after1_3, out1_3_eq]
  funext y
  have hy0 : (y 0).val < 1 := (y 0).isLt
  have hy1 : (y 1).val < 256 := (y 1).isLt
  have hy2 : (y 2).val < 4096 := (y 2).isLt
  obtain ⟨e0, e1, e2, e3, e4, e5, e6, e7, -, -⟩ := idx_facts1 t
  have hy : (cfg1.win 3).xinj (grid1.coords t) y = ix3 (0 : Fin 1) (y 1) (y 2) := by
    funext a; apply Fin.ext
    match a with
    | ⟨0, _⟩ => show (y 0).val = 0; omega
    | ⟨1, _⟩ => rfl
    | ⟨2, _⟩ => rfl
  show k1_pay1 (iblk1 V c 0 t) (iblk1 V c 1 t) (iblk1 V c 2 t) ((cfg1.win 3).xinj (grid1.coords t) y)
      = G1 (V c main_arg0) (V c main_v5) (V c main_v9) (((cfg1.win 3).blk t).view.emb y)
  refine (congrArg (k1_pay1 (iblk1 V c 0 t) (iblk1 V c 1 t) (iblk1 V c 2 t)) hy).trans ?_
  refine (Cert.Gau.Pay.k1_pay1_apply (iblk1 V c 0 t) (iblk1 V c 1 t) (iblk1 V c 2 t) (y 1) (y 2)).trans ?_
  show _ = gate1 (V c main_arg0) (V c main_v5) (V c main_v9) ((((cfg1.win 3).blk t).view.emb y) 0)
      ((((cfg1.win 3).blk t).view.emb y) 1) ((((cfg1.win 3).blk t).view.emb y) 2)
  unfold gate1
  refine congrArg silu (congr (congrArg HAdd.hAdd (Finset.sum_congr rfl fun d _ => congr (congrArg HMul.hMul ?_) ?_)) ?_)
  · show V c main_arg0 (((cfg1.win 0).blk t).view.emb (ix3 (0 : Fin 1) (y 1) d)) = V c main_arg0 _
    refine congrArg (V c main_arg0) (funext fun a => Fin.ext ?_)
    match a with
    | ⟨0, _⟩ => show win1_0.index t (0 : Fin 3) * 1 + 1 * 0 = win1_3.index t (0 : Fin 3) * 1 + 1 * (y 0).val; omega
    | ⟨1, _⟩ => show win1_0.index t (1 : Fin 3) * 256 + 1 * (y 1).val = win1_3.index t (1 : Fin 3) * 256 + 1 * (y 1).val; omega
    | ⟨2, _⟩ => show win1_0.index t (2 : Fin 3) * 2048 + 1 * d.val = d.val; omega
  · show V c main_v5 (((cfg1.win 1).blk t).view.emb (ix2 d (y 2))) = V c main_v5 _
    refine congrArg (V c main_v5) (funext fun a => Fin.ext ?_)
    match a with
    | ⟨0, _⟩ => show win1_1.index t (0 : Fin 2) * 2048 + 1 * d.val = d.val; omega
    | ⟨1, _⟩ => show win1_1.index t (1 : Fin 2) * 4096 + 1 * (y 2).val = win1_3.index t (2 : Fin 3) * 4096 + 1 * (y 2).val; omega
  · show V c main_v9 (((cfg1.win 2).blk t).view.emb (ix2 (0 : Fin 1) (y 2))) = V c main_v9 _
    refine congrArg (V c main_v9) (funext fun a => Fin.ext ?_)
    match a with
    | ⟨0, _⟩ => show win1_2.index t (0 : Fin 2) * 1 + 1 * 0 = 0; omega
    | ⟨1, _⟩ => show win1_2.index t (1 : Fin 2) * 4096 + 1 * (y 2).val = win1_3.index t (2 : Fin 3) * 4096 + 1 * (y 2).val; omega

/-- An entry of the output array lies in the point `t`'s block when each coordinate is in the block's range. -/
theorem mem_blk1 (t : Fin cfg1.N) (i : S4x2048x4096.Idx) :
    i ∈ ((cfg1.win 3).blk t).view.set ↔ ∀ a : Fin 3, win1_3.index t a * S1x256x4096.size a ≤ (i a).val
      ∧ (i a).val < win1_3.index t a * S1x256x4096.size a + S1x256x4096.size a := by
  show i ∈ ((View.whole main_v17).slice (win1_3.rect t)).set ↔ _
  rw [View.set_slice_whole, Rect.mem_set_unit]
  exact Iff.rfl

/-- Every entry (b, n, h) is in the block of the point (b, n / 256): 256 · (n / 256) ≤ n < 256 · (n / 256) + 256. -/
theorem cover1 (i : S4x2048x4096.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 4096 := (i 2).isLt
  obtain ⟨t, ht⟩ := idx_onto1 ⟨(i 0).val, hi0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 4096 ≤ (i 2).val ∧ (i 2).val < win1_3.index t (2 : Fin 3) * 4096 + 4096; omega

/-- The output array after the region is `G1` of the three arrays the region found. -/
theorem final1 (c : Dev nD) :
    (dat1 (F := Ideal) V c).arrAt 3 cfg1.N = G1 (V c main_arg0) (V c main_v5) (V c main_v9) :=
  (dat1 V c).arrAt_eq_of_cover 3 _ (fun t _ => flushed_eq1 V c t) cover1

/-- The gate array at (b, n, h), the three arrays the region found named `X`, `W`, `B`. -/
theorem gate_array_of (c : Dev nD) (X : S4x2048x2048.Idx → EReal) (W : S2048x4096.Idx → EReal) (B : S1x4096.Idx → EReal)
    (hX : (V c main_arg0 : S4x2048x2048.Idx → EReal) = X) (hW : (V c main_v5 : S2048x4096.Idx → EReal) = W)
    (hB : (V c main_v9 : S1x4096.Idx → EReal) = B) (b : Fin 4) (n : Fin 2048) (h : Fin 4096) :
    ((dat1 (F := Ideal) V c).arrAt 3 cfg1.N : S4x2048x4096.Idx → EReal) (ix3 b n h)
      = Cert.Gau.silu ((∑ d : Fin 2048, X (ix3 b n d) * W (ix2 d h)) + B (ix2 (0 : Fin 1) h)) := by
  subst hX hW hB
  rw [final1]
  rfl

/-- The gate array at (b, n, h), over the arrays the region found. -/
theorem gate_array (c : Dev nD) (b : Fin 4) (n : Fin 2048) (h : Fin 4096) :
    ((dat1 (F := Ideal) V c).arrAt 3 cfg1.N : S4x2048x4096.Idx → EReal) (ix3 b n h)
      = gate1 (V c main_arg0) (V c main_v5) (V c main_v9) b n h :=
  gate_array_of V c _ _ _ rfl rfl rfl b n h

end Cert.Gau.Val

end
-- ==== Proof.Entry3.lean ====
/-
  The arrays the third region reads, entry by entry, as stages of the specification.

  Entering the third region the query, key and value arrays are what the first region wrote, the gate array what the
  second region wrote; the input, the output weight and the output bias are as the host operations left them. Each
  region's output array is a closed form of the arrays that region found, and those are entries of the argument arrays;
  so every entry the third region reads is the specification's stage of the same name at that entry.
-/
import proofs.«179628_j85083302134314_2_alg».proof.Proof.KI.RunVals
import proofs.«179628_j85083302134314_2_alg».proof.Proof.HostPre
import proofs.«179628_j85083302134314_2_alg».proof.Proof.Val0
import proofs.«179628_j85083302134314_2_alg».proof.Proof.Val1
import proofs.«179628_j85083302134314_2_alg».proof.Proof.Spec

set_option maxRecDepth 16384

noncomputable section

namespace Cert.Gau.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (c : Dev nD)

set_option quotPrecheck false

local notation "A0" => (m ((c : Thread nD τ).loc main_arg0) : S4x2048x2048.Idx → EReal)
local notation "A1" => (m ((c : Thread nD τ).loc main_arg1) : S2048x8192.Idx → EReal)
local notation "A2" => (m ((c : Thread nD τ).loc main_arg2) : S8192.Idx → EReal)
local notation "A3" => (m ((c : Thread nD τ).loc main_arg3) : S2048x128.Idx → EReal)
local notation "A4" => (m ((c : Thread nD τ).loc main_arg4) : S128.Idx → EReal)
local notation "A5" => (m ((c : Thread nD τ).loc main_arg5) : S128.Idx → EReal)
local notation "A6" => (m ((c : Thread nD τ).loc main_arg6) : S128.Idx → EReal)
local notation "A7" => (m ((c : Thread nD τ).loc main_arg7) : S128.Idx → EReal)
local notation "A8" => (m ((c : Thread nD τ).loc main_arg8) : S128.Idx → EReal)
local notation "A9" => (m ((c : Thread nD τ).loc main_arg9) : S4096x2048.Idx → EReal)
local notation "A10" => (m ((c : Thread nD τ).loc main_arg10) : S2048.Idx → EReal)

/-! ## The arrays no region writes -/

/-- The input array entering the third region is the argument. -/
theorem x_at : (W3 m c (Proc.devRef .tc main_arg0) : S4x2048x2048.Idx → EReal) = A0 := E3_x m c

/-- The output weight entering the third region is the argument, entry by entry. -/
theorem wo_at (h : Fin 4096) (d : Fin 2048) :
    (W3 m c (Proc.devRef .tc main_v7) : S4096x2048.Idx → EReal) (ix2 h d) = A9 (ix2 h d) := by
  rw [E3_wo m c]
  exact Cert.Gau.Host.v7_at m c h d

/-- The output bias row entering the third region is the argument vector. -/
theorem bo_at (d : Fin 2048) :
    (W3 m c (Proc.devRef .tc main_v15) : S1x2048.Idx → EReal) (ix2 (0 : Fin 1) d) = A10 (ix1 d) := by
  rw [E3_bo m c]
  exact Cert.Gau.Host.v15_at m c 0 d

/-! ## The gate: the second region's output -/

/-- The gate array entering the third region is the specification's gate: the second region found the input and
    the second halves of the fused weight and bias as the host operations left them. -/
theorem gate_at (b : Fin 4) (i : Fin 2048) (h : Fin 4096) :
    (W3 m c (Proc.devRef .tc main_v17) : S4x2048x4096.Idx → EReal) (ix3 b i h) = Cert.Gau.gate A0 A1 A2 b i h := by
  rw [E3_gate m c, gate_array_of (E2 m) c _ _ _ rfl rfl rfl b i h]
  unfold Cert.Gau.gate Cert.Gau.hid
  refine congrArg Cert.Gau.silu (congrArg₂ (· + ·) (Finset.sum_congr rfl fun d _ => congrArg₂ (· * ·) ?_ ?_) ?_)
  · exact congrFun (E2_x m c) (ix3 b i d)
  · exact (congrFun (E2_wg m c) (ix2 d h)).trans (Cert.Gau.Host.v5_at m c d h)
  · exact (congrFun (E2_bg m c) (ix2 (0 : Fin 1) h)).trans (Cert.Gau.Host.v9_at m c 0 h)

/-! ## The values, queries and keys: the first region's outputs -/

/-- The value array entering the third region is the specification's values: the first region found the input and
    the first halves of the fused weight and bias as the host operations left them. -/
theorem v_at (b : Fin 4) (j : Fin 2048) (h : Fin 4096) :
    (W3 m c (Proc.devRef .tc main_v16_0) : S4x2048x4096.Idx → EReal) (ix3 b j h) = Cert.Gau.val A0 A1 A2 b j h := by
  rw [E3_v m c, v_array_of (E1 m) c _ _ _ rfl rfl rfl b j h]
  unfold Cert.Gau.val Cert.Gau.hid
  refine congrArg Cert.Gau.silu (congrArg₂ (· + ·) (Finset.sum_congr rfl fun d _ => congrArg₂ (· * ·) ?_ ?_) ?_)
  · exact congrFun (Cert.Gau.Host.arg0_eq m c) (ix3 b j d)
  · exact Cert.Gau.Host.v4_at m c d h
  · exact Cert.Gau.Host.v8_at m c 0 h

/-- The query array entering the third region is the specification's queries. -/
theorem q_at (b : Fin 4) (i : Fin 2048) (e : Fin 128) :
    (W3 m c (Proc.devRef .tc main_v16_1) : S4x2048x128.Idx → EReal) (ix3 b i e) = Cert.Gau.qry A0 A3 A4 A5 A6 b i e := by
  rw [E3_q m c, q_array_of (E1 m) c _ _ _ _ _ rfl rfl rfl rfl rfl b i e]
  unfold Cert.Gau.qry Cert.Gau.qk
  refine congrArg₂ (· + ·) (congrArg₂ (· * ·) (congrArg Cert.Gau.silu (congrArg₂ (· + ·)
    (Finset.sum_congr rfl fun d _ => congrArg₂ (· * ·) ?_ ?_) ?_)) ?_) ?_
  · exact congrFun (Cert.Gau.Host.arg0_eq m c) (ix3 b i d)
  · exact Cert.Gau.Host.v6_at m c d e
  · exact Cert.Gau.Host.v10_at m c 0 e
  · exact Cert.Gau.Host.v11_at m c 0 e
  · exact Cert.Gau.Host.v12_at m c 0 e

/-- The key array entering the third region is the specification's keys. -/
theorem k_at (b : Fin 4) (i : Fin 2048) (e : Fin 128) :
    (W3 m c (Proc.devRef .tc main_v16_2) : S4x2048x128.Idx → EReal) (ix3 b i e) = Cert.Gau.key A0 A3 A4 A7 A8 b i e := by
  rw [E3_k m c, k_array_of (E1 m) c _ _ _ _ _ rfl rfl rfl rfl rfl b i e]
  unfold Cert.Gau.key Cert.Gau.qk
  refine congrArg₂ (· + ·) (congrArg₂ (· * ·) (congrArg Cert.Gau.silu (congrArg₂ (· + ·)
    (Finset.sum_congr rfl fun d _ => congrArg₂ (· * ·) ?_ ?_) ?_)) ?_) ?_
  · exact congrFun (Cert.Gau.Host.arg0_eq m c) (ix3 b i d)
  · exact Cert.Gau.Host.v6_at m c d e
  · exact Cert.Gau.Host.v10_at m c 0 e
  · exact Cert.Gau.Host.v13_at m c 0 e
  · exact Cert.Gau.Host.v14_at m c 0 e

end Cert.Gau.Val

end
-- ==== Proof.KernelIsG.lean ====
/-
  The kernel program's result is the gated attention unit of the specification.

  After the third region the output array holds, at entry `(b, i, d)`,
  `(Σ_h (Σ_j relu2 ((q_i · k_j) · 2⁻¹¹) · v[j, h]) · gate[i, h] · W_o[h, d] + b_o[d]) + x[i, d]`
  of what the region found in its operands. Those operands are, entry by entry, the specification's
  queries, keys, values and gate of the argument arrays, and the output weights, the output bias and
  the input themselves; and scaling by `2⁻¹¹` is dividing by the sequence length `2048`. So the array
  is the specification's `G` of the eleven argument arrays.
-/
import proofs.«179628_j85083302134314_2_alg».proof.Proof.Val2
import proofs.«179628_j85083302134314_2_alg».proof.Proof.KI.Run
import proofs.«179628_j85083302134314_2_alg».proof.Proof.Spec
import proofs.«179628_j85083302134314_2_alg».proof.Proof.Entry3

set_option maxRecDepth 16384

noncomputable section

namespace Cert.Gau.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Hand
open scoped BigOperators

/-- A function on a rank-three array is determined by its entries. -/
theorem ext_entries {α : Type} {n0 n1 n2 : ℕ} {f g : (⟨3, ![n0, n1, n2]⟩ : Shape).Idx → α}
    (H : ∀ (a : Fin n0) (b : Fin n1) (x : Fin n2), f (ix3 a b x) = g (ix3 a b x)) : f = g := by
  funext j
  rw [eq_ix3 j]
  exact H _ _ _

/-- THE KERNEL'S RESULT: after the third region the output array is the specification's `G` of the eleven
    argument arrays. -/
theorem result_is_G (m : (ℓ : Loc nD τ sig) → Buf (Elt Ideal) ℓ) (c : Dev nD) :
    (dat2 (F := Ideal) (E3 m) c).arrAt 7 cfg2.N
      = Cert.Gau.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  refine ext_entries (n0 := 4) (n1 := 2048) (n2 := 2048) fun b i d => ?_
  refine (out_array (E3 m) c b i d).trans ?_
  have hq : ∀ (n : Fin 2048) (e : Fin 128), opQ (E3 m) c (ix3 b n e) = _ := fun n e => q_at m c b n e
  have hk : ∀ (n : Fin 2048) (e : Fin 128), opK (E3 m) c (ix3 b n e) = _ := fun n e => k_at m c b n e
  have hv : ∀ (n : Fin 2048) (h : Fin 4096), opV (E3 m) c (ix3 b n h) = _ := fun n h => v_at m c b n h
  have hg : ∀ (n : Fin 2048) (h : Fin 4096), opG (E3 m) c (ix3 b n h) = _ := fun n h => gate_at m c b n h
  have hx : opX (E3 m) c (ix3 b i d) = _ := congrFun (x_at m c) (ix3 b i d)
  have hw : ∀ (h : Fin 4096), opW (E3 m) c (ix2 h d) = _ := fun h => wo_at m c h d
  have hb : opB (E3 m) c (ix2 (0 : Fin 1) d) = _ := bo_at m c d
  rw [Cert.Gau.G_apply]
  unfold Cert.Gau.out Cert.Gau.gated Cert.Gau.mixed Cert.Gau.attn Cert.Gau.dotQK contrib
  simp only [hq, hk, hv, hg, hx, hw, hb, scale_eq]

end Cert.Gau.Val

end
-- ==== Proof.RefG1.lean ====
/-
  The reference program's spelling of the sigmoid-weighted identity.

  The reference writes `silu z` as a product of `z` with a quotient whose numerator and whose first
  summand of the denominator are the `f32` word of `1.0`. That word denotes the real number one, and
  with it the quotient is the sigmoid by definition.
-/
import proofs.«179628_j85083302134314_2_alg».proof.Proof.Math
import proofs.«179628_j85083302134314_2_alg».proof.Proof.LibReal

noncomputable section

namespace Cert.Gau.Ref

open Idealize.ShloMosaic

/-- `z · (1 / (1 + e^(−z))) = silu z`, the two ones being the `f32` word of `1.0`. -/
theorem silu_words (z : EReal) :
    z * Ideal.div (Ideal.ofBits .f32 0x3F800000#32) (Ideal.ofBits .f32 0x3F800000#32 + Ideal.exp (-z)) = silu z := by
  rw [Cert.GinMath.ofBits_one, EReal.coe_one, logistic_spelt]
  rfl

end Cert.Gau.Ref

end
-- ==== Proof.RefG2.lean ====
/-
  The reference program's hidden projection, read entry by entry.

  The reference computes `x · W_h + b_h` as a contraction over the feature axis followed by the bias
  broadcast along batch and position, applies the sigmoid-weighted identity spelt out with a negation,
  an exponential, `1 + ·`, `1 / ·` and a product, and cuts the result into its first and last 4096
  columns. Entry by entry these are the hidden projection, the values and the gate of the specification.
-/
import proofs.«179628_j85083302134314_2_alg».proof.Proof.Gen.ReferenceIdeal.Read
import proofs.«179628_j85083302134314_2_alg».proof.Proof.Spec
import proofs.«179628_j85083302134314_2_alg».proof.Proof.LibReal
import proofs.«179628_j85083302134314_2_alg».proof.Proof.RefG1

noncomputable section

namespace Cert.Gau.Ref

open Idealize.ShloMosaic Idealize.ShloMosaic.ValueIdx Cert.ReferenceIdeal Cert.ReferenceIdeal.Read

section
variable (x0 : (⟨S4x2048x2048, .f32⟩ : BufTy).Contents (Elt Ideal)) (x1 : (⟨S2048x8192, .f32⟩ : BufTy).Contents (Elt Ideal))
  (x2 : (⟨S8192, .f32⟩ : BufTy).Contents (Elt Ideal))

/-- The contraction's left index at entry `(b, n, h)`, summand `k`: row `(b, n)` of the input, feature `k`. -/
theorem lidx_v0 (b : Fin 4) (n : Fin 2048) (h : Fin 8192) (k : Fin 2048) :
    lidx_main_v0 (ix3 b n h) k = ix3 b n k :=
  funext fun a => Fin.ext (by match a with | ⟨0, _⟩ => rfl | ⟨1, _⟩ => rfl | ⟨2, _⟩ => rfl)

/-- The contraction's right index at entry `(b, n, h)`, summand `k`: row `k`, column `h` of the weights. -/
theorem ridx_v0 (b : Fin 4) (n : Fin 2048) (h : Fin 8192) (k : Fin 2048) :
    ridx_main_v0 (ix3 b n h) k = ix2 k h :=
  funext fun a => Fin.ext (by match a with | ⟨0, _⟩ => rfl | ⟨1, _⟩ => rfl)

/-- The bias broadcast along batch and position reads the bias at the column. -/
theorem idx_v2 (b : Fin 4) (n : Fin 2048) (h : Fin 8192) :
    idx_main_v1 (idx_main_v2 (ix3 b n h)) = ix1 h :=
  funext fun a => Fin.ext (by match a with | ⟨0, _⟩ => rfl)

/-- The projection before the activation: `Σ_d x[b,n,d] · W_h[d,h] + b_h[h]`. -/
theorem v3_at (b : Fin 4) (n : Fin 2048) (h : Fin 8192) :
    val_main_v3 (F := Ideal) x0 x1 x2 (ix3 b n h)
      = (∑ d : Fin 2048, x0 (ix3 b n d) * x1 (ix2 d h)) + x2 (ix1 h) := by
  rw [val_main_v3_apply, val_main_v0_apply, val_main_v2_apply, val_main_v1_apply, Ideal.addf_def]
  simp only [lidx_v0, ridx_v0, idx_v2]

/-- The activation, at any entry: the reference's five operations are the sigmoid-weighted identity. -/
theorem v4_silu (i : S4x2048x8192.Idx) :
    val_main_v4 (F := Ideal) x0 x1 x2 i = silu (val_main_v3 (F := Ideal) x0 x1 x2 i) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.ofBits_def, Ideal.addf_def, Ideal.hostUnary_exp_def,
    Ideal.hostNegf_def, Ideal.negf_def]
  exact silu_words _

/-- The hidden projection at an entry. -/
theorem v4_at (b : Fin 4) (n : Fin 2048) (h : Fin 8192) :
    val_main_v4 (F := Ideal) x0 x1 x2 (ix3 b n h) = hid x0 x1 x2 b n h := by
  rw [v4_silu, v3_at]
  rfl

/-- The first slice keeps the column. -/
theorem idx_v5 (b : Fin 4) (n : Fin 2048) (h : Fin 4096) :
    idx_main_v5 (ix3 b n h) = ix3 b n (⟨h.val, by omega⟩ : Fin 8192) :=
  funext fun a => Fin.ext (by match a with | ⟨0, _⟩ => rfl | ⟨1, _⟩ => rfl | ⟨2, _⟩ => rfl)

/-- The second slice shifts the column by 4096. -/
theorem idx_v6 (b : Fin 4) (n : Fin 2048) (h : Fin 4096) :
    idx_main_v6 (ix3 b n h) = ix3 b n (⟨4096 + h.val, by omega⟩ : Fin 8192) :=
  funext fun a => Fin.ext (by match a with | ⟨0, _⟩ => rfl | ⟨1, _⟩ => rfl | ⟨2, _⟩ => rfl)

/-- The first slice is the values. -/
theorem v5_at (b : Fin 4) (n : Fin 2048) (h : Fin 4096) :
    val_main_v5 (F := Ideal) x0 x1 x2 (ix3 b n h) = val x0 x1 x2 b n h := by
  rw [val_main_v5_apply, idx_v5, v4_at]
  rfl

/-- The second slice is the gate. -/
theorem v6_at (b : Fin 4) (n : Fin 2048) (h : Fin 4096) :
    val_main_v6 (F := Ideal) x0 x1 x2 (ix3 b n h) = gate x0 x1 x2 b n h := by
  rw [val_main_v6_apply, idx_v6, v4_at]
  rfl

end

end Cert.Gau.Ref

end
-- ==== Proof.RefG3.lean ====
/-
  The reference program's attention weights, read entry by entry.

  The reference computes the shared projection `silu (x · W_qk + b_qk)` as it computes the hidden one,
  rescales it twice by a row broadcast along batch and position (`· γ + β`) into queries and keys,
  contracts queries against keys over the 128 shared features within each batch, divides by the
  sequence length and squares the positive part. Entry by entry these are the shared projection, the
  queries, the keys, the query–key product and the attention weights of the specification.
-/
import proofs.«179628_j85083302134314_2_alg».proof.Proof.Gen.ReferenceIdeal.Read
import proofs.«179628_j85083302134314_2_alg».proof.Proof.Spec
import proofs.«179628_j85083302134314_2_alg».proof.Proof.LibReal
import proofs.«179628_j85083302134314_2_alg».proof.Proof.RefG1

noncomputable section

namespace Cert.Gau.Ref

open Idealize.ShloMosaic Idealize.ShloMosaic.ValueIdx Cert.ReferenceIdeal Cert.ReferenceIdeal.Read

section
variable (x0 : (⟨S4x2048x2048, .f32⟩ : BufTy).Contents (Elt Ideal)) (x3 : (⟨S2048x128, .f32⟩ : BufTy).Contents (Elt Ideal))
  (x4 x5 x6 x7 x8 : (⟨S128, .f32⟩ : BufTy).Contents (Elt Ideal))

/-- The contraction's left index at entry `(b, n, e)`, summand `k`: row `(b, n)` of the input, feature `k`. -/
theorem lidx_v7 (b : Fin 4) (n : Fin 2048) (e : Fin 128) (k : Fin 2048) :
    lidx_main_v7 (ix3 b n e) k = ix3 b n k :=
  funext fun a => Fin.ext (by match a with | ⟨0, _⟩ => rfl | ⟨1, _⟩ => rfl | ⟨2, _⟩ => rfl)

/-- The contraction's right index at entry `(b, n, e)`, summand `k`: row `k`, column `e` of the weights. -/
theorem ridx_v7 (b : Fin 4) (n : Fin 2048) (e : Fin 128) (k : Fin 2048) :
    ridx_main_v7 (ix3 b n e) k = ix2 k e :=
  funext fun a => Fin.ext (by match a with | ⟨0, _⟩ => rfl | ⟨1, _⟩ => rfl)

/-- A row of 128 broadcast along batch and position is read at the column: the bias of the projection. -/
theorem idx_v9 (b : Fin 4) (n : Fin 2048) (e : Fin 128) :
    idx_main_v8 (idx_main_v9 (ix3 b n e)) = ix1 e :=
  funext fun a => Fin.ext (by match a with | ⟨0, _⟩ => rfl)

/-- The same for the queries' scale. -/
theorem idx_v13 (b : Fin 4) (n : Fin 2048) (e : Fin 128) :
    idx_main_v12 (idx_main_v13 (ix3 b n e)) = ix1 e :=
  funext fun a => Fin.ext (by match a with | ⟨0, _⟩ => rfl)

/-- The same for the queries' shift. -/
theorem idx_v16 (b : Fin 4) (n : Fin 2048) (e : Fin 128) :
    idx_main_v15 (idx_main_v16 (ix3 b n e)) = ix1 e :=
  funext fun a => Fin.ext (by match a with | ⟨0, _⟩ => rfl)

/-- The same for the keys' scale. -/
theorem idx_v19 (b : Fin 4) (n : Fin 2048) (e : Fin 128) :
    idx_main_v18 (idx_main_v19 (ix3 b n e)) = ix1 e :=
  funext fun a => Fin.ext (by match a with | ⟨0, _⟩ => rfl)

/-- The same for the keys' shift. -/
theorem idx_v22 (b : Fin 4) (n : Fin 2048) (e : Fin 128) :
    idx_main_v21 (idx_main_v22 (ix3 b n e)) = ix1 e :=
  funext fun a => Fin.ext (by match a with | ⟨0, _⟩ => rfl)

/-- The shared projection before the activation: `Σ_d x[b,n,d] · W_qk[d,e] + b_qk[e]`. -/
theorem v10_at (b : Fin 4) (n : Fin 2048) (e : Fin 128) :
    val_main_v10 (F := Ideal) x0 x3 x4 (ix3 b n e)
      = (∑ d : Fin 2048, x0 (ix3 b n d) * x3 (ix2 d e)) + x4 (ix1 e) := by
  rw [val_main_v10_apply, val_main_v7_apply, val_main_v9_apply, val_main_v8_apply, Ideal.addf_def]
  simp only [lidx_v7, ridx_v7, idx_v9]

/-- The activation, at any entry: the reference's five operations are the sigmoid-weighted identity. -/
theorem v11_silu (i : S4x2048x128.Idx) :
    val_main_v11 (F := Ideal) x0 x3 x4 i = silu (val_main_v10 (F := Ideal) x0 x3 x4 i) := by
  rw [val_main_v11_apply, val_main_call1_v5_apply, val_main_call1_v4_apply, val_main_call1_cst_0_apply,
    val_main_call1_v3_apply, val_main_call1_v2_apply, val_main_call1_cst_apply, val_main_call1_v1_apply,
    val_main_call1_v0_apply]
  simp only [Ideal.mulf_def, Ideal.hostDivf_def, Ideal.ofBits_def, Ideal.addf_def, Ideal.hostUnary_exp_def,
    Ideal.hostNegf_def, Ideal.negf_def]
  exact silu_words _

/-- The shared projection at an entry. -/
theorem v11_at (b : Fin 4) (n : Fin 2048) (e : Fin 128) :
    val_main_v11 (F := Ideal) x0 x3 x4 (ix3 b n e) = qk x0 x3 x4 b n e := by
  rw [v11_silu, v10_at]
  rfl

/-- The queries: the shared projection times `γ_q` plus `β_q`. -/
theorem v17_at (b : Fin 4) (n : Fin 2048) (e : Fin 128) :
    val_main_v17 (F := Ideal) x0 x3 x4 x5 x6 (ix3 b n e) = qry x0 x3 x4 x5 x6 b n e := by
  rw [val_main_v17_apply, val_main_v14_apply, val_main_v13_apply, val_main_v12_apply, val_main_v16_apply,
    val_main_v15_apply, idx_v13, idx_v16, v11_at, Ideal.addf_def, Ideal.mulf_def]
  rfl

/-- The keys: the shared projection times `γ_k` plus `β_k`. -/
theorem v23_at (b : Fin 4) (n : Fin 2048) (e : Fin 128) :
    val_main_v23 (F := Ideal) x0 x3 x4 x7 x8 (ix3 b n e) = key x0 x3 x4 x7 x8 b n e := by
  rw [val_main_v23_apply, val_main_v20_apply, val_main_v19_apply, val_main_v18_apply, val_main_v22_apply,
    val_main_v21_apply, idx_v19, idx_v22, v11_at, Ideal.addf_def, Ideal.mulf_def]
  rfl

/-- The batched contraction's left index at entry `(b, i, j)`, summand `k`: the query of position `i`. -/
theorem lidx_v24 (b : Fin 4) (i j : Fin 2048) (k : Fin 128) :
    lidx_main_v24 (ix3 b i j) k = ix3 b i k :=
  funext fun a => Fin.ext (by match a with | ⟨0, _⟩ => rfl | ⟨1, _⟩ => rfl | ⟨2, _⟩ => rfl)

/-- The batched contraction's right index at entry `(b, i, j)`, summand `k`: the key of position `j`. -/
theorem ridx_v24 (b : Fin 4) (i j : Fin 2048) (k : Fin 128) :
    ridx_main_v24 (ix3 b i j) k = ix3 b j k :=
  funext fun a => Fin.ext (by match a with | ⟨0, _⟩ => rfl | ⟨1, _⟩ => rfl | ⟨2, _⟩ => rfl)

/-- The query–key product of positions `i` and `j`. -/
theorem v24_at (b : Fin 4) (i j : Fin 2048) :
    val_main_v24 (F := Ideal) x0 x3 x4 x5 x6 x7 x8 (ix3 b i j) = dotQK x0 x3 x4 x5 x6 x7 x8 b i j := by
  rw [val_main_v24_apply]
  simp only [lidx_v24, ridx_v24, v17_at, v23_at]
  rfl

/-- The attention weight: the product over the sequence length, its positive part squared. The divisor's word is
    kept as it is; the word of `0.0` in the positive part is the real zero. -/
theorem v28_at (b : Fin 4) (i j : Fin 2048) :
    val_main_v28 (F := Ideal) x0 x3 x4 x5 x6 x7 x8 (ix3 b i j) = attn x0 x3 x4 x5 x6 x7 x8 b i j := by
  rw [val_main_v28_apply, val_main_v27_apply, val_main_v26_apply, val_main_v25_apply, val_main_cst_apply,
    val_main_call2_v0_apply, val_main_call2_cst_apply, v24_at]
  simp only [Ideal.mulf_def, Ideal.maximumf_def, Ideal.hostDivf_def, Ideal.ofBits_def]
  rw [Cert.GinMath.ofBits_zero]
  rfl

end

end Cert.Gau.Ref

end
-- ==== Proof.RefG.lean ====
/-
  The reference program computes the gated attention unit of the specification.

  The last operations of the reference contract the attention weights against the values over the
  positions within each batch, multiply by the gate entry by entry, contract against the output weights
  over the 4096 gated columns, add the output bias broadcast along batch and position, and add the input
  as a residual. Entry by entry these are the weighted values, the gated values and the output of the
  specification; with the earlier stages, the reference's result array is the specification's `G`.
-/
import proofs.«179628_j85083302134314_2_alg».proof.Proof.Gen.ReferenceIdeal.Read
import proofs.«179628_j85083302134314_2_alg».proof.Proof.Spec
import proofs.«179628_j85083302134314_2_alg».proof.Proof.RefG2
import proofs.«179628_j85083302134314_2_alg».proof.Proof.RefG3

noncomputable section

namespace Cert.Gau.Ref

open Idealize.ShloMosaic Idealize.ShloMosaic.ValueIdx Cert.ReferenceIdeal Cert.ReferenceIdeal.Read

section
variable (x0 : (⟨S4x2048x2048, .f32⟩ : BufTy).Contents (Elt Ideal)) (x1 : (⟨S2048x8192, .f32⟩ : BufTy).Contents (Elt Ideal))
  (x2 : (⟨S8192, .f32⟩ : BufTy).Contents (Elt Ideal)) (x3 : (⟨S2048x128, .f32⟩ : BufTy).Contents (Elt Ideal))
  (x4 x5 x6 x7 x8 : (⟨S128, .f32⟩ : BufTy).Contents (Elt Ideal)) (x9 : (⟨S4096x2048, .f32⟩ : BufTy).Contents (Elt Ideal))
  (x10 : (⟨S2048, .f32⟩ : BufTy).Contents (Elt Ideal))

/-- The batched contraction's left index at entry `(b, i, h)`, summand `k`: the weight of position `k` for `i`. -/
theorem lidx_v29 (b : Fin 4) (i : Fin 2048) (h : Fin 4096) (k : Fin 2048) :
    lidx_main_v29 (ix3 b i h) k = ix3 b i k :=
  funext fun a => Fin.ext (by match a with | ⟨0, _⟩ => rfl | ⟨1, _⟩ => rfl | ⟨2, _⟩ => rfl)

/-- The batched contraction's right index at entry `(b, i, h)`, summand `k`: the value of position `k`, column `h`. -/
theorem ridx_v29 (b : Fin 4) (i : Fin 2048) (h : Fin 4096) (k : Fin 2048) :
    ridx_main_v29 (ix3 b i h) k = ix3 b k h :=
  funext fun a => Fin.ext (by match a with | ⟨0, _⟩ => rfl | ⟨1, _⟩ => rfl | ⟨2, _⟩ => rfl)

/-- The weighted values: `Σ_j attn[b,i,j] · val[b,j,h]`. -/
theorem v29_at (b : Fin 4) (i : Fin 2048) (h : Fin 4096) :
    val_main_v29 (F := Ideal) x0 x1 x2 x3 x4 x5 x6 x7 x8 (ix3 b i h) = mixed x0 x1 x2 x3 x4 x5 x6 x7 x8 b i h := by
  rw [val_main_v29_apply]
  simp only [lidx_v29, ridx_v29, v28_at, v5_at]
  rfl

/-- The gated values: the weighted values times the gate. -/
theorem v30_at (b : Fin 4) (i : Fin 2048) (h : Fin 4096) :
    val_main_v30 (F := Ideal) x0 x1 x2 x3 x4 x5 x6 x7 x8 (ix3 b i h) = gated x0 x1 x2 x3 x4 x5 x6 x7 x8 b i h := by
  rw [val_main_v30_apply, v29_at, v6_at, Ideal.mulf_def]
  rfl

/-- The output contraction's left index at entry `(b, i, d)`, summand `k`: the gated value of column `k`. -/
theorem lidx_v31 (b : Fin 4) (i d : Fin 2048) (k : Fin 4096) :
    lidx_main_v31 (ix3 b i d) k = ix3 b i k :=
  funext fun a => Fin.ext (by match a with | ⟨0, _⟩ => rfl | ⟨1, _⟩ => rfl | ⟨2, _⟩ => rfl)

/-- The output contraction's right index at entry `(b, i, d)`, summand `k`: row `k`, column `d` of the weights. -/
theorem ridx_v31 (b : Fin 4) (i d : Fin 2048) (k : Fin 4096) :
    ridx_main_v31 (ix3 b i d) k = ix2 k d :=
  funext fun a => Fin.ext (by match a with | ⟨0, _⟩ => rfl | ⟨1, _⟩ => rfl)

/-- The output bias broadcast along batch and position is read at the feature. -/
theorem idx_v33 (b : Fin 4) (i d : Fin 2048) :
    idx_main_v32 (idx_main_v33 (ix3 b i d)) = ix1 d :=
  funext fun a => Fin.ext (by match a with | ⟨0, _⟩ => rfl)

/-- The output: `(Σ_h gated[b,i,h] · W_o[h,d] + b_o[d]) + x[b,i,d]`. -/
theorem v35_at (b : Fin 4) (i d : Fin 2048) :
    val_main_v35 (F := Ideal) x0 x1 x2 x3 x4 x5 x6 x7 x8 x9 x10 (ix3 b i d)
      = out x0 x1 x2 x3 x4 x5 x6 x7 x8 x9 x10 b i d := by
  rw [val_main_v35_apply, val_main_v34_apply, val_main_v31_apply, val_main_v33_apply, val_main_v32_apply, idx_v33,
    Ideal.addf_def, Ideal.addf_def]
  simp only [lidx_v31, ridx_v31, v30_at]
  rfl

end

/-- The reference's result array is the specification's, as functions of the eleven argument arrays. -/
theorem ref_is_G (x0 : (⟨S4x2048x2048, .f32⟩ : BufTy).Contents (Elt Ideal)) (x1 : (⟨S2048x8192, .f32⟩ : BufTy).Contents (Elt Ideal))
    (x2 : (⟨S8192, .f32⟩ : BufTy).Contents (Elt Ideal)) (x3 : (⟨S2048x128, .f32⟩ : BufTy).Contents (Elt Ideal))
    (x4 x5 x6 x7 x8 : (⟨S128, .f32⟩ : BufTy).Contents (Elt Ideal)) (x9 : (⟨S4096x2048, .f32⟩ : BufTy).Contents (Elt Ideal))
    (x10 : (⟨S2048, .f32⟩ : BufTy).Contents (Elt Ideal)) :
    Cert.ReferenceIdeal.Read.val_main_v35 (F := Ideal) x0 x1 x2 x3 x4 x5 x6 x7 x8 x9 x10
      = Cert.Gau.G x0 x1 x2 x3 x4 x5 x6 x7 x8 x9 x10 := by
  funext i
  obtain ⟨b, n, d, rfl⟩ : ∃ (b : Fin 4) (n : Fin 2048) (d : Fin 2048), i = ix3 b n d := ⟨i 0, i 1, i 2, eq_ix3 i⟩
  rw [v35_at, G_apply]

end Cert.Gau.Ref

end
-- ==== Proof.lean ====
/-
  The gated attention unit written as three kernels equals its plain reference, on the extended reals.

  Frames. Each of the two printed kernel programs is sixteen host operations followed by three kernel regions; its run is
  assembled region by region (Proof/K/Run.lean at the word-level instance, Proof/KI/Run.lean at the exact one): every weakly
  fair execution terminates, faults nowhere and leaves the eleven argument arrays as launched. The reference is host
  operations only, and its frame is its run with the result dropped.
  Preservation. The idealized kernel program is the printed one read at the exact instance: nothing was rewritten.
  Values. At the exact instance the kernel program's result array is `Cert.Gau.G` of the argument arrays
  (Proof/KernelIsG.lean): the two projection kernels compute `silu (x · W + b)` per row tile; the attention kernel adds
  the eight key tiles' contributions `relu2 ((q · kᵀ) · 2⁻¹¹) · v` into a running sum, which is a regrouping of one sum
  over the 2048 keys, and multiplying by the word of 2⁻¹¹ is dividing by the word of 2048; then gate, output projection
  and residual are entry by entry the reference's. The reference's result is the same `G` (Proof/RefG.lean). No law used
  needs finiteness, so the precondition is never opened.
-/
import proofs.«179628_j85083302134314_2_alg».proof.Defs
import proofs.«179628_j85083302134314_2_alg».proof.Proof.Gen.Kernel
import proofs.«179628_j85083302134314_2_alg».proof.Proof.Gen.KernelIdeal
import proofs.«179628_j85083302134314_2_alg».proof.Proof.Gen.ReferenceIdeal
import proofs.«179628_j85083302134314_2_alg».proof.Proof.Gen.ReferenceIdeal.Run
import proofs.«179628_j85083302134314_2_alg».proof.Proof.Gen.ReferenceIdeal.Read
import proofs.«179628_j85083302134314_2_alg».proof.Proof.Gen.Pre_finite_inputs
import proofs.«179628_j85083302134314_2_alg».proof.Proof.K.Run
import proofs.«179628_j85083302134314_2_alg».proof.Proof.KI.Run
import proofs.«179628_j85083302134314_2_alg».proof.Proof.KernelIsG
import proofs.«179628_j85083302134314_2_alg».proof.Proof.RefG
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ =>
  (θ_run Cert.Kernel.defs _ _).mono (fun _ h c => (h c).2) (Cert.Kernel.Hand.run (F := Bits) m ρ)

/-- So does the idealized kernel program. -/
theorem frame_ki : Cert.frame_KernelIdeal := fun m ρ _ =>
  (θ_run Cert.KernelIdeal.defs _ _).mono (fun _ h c => (h c).2) (Cert.KernelIdeal.Hand.run (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten by the idealization. -/
theorem preserves : Cert.preserves_Kernel_KernelIdeal := trivial

/-- From memories agreeing on the arguments both idealized programs end with the same result array, `G` of the
    arguments, and unchanged arguments. -/
theorem algebraic : Cert.algebraic_KernelIdeal_ReferenceIdeal := by
  intro m ρ m' ρ' _ hagree
  refine ⟨fun c => Cert.Gau.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    (θ_run Cert.KernelIdeal.defs _ _).mono (fun _ h c => ⟨(h c).1.trans (Cert.Gau.Val.result_is_G m c), (h c).2⟩)
      (Cert.KernelIdeal.Hand.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.Gau.Ref.ref_is_G,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
